-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S16384x2 : Shape := ⟨2, ![16384, 2]⟩
abbrev S256x64 : Shape := ⟨2, ![256, 64]⟩
abbrev S64 : Shape := ⟨1, ![64]⟩
abbrev S128x16 : Shape := ⟨2, ![128, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S16 .f32) (main_arg7 : FVec F S16x1 .f32) (main_arg8 : FVec F S1 .f32) (main_v13 : IVec S_ 1) (main_v16 : IVec S128x16 1) : IVec S_ 1 :=
  let main_c_5 : IVec S_ 1 := constantI S_ 1 1#1
  let main_v17 : IVec S_ 1 := (fun x v => Host.reduce IntOp.andi x v reducesTo_S128x16_S_d0_1 h_S_) main_v16 main_c_5
  let main_v18 : IVec S_ 1 := andi main_v13 main_v17
  let main_v19 : FVec F S16 .f32 := Host.absf main_arg6
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x1 .f32 := Host.absf main_arg7
  let main_cst_8 : FVec F S_ .f32 := constant S_ .f32 0x7F800000#32
  let main_v25 : FVec F S16x1 .f32 := broadcastInDim S16x1 ![] bcast_S_S16x1 main_cst_8
  let main_v26 : IVec S16x1 1 := cmpf .olt main_v24 main_v25
  let main_c_9 : IVec S_ 1 := constantI S_ 1 1#1
  let main_v27 : IVec S_ 1 := (fun x v => Host.reduce IntOp.andi x v reducesTo_S16x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x256 .f32) (main_arg1 : IVec S2x1600000 32) (main_arg2 : IVec S16384x2 32) (main_arg3 : FVec F S256x64 .f32) (main_arg4 : FVec F S64 .f32) (main_arg5 : FVec F S128x16 .f32) (main_arg6 : FVec F S16 .f32) (main_arg7 : FVec F S16x1 .f32) (main_arg8 : FVec F S1 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x64 .f32 := Host.absf main_arg3
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S128x16 .f32 := Host.absf main_arg5
  let main_cst_4 : FVec F S_ .f32 := constant S_ .f32 0x7F800000#32
  let main_v15 : FVec F S128x16 .f32 := broadcastInDim S128x16 ![] bcast_S_S128x16 main_cst_4
  let main_v16 : IVec S128x16 1 := cmpf .olt main_v14 main_v15
  fn_part1 (F := F) main_arg6 main_arg7 main_arg8 main_v13 main_v16
-- ==== Kernel.lean ====
abbrev S100000x256 : Shape := ⟨2, ![100000, 256]⟩
abbrev S2x1600000 : Shape := ⟨2, ![2, 1600000]⟩
abbrev S16384x2 : Shape := ⟨2, ![16384, 2]⟩
abbrev S256x64 : Shape := ⟨2, ![256, 64]⟩
abbrev S64 : Shape := ⟨1, ![64]⟩
abbrev S128x16 : Shape := ⟨2, ![128, 16]⟩
abbrev S16 : Shape := ⟨1, ![16]⟩
abbrev S16x1 : Shape := ⟨2, ![16, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S100000x64 : Shape := ⟨2, ![100000, 64]⟩
abbrev S5000x256 : Shape := ⟨2, ![5000, 256]⟩
abbrev S5000x1 : Shape := ⟨2, ![5000, 1]⟩
abbrev S5000x64 : Shape := ⟨2, ![5000, 64]⟩
abbrev S1700000x64 : Shape := ⟨2, ![1700000, 64]⟩
abbrev S1x64 : Shape := ⟨2, ![1, 64]⟩
abbrev S16384x1 : Shape := ⟨2, ![16384, 1]⟩
abbrev S16384 : Shape := ⟨1, ![16384]⟩
abbrev S16384x64 : Shape := ⟨2, ![16384, 64]⟩
abbrev S1x16 : Shape := ⟨2, ![1, 16]⟩
abbrev S1x1 : Shape := ⟨2, ![1, 1]⟩
abbrev S2048x64 : Shape := ⟨2, ![2048, 64]⟩
abbrev S2048x1 : Shape := ⟨2, ![2048, 1]⟩
abbrev S2048x128 : Shape := ⟨2, ![2048, 128]⟩
abbrev S2048x16 : Shape := ⟨2, ![2048, 16]⟩

abbrev nBuf : Space → Nat
  | .hbm => 84
  | .vmem => 17
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S16384x2, .i32⟩
  | .hbm, ⟨3, _⟩ => ⟨S256x64, .f32⟩
  | .hbm, ⟨4, _⟩ => ⟨S64, .f32⟩
  | .hbm, ⟨5, _⟩ => ⟨S128x16, .f32⟩
  | .hbm, ⟨6, _⟩ => ⟨S16, .f32⟩
  | .hbm, ⟨7, _⟩ => ⟨S16x1, .f32⟩
  | .hbm, ⟨8, _⟩ => ⟨S1, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S100000x64, .bf16⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000x64, .bf16⟩
  | .hbm, ⟨41, _⟩ => ⟨S1700000x64, .f32⟩
  | .hbm, ⟨42, _⟩ => ⟨S_, .f32⟩
  | .hbm, ⟨43, _⟩ => ⟨S100000x64, .f32⟩
  | .hbm, ⟨44, _⟩ => ⟨S1700000x1, .i32⟩
  | .hbm, ⟨45, _⟩ => ⟨S100000x64, .f32⟩
  | .hbm, ⟨46, _⟩ => ⟨S100000x1, .f32⟩
  | .hbm, ⟨47, _⟩ => ⟨S100000x64, .f32⟩
  | .hbm, ⟨48, _⟩ => ⟨S100000x64, .f32⟩
  | .hbm, ⟨49, _⟩ => ⟨S1x64, .f32⟩
  | .hbm, ⟨50, _⟩ => ⟨S100000x64, .f32⟩
  | .hbm, ⟨51, _⟩ => ⟨S100000x64, .f32⟩
  | .hbm, ⟨52, _⟩ => ⟨S_, .f32⟩
  | .hbm, ⟨53, _⟩ => ⟨S100000x64, .f32⟩
  | .hbm, ⟨54, _⟩ => ⟨S100000x64, .i1⟩
  | .hbm, ⟨55, _⟩ => ⟨S_, .f32⟩
  | .hbm, ⟨56, _⟩ => ⟨S100000x64, .f32⟩
  | .hbm, ⟨57, _⟩ => ⟨S100000x64, .f32⟩
  | .hbm, ⟨58, _⟩ => ⟨S100000x64, .f32⟩
  | .hbm, ⟨59, _⟩ => ⟨S16384x1, .i32⟩
  | .hbm, ⟨60, _⟩ => ⟨S16384, .i32⟩
  | .hbm, ⟨61, _⟩ => ⟨S16384x1, .i32⟩
  | .hbm, ⟨62, _⟩ => ⟨S16384, .i32⟩
  | .hbm, ⟨63, _⟩ => ⟨S_, .i32⟩
  | .hbm, ⟨64, _⟩ => ⟨S16384, .i32⟩
  | .hbm, ⟨65, _⟩ => ⟨S16384, .i1⟩
  | .hbm, ⟨66, _⟩ => ⟨S_, .i32⟩
  | .hbm, ⟨67, _⟩ => ⟨S16384, .i32⟩
  | .hbm, ⟨68, _⟩ => ⟨S16384, .i32⟩
  | .hbm, ⟨69, _⟩ => ⟨S16384, .i32⟩
  | .hbm, ⟨70, _⟩ => ⟨S16384x1, .i32⟩
  | .hbm, ⟨71, _⟩ => ⟨S16384x64, .f32⟩
  | .hbm, ⟨72, _⟩ => ⟨S_, .i32⟩
  | .hbm, ⟨73, _⟩ => ⟨S16384, .i32⟩
  | .hbm, ⟨74, _⟩ => ⟨S16384, .i1⟩
  | .hbm, ⟨75, _⟩ => ⟨S_, .i32⟩
  | .hbm, ⟨76, _⟩ => ⟨S16384, .i32⟩
  | .hbm, ⟨77, _⟩ => ⟨S16384, .i32⟩
  | .hbm, ⟨78, _⟩ => ⟨S16384, .i32⟩
  | .hbm, ⟨79, _⟩ => ⟨S16384x1, .i32⟩
  | .hbm, ⟨80, _⟩ => ⟨S16384x64, .f32⟩
  | .hbm, ⟨81, _⟩ => ⟨S1x16, .f32⟩
  | .hbm, ⟨82, _⟩ => ⟨S1x1, .f32⟩
  | .hbm, ⟨83, _⟩ => ⟨S16384x1, .f32⟩
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S5000x1, .f32⟩
  | .local _ .vmem, ⟨4, _⟩ => ⟨S5000x1, .f32⟩
  | .local _ .vmem, ⟨5, _⟩ => ⟨S5000x64, .bf16⟩
  | .local _ .vmem, ⟨6, _⟩ => ⟨S5000x64, .bf16⟩
  | .local _ .vmem, ⟨7, _⟩ => ⟨S2048x64, .f32⟩
  | .local _ .vmem, ⟨8, _⟩ => ⟨S2048x64, .f32⟩
  | .local _ .vmem, ⟨9, _⟩ => ⟨S2048x64, .f32⟩
  | .local _ .vmem, ⟨10, _⟩ => ⟨S2048x64, .f32⟩
  | .local _ .vmem, ⟨11, _⟩ => ⟨S128x16, .f32⟩
  | .local _ .vmem, ⟨12, _⟩ => ⟨S1x16, .f32⟩
  | .local _ .vmem, ⟨13, _⟩ => ⟨S16x1, .f32⟩
  | .local _ .vmem, ⟨14, _⟩ => ⟨S1x1, .f32⟩
  | .local _ .vmem, ⟨15, _⟩ => ⟨S2048x1, .f32⟩
  | .local _ .vmem, ⟨16, _⟩ => ⟨S2048x1, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_5 : Ref sig .tc := ⟨.hbm, 52, rfl⟩
abbrev main_v34 : Ref sig .tc := ⟨.hbm, 53, rfl⟩
abbrev main_v35 : Ref sig .tc := ⟨.hbm, 54, rfl⟩
abbrev main_cst_6 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_c_7 : Ref sig .tc := ⟨.hbm, 63, rfl⟩
abbrev main_v43 : Ref sig .tc := ⟨.hbm, 64, rfl⟩
abbrev main_v44 : Ref sig .tc := ⟨.hbm, 65, rfl⟩
abbrev main_c_8 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_c_9 : Ref sig .tc := ⟨.hbm, 72, rfl⟩
abbrev main_v50 : Ref sig .tc := ⟨.hbm, 73, rfl⟩
abbrev main_v51 : Ref sig .tc := ⟨.hbm, 74, rfl⟩
abbrev main_c_10 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2048x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S16384x2_S16384x1_0_0 : S16384x2.Slices ![0, 0] S16384x1
  shapeCasts_S16384x1_S16384 : S16384x1.ShapeCasts S16384
  slices_S16384x2_S16384x1_0_1 : S16384x2.Slices ![0, 1] S16384x1
  bcast_S_S16384 : S_.BroadcastsInDim S16384 (![] : Fin 0 → Fin S16384.rank)
  bcast_S16384_S16384x1_0 : S16384.BroadcastsInDim S16384x1 (![0] : Fin 1 → Fin S16384x1.rank)
  shapeCasts_S16_S1x16 : S16.ShapeCasts S1x16
  shapeCasts_S1_S1x1 : S1.ShapeCasts S1x1
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  concatenates_S2048x64_S2048x64_S2048x128_d1 : Shape.Concatenates [S2048x64, S2048x64] S2048x128 1
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2048x16 : S1x16.Broadcasts S2048x16
  inb_S16x1_S16x1_0_0 : ∀ a, (![0, 0] : Fin 2 → Nat) a + S16x1.size a ≤ S16x1.size a
  h_S16x1 : 0 < S16x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  scatter_S100000_S1700000x1_S1700000_n_0_0_1_wf : ScatterDims.WF S100000 S1700000x1 S1700000 [] [0] [0] 1
  dot_S5000x256_S256x64_S5000x64_1_0_0_1_n_n_wf : DotDims.WF S5000x256 S256x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  gather_S100000x64_S16384x1_S16384x64_1_0_n_n_0_1_164_wf : GatherDims.WF S100000x64 S16384x1 S16384x64 [1] [0] [] [0] [] 1 ![1, 64]
  dot_S2048x128_S128x16_S2048x16_1_0_0_1_n_n_wf : DotDims.WF S2048x128 S128x16 S2048x16 [1] [0] [0] [1] [] []
  dot_S2048x16_S16x1_S2048x1_1_0_0_1_n_n_wf : DotDims.WF S2048x16 S16x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .bf16 = 32 ∨ (Rect.block (s := S100000x64) S5000x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x64.size a ≤ S16384x64.size a
  hwx1_0 : ∀ i : grid1.Coords, EltTy.bits .f32 = 32 ∨ (Rect.block (s := S16384x64) S2048x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x64.size a ≤ S16384x64.size a
  hwx1_1 : ∀ i : grid1.Coords, EltTy.bits .f32 = 32 ∨ (Rect.block (s := S16384x64) S2048x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x16.size a ≤ S128x16.size a
  hwx1_2 : ∀ i : grid1.Coords, EltTy.bits .f32 = 32 ∨ (Rect.block (s := S128x16) S128x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16x1.size a ≤ S16x1.size a
  hwx1_4 : ∀ i : grid1.Coords, EltTy.bits .f32 = 32 ∨ (Rect.block (s := S16x1) S16x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2048x1.size a ≤ S16384x1.size a
  hwx1_6 : ∀ i : grid1.Coords, EltTy.bits .f32 = 32 ∨ (Rect.block (s := S16384x1) S2048x1.size (cc1_transform_6 i) (hinb1_6 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def gather_S100000x64_S16384x1_S16384x64_1_0_n_n_0_1_164 : GatherDims S100000x64 S16384x1 S16384x64 where
  offsetDims := [1]
  collapsedSliceDims := [0]
  operandBatchingDims := []
  startIndicesBatchingDims := []
  startIndexMap := [0]
  indexVectorDim := 1
  sliceSizes := ![1, 64]
  wf := gather_S100000x64_S16384x1_S16384x64_1_0_n_n_0_1_164_wf
def dot_S2048x128_S128x16_S2048x16_1_0_0_1_n_n : DotDims S2048x128 S128x16 S2048x16 where
  lhsContracting := [1]
  rhsContracting := [0]
  lhsNonContracting := [0]
  rhsNonContracting := [1]
  lhsBatch := []
  rhsBatch := []
  wf := dot_S2048x128_S128x16_S2048x16_1_0_0_1_n_n_wf
def dot_S2048x16_S16x1_S2048x1_1_0_0_1_n_n : DotDims S2048x16 S16x1 S2048x1 where
  lhsContracting := [1]
  rhsContracting := [0]
  lhsNonContracting := [0]
  rhsNonContracting := [1]
  lhsBatch := []
  rhsBatch := []
  wf := dot_S2048x16_S16x1_S2048x1_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v49) S2048x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v56) S2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v57) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S16x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v58) S1x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v59) S2048x1.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S16384x2 : Shape := ⟨2, ![16384, 2]⟩
abbrev S256x64 : Shape := ⟨2, ![256, 64]⟩
abbrev S64 : Shape := ⟨1, ![64]⟩
abbrev S128x16 : Shape := ⟨2, ![128, 16]⟩
abbrev S16 : Shape := ⟨1, ![16]⟩
abbrev S16x1 : Shape := ⟨2, ![16, 1]⟩
abbrev S1 : Shape := ⟨1, ![1]⟩
abbrev S100000x64 : Shape := ⟨2, ![100000, 64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S16384x1 : Shape := ⟨2, ![16384, 1]⟩
abbrev S16384 : Shape := ⟨1, ![16384]⟩
abbrev S16384x64 : Shape := ⟨2, ![16384, 64]⟩
abbrev S16384x128 : Shape := ⟨2, ![16384, 128]⟩
abbrev S16384x16 : Shape := ⟨2, ![16384, 16]⟩
abbrev S1x16 : Shape := ⟨2, ![1, 16]⟩
abbrev S1x1 : Shape := ⟨2, ![1, 1]⟩

abbrev nBuf : Space → Nat
  | .hbm => 122
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S16384x2, .i32⟩
  | .hbm, ⟨3, _⟩ => ⟨S256x64, .f32⟩
  | .hbm, ⟨4, _⟩ => ⟨S64, .f32⟩
  | .hbm, ⟨5, _⟩ => ⟨S128x16, .f32⟩
  | .hbm, ⟨6, _⟩ => ⟨S16, .f32⟩
  | .hbm, ⟨7, _⟩ => ⟨S16x1, .f32⟩
  | .hbm, ⟨8, _⟩ => ⟨S1, .f32⟩
  | .hbm, ⟨9, _⟩ => ⟨S100000x64, .f32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x64, .f32⟩
  | .hbm, ⟨59, _⟩ => ⟨S1700000x1, .f32⟩
  | .hbm, ⟨60, _⟩ => ⟨S1700000x64, .f32⟩
  | .hbm, ⟨61, _⟩ => ⟨S1700000x64, .f32⟩
  | .hbm, ⟨62, _⟩ => ⟨S_, .f32⟩
  | .hbm, ⟨63, _⟩ => ⟨S100000x64, .f32⟩
  | .hbm, ⟨64, _⟩ => ⟨S1700000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S_, .f32⟩
  | .hbm, ⟨70, _⟩ => ⟨S100000x64, .f32⟩
  | .hbm, ⟨71, _⟩ => ⟨S100000x64, .i1⟩
  | .hbm, ⟨72, _⟩ => ⟨S_, .f32⟩
  | .hbm, ⟨73, _⟩ => ⟨S100000x64, .f32⟩
  | .hbm, ⟨74, _⟩ => ⟨S100000x64, .f32⟩
  | .hbm, ⟨75, _⟩ => ⟨S100000x64, .f32⟩
  | .hbm, ⟨76, _⟩ => ⟨S16384x1, .i32⟩
  | .hbm, ⟨77, _⟩ => ⟨S16384, .i32⟩
  | .hbm, ⟨78, _⟩ => ⟨S_, .i32⟩
  | .hbm, ⟨79, _⟩ => ⟨S16384, .i32⟩
  | .hbm, ⟨80, _⟩ => ⟨S16384, .i1⟩
  | .hbm, ⟨81, _⟩ => ⟨S_, .i32⟩
  | .hbm, ⟨82, _⟩ => ⟨S16384, .i32⟩
  | .hbm, ⟨83, _⟩ => ⟨S16384, .i32⟩
  | .hbm, ⟨84, _⟩ => ⟨S16384, .i32⟩
  | .hbm, ⟨85, _⟩ => ⟨S16384x1, .i32⟩
  | .hbm, ⟨86, _⟩ => ⟨S16384x64, .f32⟩
  | .hbm, ⟨87, _⟩ => ⟨S16384x1, .i32⟩
  | .hbm, ⟨88, _⟩ => ⟨S16384, .i32⟩
  | .hbm, ⟨89, _⟩ => ⟨S_, .i32⟩
  | .hbm, ⟨90, _⟩ => ⟨S16384, .i32⟩
  | .hbm, ⟨91, _⟩ => ⟨S16384, .i1⟩
  | .hbm, ⟨92, _⟩ => ⟨S_, .i32⟩
  | .hbm, ⟨93, _⟩ => ⟨S16384, .i32⟩
  | .hbm, ⟨94, _⟩ => ⟨S16384, .i32⟩
  | .hbm, ⟨95, _⟩ => ⟨S16384, .i32⟩
  | .hbm, ⟨96, _⟩ => ⟨S16384x1, .i32⟩
  | .hbm, ⟨97, _⟩ => ⟨S16384x64, .f32⟩
  | .hbm, ⟨98, _⟩ => ⟨S16384x128, .f32⟩
  | .hbm, ⟨99, _⟩ => ⟨S16384x16, .f32⟩
  | .hbm, ⟨100, _⟩ => ⟨S1x16, .f32⟩
  | .hbm, ⟨101, _⟩ => ⟨S16384x16, .f32⟩
  | .hbm, ⟨102, _⟩ => ⟨S16384x16, .f32⟩
  | .hbm, ⟨103, _⟩ => ⟨S_, .f32⟩
  | .hbm, ⟨104, _⟩ => ⟨S16384x16, .f32⟩
  | .hbm, ⟨105, _⟩ => ⟨S16384x16, .i1⟩
  | .hbm, ⟨106, _⟩ => ⟨S_, .f32⟩
  | .hbm, ⟨107, _⟩ => ⟨S16384x16, .f32⟩
  | .hbm, ⟨108, _⟩ => ⟨S16384x16, .f32⟩
  | .hbm, ⟨109, _⟩ => ⟨S16384x16, .f32⟩
  | .hbm, ⟨110, _⟩ => ⟨S16384x1, .f32⟩
  | .hbm, ⟨111, _⟩ => ⟨S1x1, .f32⟩
  | .hbm, ⟨112, _⟩ => ⟨S16384x1, .f32⟩
  | .hbm, ⟨113, _⟩ => ⟨S16384x1, .f32⟩
  | .hbm, ⟨114, _⟩ => ⟨S16384x1, .f32⟩
  | .hbm, ⟨115, _⟩ => ⟨S16384x1, .f32⟩
  | .hbm, ⟨116, _⟩ => ⟨S_, .f32⟩
  | .hbm, ⟨117, _⟩ => ⟨S16384x1, .f32⟩
  | .hbm, ⟨118, _⟩ => ⟨S16384x1, .f32⟩
  | .hbm, ⟨119, _⟩ => ⟨S_, .f32⟩
  | .hbm, ⟨120, _⟩ => ⟨S16384x1, .f32⟩
  | .hbm, ⟨121, _⟩ => ⟨S16384x1, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_9 : Ref sig .tc := ⟨.hbm, 69, rfl⟩
abbrev main_v47 : Ref sig .tc := ⟨.hbm, 70, rfl⟩
abbrev main_v48 : Ref sig .tc := ⟨.hbm, 71, rfl⟩
abbrev main_cst_10 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_c_11 : Ref sig .tc := ⟨.hbm, 78, rfl⟩
abbrev main_v54 : Ref sig .tc := ⟨.hbm, 79, rfl⟩
abbrev main_v55 : Ref sig .tc := ⟨.hbm, 80, rfl⟩
abbrev main_c_12 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_c_13 : Ref sig .tc := ⟨.hbm, 89, rfl⟩
abbrev main_v63 : Ref sig .tc := ⟨.hbm, 90, rfl⟩
abbrev main_v64 : Ref sig .tc := ⟨.hbm, 91, rfl⟩
abbrev main_c_14 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_15 : Ref sig .tc := ⟨.hbm, 103, rfl⟩
abbrev main_v75 : Ref sig .tc := ⟨.hbm, 104, rfl⟩
abbrev main_v76 : Ref sig .tc := ⟨.hbm, 105, rfl⟩
abbrev main_cst_16 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_cst_17 : Ref sig .tc := ⟨.hbm, 116, rfl⟩
abbrev main_v86 : Ref sig .tc := ⟨.hbm, 117, rfl⟩
abbrev main_v87 : Ref sig .tc := ⟨.hbm, 118, rfl⟩
abbrev main_cst_18 : Ref sig .tc := ⟨.hbm, 119, rfl⟩
abbrev main_v88 : Ref sig .tc := ⟨.hbm, 120, rfl⟩
abbrev main_v89 : Ref sig .tc := ⟨.hbm, 121, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S16384x2_S16384x1_0_0 : S16384x2.Slices ![0, 0] S16384x1
  shapeCasts_S16384x1_S16384 : S16384x1.ShapeCasts S16384
  bcast_S_S16384 : S_.BroadcastsInDim S16384 (![] : Fin 0 → Fin S16384.rank)
  bcast_S16384_S16384x1_0 : S16384.BroadcastsInDim S16384x1 (![0] : Fin 1 → Fin S16384x1.rank)
  slices_S16384x2_S16384x1_0_1 : S16384x2.Slices ![0, 1] S16384x1
  concatenates_S16384x64_S16384x64_S16384x128_d1 : Shape.Concatenates [S16384x64, S16384x64] S16384x128 1
  bcast_S16_S1x16_1 : S16.BroadcastsInDim S1x16 (![1] : Fin 1 → Fin S1x16.rank)
  bcast_S1x16_S16384x16_0_1 : S1x16.BroadcastsInDim S16384x16 (![0, 1] : Fin 2 → Fin S16384x16.rank)
  bcast_S_S16384x16 : S_.BroadcastsInDim S16384x16 (![] : Fin 0 → Fin S16384x16.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  bcast_S_S16384x1 : S_.BroadcastsInDim S16384x1 (![] : Fin 0 → Fin S16384x1.rank)
  dot_S100000x256_S256x64_S100000x64_1_0_0_1_n_n_wf : DotDims.WF S100000x256 S256x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  gather_S100000x64_S16384x1_S16384x64_1_0_n_n_0_1_164_wf : GatherDims.WF S100000x64 S16384x1 S16384x64 [1] [0] [] [0] [] 1 ![1, 64]
  dot_S16384x128_S128x16_S16384x16_1_0_0_1_n_n_wf : DotDims.WF S16384x128 S128x16 S16384x16 [1] [0] [0] [1] [] []
  dot_S16384x16_S16x1_S16384x1_1_0_0_1_n_n_wf : DotDims.WF S16384x16 S16x1 S16384x1 [1] [0] [0] [1] [] []

variable [Facts₀]

def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def gather_S100000x64_S16384x1_S16384x64_1_0_n_n_0_1_164 : GatherDims S100000x64 S16384x1 S16384x64 where
  offsetDims := [1]
  collapsedSliceDims := [0]
  operandBatchingDims := []
  startIndicesBatchingDims := []
  startIndexMap := [0]
  indexVectorDim := 1
  sliceSizes := ![1, 64]
  wf := gather_S100000x64_S16384x1_S16384x64_1_0_n_n_0_1_164_wf
def dot_S16384x128_S128x16_S16384x16_1_0_0_1_n_n : DotDims S16384x128 S128x16 S16384x16 where
  lhsContracting := [1]
  rhsContracting := [0]
  lhsNonContracting := [0]
  rhsNonContracting := [1]
  lhsBatch := []
  rhsBatch := []
  wf := dot_S16384x128_S128x16_S16384x16_1_0_0_1_n_n_wf
def dot_S16384x16_S16x1_S16384x1_1_0_0_1_n_n : DotDims S16384x16 S16x1 S16384x1 where
  lhsContracting := [1]
  rhsContracting := [0]
  lhsNonContracting := [0]
  rhsNonContracting := [1]
  lhsBatch := []
  rhsBatch := []
  wf := dot_S16384x16_S16x1_S16384x1_1_0_0_1_n_n_wf

class Facts : Prop extends Facts₀ where

variable [Facts]
-- ==== Proof.Stages.lean ====
/-
  The two programs as compositions of named stages, on the extended reals.

  Both programs turn the edge list into source and destination ends with one self loop appended per node, count each
  node's incoming ends (its degree), and take `dinv = 1/√degree` (zero where the degree is zero). From there they
  part ways for one stage: one program scales the rows of `x·W` by `dinv` BEFORE gathering them along the edges and
  scales the summed rows by `dinv` once more afterwards; the other gathers the unscaled rows and weighs each edge by the
  product of `dinv` at its two ends before summing. Both then add the bias, apply the leaky rectifier, pick the two rows
  each query pair names, and run the same two-layer head on the picked rows.

  Each stage below is the programs' own operation applied to named operands, so that a program's buffer contents are a
  stage term by unfolding alone; what the stages MEAN index by index is proved elsewhere.
-/
import proofs.«176623_j10050223473070_2_alg».proof.Proof.Gen.KernelIdeal
import proofs.«176623_j10050223473070_2_alg».proof.Proof.Gen.ReferenceIdeal
import Idealize.ShloMosaic.PureOps.Ideal

noncomputable section

namespace Cert.Stages

open Idealize.ShloMosaic Cert.KernelIdeal Cert.KernelIdeal.Facts₀

/-- The source ends of the edges, then one self loop per node. -/
def src (a1 : IVec S2x1600000 32) : IVec S1700000 32 :=
  concatenate S1700000 0 [⟨S1600000, shapeCast S1600000 (extractStridedSlice S1x1600000 ![0, 0] a1 slices_S2x1600000_S1x1600000_0_0) shapeCasts_S1x1600000_S1600000⟩, ⟨S100000, iotaInDim S100000 32 0⟩] concatenates_S1600000_S100000_S1700000_d0

/-- The destination ends of the edges, then one self loop per node. -/
def dst (a1 : IVec S2x1600000 32) : IVec S1700000 32 :=
  concatenate S1700000 0 [⟨S1600000, shapeCast S1600000 (extractStridedSlice S1x1600000 ![1, 0] a1 slices_S2x1600000_S1x1600000_1_0) shapeCasts_S1x1600000_S1600000⟩, ⟨S100000, iotaInDim S100000 32 0⟩] concatenates_S1600000_S100000_S1700000_d0

/-- A vector of node numbers as a one-column table of scatter or gather indices. -/
def col (v : IVec S1700000 32) : IVec S1700000x1 32 := broadcastInDim S1700000x1 ![0] bcast_S1700000_S1700000x1_0 v

/-- A negative node number counts from the end. -/
def wrap (v : IVec S1700000 32) : IVec S1700000 32 :=
  select (cmpi .slt v (broadcastInDim S1700000 ![] bcast_S_S1700000 (constantI S_ 32 0#32)))
    (addi v (broadcastInDim S1700000 ![] bcast_S_S1700000 (constantI S_ 32 100000#32))) v

/-- Each node's degree: ones summed over the ends that land on it. -/
def deg (a1 : IVec S2x1600000 32) : FVec Ideal S100000 .f32 :=
  Host.scatterAdd scatter_S100000_S1700000x1_S1700000_n_0_0_1
    (broadcastInDim S100000 ![] bcast_S_S100000 (constant S_ .f32 0x00000000#32)) (col (dst a1))
    (broadcastInDim S1700000 ![] bcast_S_S1700000 (constant S_ .f32 0x3F800000#32))

/-- `1/√degree`, and zero where the degree is not positive. -/
def dinv (a1 : IVec S2x1600000 32) : FVec Ideal S100000 .f32 :=
  select (cmpf .ogt (deg a1) (broadcastInDim S100000 ![] bcast_S_S100000 (constant S_ .f32 0x00000000#32)))
    (Host.rsqrt (deg a1)) (broadcastInDim S100000 ![] bcast_S_S100000 (id (constant S_ .f32 0x00000000#32)))

/-- The all-zero table the rows are summed into. -/
def zeros : FVec Ideal S100000x64 .f32 := broadcastInDim S100000x64 ![] bcast_S_S100000x64 (constant S_ .f32 0x00000000#32)

/-- The bias, one copy per node. -/
def biasRows (a4 : FVec Ideal S64 .f32) : FVec Ideal S100000x64 .f32 :=
  broadcastInDim S100000x64 ![0, 1] bcast_S1x64_S100000x64_0_1 (broadcastInDim S1x64 ![1] bcast_S64_S1x64_1 a4)

/-- `dinv` as a column. -/
def dinvCol (a1 : IVec S2x1600000 32) : FVec Ideal S100000x1 .f32 := shapeCast S100000x1 (dinv a1) shapeCasts_S100000_S100000x1

/-- Rows gathered along the edges from the ends `s`, summed by the ends `d`, each sum scaled by `dv` at its node, plus
    the bias. -/
def preScaledOf (hs : FVec Ideal S100000x64 .bf16) (s d : IVec S1700000 32) (dv : FVec Ideal S100000 .f32) (a4 : FVec Ideal S64 .f32) :
    FVec Ideal S100000x64 .f32 :=
  addf (mulf (Host.scatterAdd scatter_S100000x64_S1700000x1_S1700000x64_1_0_0_1 zeros (col d)
        (extf .f32 (Host.gather gather_S100000x64_S1700000x1_S1700000x64_1_0_n_n_0_1_164 hs (col (wrap s))) bitsLt_bf16_f32))
      (broadcastInDim S100000x64 ![0, 1] bcast_S100000x1_S100000x64_0_1 (broadcastInDim S100000x1 ![0] bcast_S100000_S100000x1_0 dv)))
    (biasRows a4)

/-- The node embedding before the rectifier, from rows ALREADY scaled by `dinv` at their source: gather along the
    edges, sum by destination, scale by `dinv` at the destination, add the bias. -/
def preScaled (hs : FVec Ideal S100000x64 .bf16) (a1 : IVec S2x1600000 32) (a4 : FVec Ideal S64 .f32) : FVec Ideal S100000x64 .f32 :=
  preScaledOf hs (src a1) (dst a1) (dinv a1) a4

/-- The node embedding before the rectifier, from the unscaled product: gather along the edges, weigh each edge by
    `dinv` at both its ends, sum by destination, add the bias. -/
def preWeighted (a0 : FVec Ideal S100000x256 .f32) (a1 : IVec S2x1600000 32) (a3 : FVec Ideal S256x64 .f32) (a4 : FVec Ideal S64 .f32) :
    FVec Ideal S100000x64 .f32 :=
  addf (Host.scatterAdd scatter_S100000x64_S1700000x1_S1700000x64_1_0_0_1 zeros (col (dst a1))
      (mulf (Host.gather gather_S100000x64_S1700000x1_S1700000x64_1_0_n_n_0_1_164
          (Host.dotGeneral Cert.ReferenceIdeal.dot_S100000x256_S256x64_S100000x64_1_0_0_1_n_n none a0 a3) (col (wrap (src a1))))
        (broadcastInDim Cert.ReferenceIdeal.S1700000x64 ![0, 1] Cert.ReferenceIdeal.Facts₀.bcast_S1700000x1_S1700000x64_0_1
          (broadcastInDim S1700000x1 ![0] Cert.ReferenceIdeal.Facts₀.bcast_S1700000_S1700000x1_0
            (mulf (Host.gather Cert.ReferenceIdeal.gather_S100000_S1700000x1_S1700000_n_0_n_n_0_1_1 (dinv a1) (col (wrap (src a1))))
              (Host.gather Cert.ReferenceIdeal.gather_S100000_S1700000x1_S1700000_n_0_n_n_0_1_1 (dinv a1) (col (wrap (dst a1)))))))))
    (biasRows a4)

/-- The leaky rectifier on the node table. -/
def rectify (pre : FVec Ideal S100000x64 .f32) : FVec Ideal S100000x64 .f32 :=
  select (cmpf .oge pre (broadcastInDim S100000x64 ![] bcast_S_S100000x64 (constant S_ .f32 0x00000000#32))) pre
    (mulf (broadcastInDim S100000x64 ![] bcast_S_S100000x64 (constant S_ .f32 0x3C23D70A#32)) pre)

/-- A negative query number counts from the end. -/
def wrapQ (v : IVec S16384 32) : IVec S16384 32 :=
  select (cmpi .slt v (broadcastInDim S16384 ![] bcast_S_S16384 (constantI S_ 32 0#32)))
    (addi v (broadcastInDim S16384 ![] bcast_S_S16384 (constantI S_ 32 100000#32))) v

/-- The rows of the node table the first member of each query pair names. -/
def pickFst (emb : FVec Ideal S100000x64 .f32) (a2 : IVec S16384x2 32) : FVec Ideal S16384x64 .f32 :=
  Host.gather gather_S100000x64_S16384x1_S16384x64_1_0_n_n_0_1_164 emb
    (broadcastInDim S16384x1 ![0] bcast_S16384_S16384x1_0
      (wrapQ (shapeCast S16384 (extractStridedSlice S16384x1 ![0, 0] a2 slices_S16384x2_S16384x1_0_0) shapeCasts_S16384x1_S16384)))

/-- The rows the second member names. -/
def pickSnd (emb : FVec Ideal S100000x64 .f32) (a2 : IVec S16384x2 32) : FVec Ideal S16384x64 .f32 :=
  Host.gather gather_S100000x64_S16384x1_S16384x64_1_0_n_n_0_1_164 emb
    (broadcastInDim S16384x1 ![0] bcast_S16384_S16384x1_0
      (wrapQ (shapeCast S16384 (extractStridedSlice S16384x1 ![0, 1] a2 slices_S16384x2_S16384x1_0_1) shapeCasts_S16384x1_S16384)))

end Cert.Stages

end
-- ==== Proof.Stretches.lean ====
/-
  What the idealized kernel program's buffers hold at each boundary of its run, as stage terms of the arguments.

  Before the first region the host operations build the edge ends, the degrees and `dinv`; the first region writes
  `x·W` with row `p` scaled by `dinv p`; between the regions the host gathers those rows along the edges, sums them by
  destination, scales by `dinv` again, adds the bias, rectifies, and picks the two rows each query names; the second
  region applies the head to the picked rows. Each lemma reads one buffer after one stretch of operations, from ANY
  contents `Wp` the stretch starts at, off the operations' functions; nothing here looks inside a stage.
-/
import proofs.«176623_j10050223473070_2_alg».proof.Proof.Gen.KernelIdeal.Frame
import proofs.«176623_j10050223473070_2_alg».proof.Proof.Stages
import Idealize.ShloMosaic.Lib.StableHlo.Run

set_option maxRecDepth 16384

noncomputable section

namespace Cert.KernelIdeal.Stretches

open Cert.KernelIdeal Cert.KernelIdeal.Gen Cert.Stages
open Idealize.ShloMosaic Idealize.ShloMosaic.TcCoe Idealize.SL.Sem Idealize.ShloMosaic.StableHlo

variable (Wp : Valuation τ sig (Elt Ideal))

/-! ## The first stretch: edge ends, degrees, the comparison and the reciprocal root -/

theorem first_src : after (hostOps0 (F := Ideal)) Wp (Proc.devRef .tc main_v3) = src (Wp (Proc.devRef .tc main_arg1)) := by
  dsimp only [hostOps0]
  after_results
  rfl

theorem first_dst : after (hostOps0 (F := Ideal)) Wp (Proc.devRef .tc main_v6) = dst (Wp (Proc.devRef .tc main_arg1)) := by
  dsimp only [hostOps0]
  after_results
  rfl

theorem first_pos : after (hostOps0 (F := Ideal)) Wp (Proc.devRef .tc main_v12)
    = cmpf .ogt (deg (Wp (Proc.devRef .tc main_arg1))) (broadcastInDim S100000 ![] Facts₀.bcast_S_S100000 (constant S_ .f32 0x00000000#32)) := by
  dsimp only [hostOps0]
  after_results
  rfl

theorem first_root : after (hostOps0 (F := Ideal)) Wp (Proc.devRef .tc main_v13) = Host.rsqrt (deg (Wp (Proc.devRef .tc main_arg1))) := by
  dsimp only [hostOps0]
  after_results
  rfl

theorem first_zero : after (hostOps0 (F := Ideal)) Wp (Proc.devRef .tc main_cst_2) = constant (F := Ideal) S_ .f32 0x00000000#32 := by
  dsimp only [hostOps0]
  after_results

theorem first_keep_arg0 : after (hostOps0 (F := Ideal)) Wp (Proc.devRef .tc main_arg0) = Wp (Proc.devRef .tc main_arg0) := by
  dsimp only [hostOps0]
  after_results

theorem first_keep_arg3 : after (hostOps0 (F := Ideal)) Wp (Proc.devRef .tc main_arg3) = Wp (Proc.devRef .tc main_arg3) := by
  dsimp only [hostOps0]
  after_results

theorem first_keep_arg2 : after (hostOps0 (F := Ideal)) Wp (Proc.devRef .tc main_arg2) = Wp (Proc.devRef .tc main_arg2) := by
  dsimp only [hostOps0]
  after_results

theorem first_keep_arg4 : after (hostOps0 (F := Ideal)) Wp (Proc.devRef .tc main_arg4) = Wp (Proc.devRef .tc main_arg4) := by
  dsimp only [hostOps0]
  after_results

theorem first_keep_arg5 : after (hostOps0 (F := Ideal)) Wp (Proc.devRef .tc main_arg5) = Wp (Proc.devRef .tc main_arg5) := by
  dsimp only [hostOps0]
  after_results

theorem first_keep_arg6 : after (hostOps0 (F := Ideal)) Wp (Proc.devRef .tc main_arg6) = Wp (Proc.devRef .tc main_arg6) := by
  dsimp only [hostOps0]
  after_results

theorem first_keep_arg7 : after (hostOps0 (F := Ideal)) Wp (Proc.devRef .tc main_arg7) = Wp (Proc.devRef .tc main_arg7) := by
  dsimp only [hostOps0]
  after_results

theorem first_keep_arg8 : after (hostOps0 (F := Ideal)) Wp (Proc.devRef .tc main_arg8) = Wp (Proc.devRef .tc main_arg8) := by
  dsimp only [hostOps0]
  after_results

/-! ## The second stretch: `dinv` -/

theorem second_dinv : after (hostOps0_1 (F := Ideal)) Wp (Proc.devRef .tc main_v14)
    = select (Wp (Proc.devRef .tc main_v12)) (Wp (Proc.devRef .tc main_v13)) (broadcastInDim S100000 ![] Facts₀.bcast_S_S100000 (id (Wp (Proc.devRef .tc main_cst_2)))) := by
  dsimp only [hostOps0_1]
  after_results
  rfl

theorem second_keep_v3 : after (hostOps0_1 (F := Ideal)) Wp (Proc.devRef .tc main_v3) = Wp (Proc.devRef .tc main_v3) := by
  dsimp only [hostOps0_1]
  after_results

theorem second_keep_v6 : after (hostOps0_1 (F := Ideal)) Wp (Proc.devRef .tc main_v6) = Wp (Proc.devRef .tc main_v6) := by
  dsimp only [hostOps0_1]
  after_results

theorem second_keep_arg0 : after (hostOps0_1 (F := Ideal)) Wp (Proc.devRef .tc main_arg0) = Wp (Proc.devRef .tc main_arg0) := by
  dsimp only [hostOps0_1]
  after_results

theorem second_keep_arg3 : after (hostOps0_1 (F := Ideal)) Wp (Proc.devRef .tc main_arg3) = Wp (Proc.devRef .tc main_arg3) := by
  dsimp only [hostOps0_1]
  after_results

theorem second_keep_arg2 : after (hostOps0_1 (F := Ideal)) Wp (Proc.devRef .tc main_arg2) = Wp (Proc.devRef .tc main_arg2) := by
  dsimp only [hostOps0_1]
  after_results

theorem second_keep_arg4 : after (hostOps0_1 (F := Ideal)) Wp (Proc.devRef .tc main_arg4) = Wp (Proc.devRef .tc main_arg4) := by
  dsimp only [hostOps0_1]
  after_results

theorem second_keep_arg5 : after (hostOps0_1 (F := Ideal)) Wp (Proc.devRef .tc main_arg5) = Wp (Proc.devRef .tc main_arg5) := by
  dsimp only [hostOps0_1]
  after_results

theorem second_keep_arg6 : after (hostOps0_1 (F := Ideal)) Wp (Proc.devRef .tc main_arg6) = Wp (Proc.devRef .tc main_arg6) := by
  dsimp only [hostOps0_1]
  after_results

theorem second_keep_arg7 : after (hostOps0_1 (F := Ideal)) Wp (Proc.devRef .tc main_arg7) = Wp (Proc.devRef .tc main_arg7) := by
  dsimp only [hostOps0_1]
  after_results

theorem second_keep_arg8 : after (hostOps0_1 (F := Ideal)) Wp (Proc.devRef .tc main_arg8) = Wp (Proc.devRef .tc main_arg8) := by
  dsimp only [hostOps0_1]
  after_results

/-! ## The third stretch: `dinv` as a column -/

theorem third_col : after (hostOps0_2 (F := Ideal)) Wp (Proc.devRef .tc main_v15)
    = shapeCast S100000x1 (Wp (Proc.devRef .tc main_v14)) Facts₀.shapeCasts_S100000_S100000x1 := by
  dsimp only [hostOps0_2]
  after_results
  rfl

theorem third_keep_v3 : after (hostOps0_2 (F := Ideal)) Wp (Proc.devRef .tc main_v3) = Wp (Proc.devRef .tc main_v3) := by
  dsimp only [hostOps0_2]
  after_results

theorem third_keep_v6 : after (hostOps0_2 (F := Ideal)) Wp (Proc.devRef .tc main_v6) = Wp (Proc.devRef .tc main_v6) := by
  dsimp only [hostOps0_2]
  after_results

theorem third_keep_v14 : after (hostOps0_2 (F := Ideal)) Wp (Proc.devRef .tc main_v14) = Wp (Proc.devRef .tc main_v14) := by
  dsimp only [hostOps0_2]
  after_results

theorem third_keep_arg0 : after (hostOps0_2 (F := Ideal)) Wp (Proc.devRef .tc main_arg0) = Wp (Proc.devRef .tc main_arg0) := by
  dsimp only [hostOps0_2]
  after_results

theorem third_keep_arg3 : after (hostOps0_2 (F := Ideal)) Wp (Proc.devRef .tc main_arg3) = Wp (Proc.devRef .tc main_arg3) := by
  dsimp only [hostOps0_2]
  after_results

theorem third_keep_arg2 : after (hostOps0_2 (F := Ideal)) Wp (Proc.devRef .tc main_arg2) = Wp (Proc.devRef .tc main_arg2) := by
  dsimp only [hostOps0_2]
  after_results

theorem third_keep_arg4 : after (hostOps0_2 (F := Ideal)) Wp (Proc.devRef .tc main_arg4) = Wp (Proc.devRef .tc main_arg4) := by
  dsimp only [hostOps0_2]
  after_results

theorem third_keep_arg5 : after (hostOps0_2 (F := Ideal)) Wp (Proc.devRef .tc main_arg5) = Wp (Proc.devRef .tc main_arg5) := by
  dsimp only [hostOps0_2]
  after_results

theorem third_keep_arg6 : after (hostOps0_2 (F := Ideal)) Wp (Proc.devRef .tc main_arg6) = Wp (Proc.devRef .tc main_arg6) := by
  dsimp only [hostOps0_2]
  after_results

theorem third_keep_arg7 : after (hostOps0_2 (F := Ideal)) Wp (Proc.devRef .tc main_arg7) = Wp (Proc.devRef .tc main_arg7) := by
  dsimp only [hostOps0_2]
  after_results

theorem third_keep_arg8 : after (hostOps0_2 (F := Ideal)) Wp (Proc.devRef .tc main_arg8) = Wp (Proc.devRef .tc main_arg8) := by
  dsimp only [hostOps0_2]
  after_results

/-! ## Between the regions: gather along the edges, sum by destination, scale, add the bias -/

set_option maxHeartbeats 2000000 in
theorem fourth_pre : after (hostOps1 (F := Ideal)) Wp (Proc.devRef .tc main_v33)
    = preScaledOf (Wp (Proc.devRef .tc main_v16)) (Wp (Proc.devRef .tc main_v3)) (Wp (Proc.devRef .tc main_v6)) (Wp (Proc.devRef .tc main_v14)) (Wp (Proc.devRef .tc main_arg4)) := by
  dsimp only [hostOps1]
  after_results
  rfl

set_option maxHeartbeats 2000000 in
theorem fourth_nonneg : after (hostOps1 (F := Ideal)) Wp (Proc.devRef .tc main_v35)
    = cmpf .oge (preScaledOf (Wp (Proc.devRef .tc main_v16)) (Wp (Proc.devRef .tc main_v3)) (Wp (Proc.devRef .tc main_v6)) (Wp (Proc.devRef .tc main_v14)) (Wp (Proc.devRef .tc main_arg4)))
        (broadcastInDim S100000x64 ![] Facts₀.bcast_S_S100000x64 (constant S_ .f32 0x00000000#32)) := by
  dsimp only [hostOps1]
  after_results
  rfl

set_option maxHeartbeats 2000000 in
theorem fourth_slope : after (hostOps1 (F := Ideal)) Wp (Proc.devRef .tc main_v37)
    = mulf (broadcastInDim S100000x64 ![] Facts₀.bcast_S_S100000x64 (constant S_ .f32 0x3C23D70A#32))
        (preScaledOf (Wp (Proc.devRef .tc main_v16)) (Wp (Proc.devRef .tc main_v3)) (Wp (Proc.devRef .tc main_v6)) (Wp (Proc.devRef .tc main_v14)) (Wp (Proc.devRef .tc main_arg4))) := by
  dsimp only [hostOps1]
  after_results
  rfl

theorem fourth_keep_arg2 : after (hostOps1 (F := Ideal)) Wp (Proc.devRef .tc main_arg2) = Wp (Proc.devRef .tc main_arg2) := by
  dsimp only [hostOps1]
  after_results

theorem fourth_keep_arg5 : after (hostOps1 (F := Ideal)) Wp (Proc.devRef .tc main_arg5) = Wp (Proc.devRef .tc main_arg5) := by
  dsimp only [hostOps1]
  after_results

theorem fourth_keep_arg6 : after (hostOps1 (F := Ideal)) Wp (Proc.devRef .tc main_arg6) = Wp (Proc.devRef .tc main_arg6) := by
  dsimp only [hostOps1]
  after_results

theorem fourth_keep_arg7 : after (hostOps1 (F := Ideal)) Wp (Proc.devRef .tc main_arg7) = Wp (Proc.devRef .tc main_arg7) := by
  dsimp only [hostOps1]
  after_results

theorem fourth_keep_arg8 : after (hostOps1 (F := Ideal)) Wp (Proc.devRef .tc main_arg8) = Wp (Proc.devRef .tc main_arg8) := by
  dsimp only [hostOps1]
  after_results

/-! ## The rectifier -/

theorem fifth_table : after (hostOps1_1 (F := Ideal)) Wp (Proc.devRef .tc main_v38)
    = select (Wp (Proc.devRef .tc main_v35)) (Wp (Proc.devRef .tc main_v33)) (Wp (Proc.devRef .tc main_v37)) := by
  dsimp only [hostOps1_1]
  after_results
  rfl

theorem fifth_keep_arg2 : after (hostOps1_1 (F := Ideal)) Wp (Proc.devRef .tc main_arg2) = Wp (Proc.devRef .tc main_arg2) := by
  dsimp only [hostOps1_1]
  after_results

theorem fifth_keep_arg5 : after (hostOps1_1 (F := Ideal)) Wp (Proc.devRef .tc main_arg5) = Wp (Proc.devRef .tc main_arg5) := by
  dsimp only [hostOps1_1]
  after_results

theorem fifth_keep_arg6 : after (hostOps1_1 (F := Ideal)) Wp (Proc.devRef .tc main_arg6) = Wp (Proc.devRef .tc main_arg6) := by
  dsimp only [hostOps1_1]
  after_results

theorem fifth_keep_arg7 : after (hostOps1_1 (F := Ideal)) Wp (Proc.devRef .tc main_arg7) = Wp (Proc.devRef .tc main_arg7) := by
  dsimp only [hostOps1_1]
  after_results

theorem fifth_keep_arg8 : after (hostOps1_1 (F := Ideal)) Wp (Proc.devRef .tc main_arg8) = Wp (Proc.devRef .tc main_arg8) := by
  dsimp only [hostOps1_1]
  after_results

/-! ## The rows each query names, and the biases as rows -/

set_option maxHeartbeats 2000000 in
theorem sixth_fst : after (hostOps1_2 (F := Ideal)) Wp (Proc.devRef .tc main_v49) = pickFst (Wp (Proc.devRef .tc main_v38)) (Wp (Proc.devRef .tc main_arg2)) := by
  dsimp only [hostOps1_2]
  after_results
  rfl

set_option maxHeartbeats 2000000 in
theorem sixth_snd : after (hostOps1_2 (F := Ideal)) Wp (Proc.devRef .tc main_v56) = pickSnd (Wp (Proc.devRef .tc main_v38)) (Wp (Proc.devRef .tc main_arg2)) := by
  dsimp only [hostOps1_2]
  after_results
  rfl

set_option maxHeartbeats 2000000 in
theorem sixth_b1 : after (hostOps1_2 (F := Ideal)) Wp (Proc.devRef .tc main_v57) = shapeCast S1x16 (Wp (Proc.devRef .tc main_arg6)) Facts₀.shapeCasts_S16_S1x16 := by
  dsimp only [hostOps1_2]
  after_results
  rfl

set_option maxHeartbeats 2000000 in
theorem sixth_b2 : after (hostOps1_2 (F := Ideal)) Wp (Proc.devRef .tc main_v58) = shapeCast S1x1 (Wp (Proc.devRef .tc main_arg8)) Facts₀.shapeCasts_S1_S1x1 := by
  dsimp only [hostOps1_2]
  after_results
  rfl

set_option maxHeartbeats 2000000 in
theorem sixth_keep_arg5 : after (hostOps1_2 (F := Ideal)) Wp (Proc.devRef .tc main_arg5) = Wp (Proc.devRef .tc main_arg5) := by
  dsimp only [hostOps1_2]
  after_results

set_option maxHeartbeats 2000000 in
theorem sixth_keep_arg7 : after (hostOps1_2 (F := Ideal)) Wp (Proc.devRef .tc main_arg7) = Wp (Proc.devRef .tc main_arg7) := by
  dsimp only [hostOps1_2]
  after_results

end Cert.KernelIdeal.Stretches

end
-- ==== Proof.LibPlainMatmul.lean ====
/-
  A plain matrix product `[M, K] · [K, N]` on the extended reals, accumulated into the zero matrix, read at the entry
  `(p, q)`: the sum over `k : Fin K` of `l (p, k) · r (k, q)`.

  The library states a `tpu.matmul` at an output index as a sum over the contraction shape's index set, with the
  operands read at `lhsIdx` / `rhsIdx`; for the dimension numbers `⟨[1], [0], [0], [1], [], []⟩` that index set is
  one axis of extent `K`, the left index is `(p, k)` and the right index is `(k, q)`. The statement takes any
  dimension record equal to `DotDims.plain M K N` (a record is determined by its six lists, so a printed one with these
  lists is equal to it by `rfl`).
-/
import Idealize.ShloMosaic.PureOps.Ideal.Laws
import Idealize.ShloMosaic.Lib.ValueIdx

noncomputable section

open scoped BigOperators

namespace Cert.LibPlainMatmul

open Idealize.ShloMosaic Idealize.ShloMosaic.ValueIdx

/-- The left operand's index of the plain product at output `(p, q)` and contraction coordinate `k` is `(p, k)`. -/
theorem plain_lhsIdx {M K N : ℕ} (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index there is `(k, q)`. -/
theorem plain_rhsIdx {M K N : ℕ} (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A plain `[M, K] · [K, N]` product into the zero accumulator, at `(p, q)`, is `∑ k, l (p, k) · r (k, q)`. -/
theorem matmul_plain_zero_apply {M K N : ℕ} {φ₁ φ₂ : FTy}
    (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (p : Fin M) (q : Fin N) :
    FloatOps.matmul D prec l r (constant ⟨2, ![M, N]⟩ .f32 0x00000000#32) (ix2 p q)
      = ∑ k : Fin K, l (ix2 p k) * r (ix2 k q) := by
  subst hD
  rw [Ideal.matmul_constant_zero_apply, ← Equiv.sum_comp (contrEquiv1 (DotDims.plain M K N) K rfl rfl).symm]
  refine Finset.sum_congr rfl fun k _ => ?_
  rw [plain_lhsIdx, plain_rhsIdx]

end Cert.LibPlainMatmul

end
-- ==== Proof.LibColumn.lean ====
/-
  Column vectors read at an index.

  A vector of length `a` re-laid as an `a × 1` column holds, at row `i`, the vector's entry `i`.
  An `a × 1` column broadcast to `a × b` holds, at `(p, c)`, the column's entry at row `p`.
  Summing an `a × 1` column over its rows, or an `a × b` array over its columns, inserts the summed
  coordinate at the place the reduced index leaves open: the inserted index is `(k, u)` resp. `(r, k)`.
-/
import Idealize.ShloMosaic.Lib.Pipeline.Value
import Idealize.ShloMosaic.Lib.ValueIdx
import Idealize.ShloMosaic.PureOps.Reduce

namespace Cert.LibColumn

open Idealize.ShloMosaic Idealize.ShloMosaic.ValueIdx

variable {α : Type}

/-- A length-`a` vector cast to an `a × 1` column reads, at `(i, 0)`, the vector at `i`:
    both positions are number `i` in row-major order. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Summing an `a × b` array along its columns: the index of row `r` with column `k` put back is `(r, k)`. -/
theorem lift_cols {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- Summing an `a × 1` column along its rows: the one reduced index with row `k` put back is `(k, 0)`. -/
theorem lift_rows {a : ℕ} (h : (⟨2, ![a, 1]⟩ : Shape).Reduces [0] (⟨1, ![1]⟩ : Shape)) (u : Fin 1)
    (k : Fin ((⟨2, ![a, 1]⟩ : Shape).size 0)) : h.lift (ix1 u) k = ix2 (⟨k.val, k.isLt⟩ : Fin a) u := by
  funext c; apply Fin.ext
  fin_cases c <;> rfl

end Cert.LibColumn
-- ==== Proof.ScaledRows.lean ====
/-
  The first stage of the program: the rows of `x · w`, each scaled by its entry of a column `d`.

  The stage runs over a grid of 20 points. Point `t` reads rows `5000·t … 5000·t + 4999` of `x` (all 256 columns),
  the whole of `w`, and the same rows of the column `d`; it multiplies the row block by `w` (accumulating into zero),
  multiplies row `p` of the product by `d p`, and writes the result to the same rows of the output array.
  On the extended reals the changes of float format are the identity, so the block written at point `t` is the
  restriction to those rows of ONE function of the whole arrays,
      `scaled x w d (r, q) = (∑ k, x (r, k) · w (k, q)) · d (r, 0)`.
  Every row `r` lies in the block of the point `r / 5000`, so the 20 blocks cover the output array and it ends
  holding `scaled x w d`.
-/
import proofs.«176623_j10050223473070_2_alg».proof.Proof.Gen.KernelIdeal.Frame
import proofs.«176623_j10050223473070_2_alg».proof.Proof.LibPlainMatmul
import proofs.«176623_j10050223473070_2_alg».proof.Proof.LibColumn
import Idealize.ShloMosaic.Lib.ValueIdx
import Idealize.ShloMosaic.Lib.Pipeline.Value
import Idealize.ShloMosaic.PureOps.Ideal.Laws

noncomputable section

open scoped BigOperators

namespace Cert.KernelIdeal.ScaledRows

open Idealize.ShloMosaic Idealize.ShloMosaic.ValueIdx Idealize.ShloMosaic.TcCoe Idealize.SL.Sem Cert.KernelIdeal
open Idealize.ShloMosaic.Pipeline (Dat)

/-- Entry `(p, q)` of the product `x · w` with row `p` scaled by the column `d`. -/
def scaledAt (x : S100000x256.Idx → EReal) (w : S256x64.Idx → EReal) (d : S100000x1.Idx → EReal)
    (p : Fin 100000) (q : Fin 64) : EReal :=
  (∑ k : Fin 256, x (ix2 p k) * w (ix2 k q)) * d (ix2 p (0 : Fin 1))

/-- The whole array of those entries. -/
def scaled (x : S100000x256.Idx → EReal) (w : S256x64.Idx → EReal) (d : S100000x1.Idx → EReal) :
    S100000x64.Idx → EReal := fun i => scaledAt x w d (i 0) (i 1)

/-! ## One block: what the body computes from its three blocks -/

/-- The body's result at row `p`, column `q` of its block: the product of the row block with `w` there, times the
    column block's entry of row `p` (the format changes are the identity on the extended reals, the accumulator is zero,
    and the column is broadcast along the 64 columns). -/
theorem pay_apply (x0 : Vec Ideal S5000x256 .f32) (x1 : Vec Ideal S256x64 .f32) (x2 : Vec Ideal S5000x1 .f32)
    (p : Fin 5000) (q : Fin 64) :
    Gen.k0_pay1 x0 x1 x2 (ix2 p q)
      = (∑ k : Fin 256, x0 (ix2 p k) * x1 (ix2 k q)) * x2 (ix2 p (0 : Fin 1)) := by
  unfold Gen.k0_pay1
  rw [truncf_apply, mulf_apply]
  refine congrArg₂ (· * ·) ?_ ?_
  · exact Cert.LibPlainMatmul.matmul_plain_zero_apply _ rfl _ _ _ p q
  · rw [shapeCast_self]
    exact Cert.LibColumn.broadcastTo_a1_ab_apply _ _ p q

/-- The block as a restriction of the whole: if the three blocks are the arrays `X`, `W`, `D` read through maps of
    indices that shift the row by `n · 5000` (and `W` is read whole), the body's result at a block index `j` is
    `scaled X W D` at the output index of the same shift. -/
theorem pay_block (x0 : Vec Ideal S5000x256 .f32) (x1 : Vec Ideal S256x64 .f32) (x2 : Vec Ideal S5000x1 .f32)
    (X : S100000x256.Idx → EReal) (W : S256x64.Idx → EReal) (D : S100000x1.Idx → EReal)
    (e0 : S5000x256.Idx → S100000x256.Idx) (e2 : S5000x1.Idx → S100000x1.Idx) (e3 : S5000x64.Idx → S100000x64.Idx)
    (n : Nat)
    (h0 : ∀ y, x0 y = X (e0 y)) (h1 : ∀ y, x1 y = W y) (h2 : ∀ y, x2 y = D (e2 y))
    (c0 : ∀ (p : Fin 5000) (k : Fin 256), (e0 (ix2 p k) 0).val = n * 5000 + p.val ∧ (e0 (ix2 p k) 1).val = k.val)
    (c2 : ∀ (p : Fin 5000) (u : Fin 1), (e2 (ix2 p u) 0).val = n * 5000 + p.val)
    (c3 : ∀ (p : Fin 5000) (q : Fin 64), (e3 (ix2 p q) 0).val = n * 5000 + p.val ∧ (e3 (ix2 p q) 1).val = q.val)
    (j : S5000x64.Idx) :
    Gen.k0_pay1 x0 x1 x2 j = scaled X W D (e3 j) := by
  obtain ⟨p, q, rfl⟩ : ∃ (p : Fin 5000) (q : Fin 64), j = ix2 p q := ⟨j 0, j 1, eq_ix2 j⟩
  rw [pay_apply]
  unfold scaled scaledAt
  obtain ⟨r0, r1⟩ := c3 p q
  have hx : ∀ k : Fin 256, e0 (ix2 p k) = ix2 (e3 (ix2 p q) 0) k := fun k => funext fun a => Fin.ext (by
    obtain ⟨a0, a1⟩ := c0 p k
    match a with
    | ⟨0, _⟩ => show (e0 (ix2 p k) 0).val = (e3 (ix2 p q) 0).val; omega
    | ⟨1, _⟩ => show (e0 (ix2 p k) 1).val = k.val; exact a1)
  have hw : ∀ k : Fin 256, (ix2 k q : S256x64.Idx) = ix2 k (e3 (ix2 p q) 1) := fun k => funext fun a => Fin.ext (by
    match a with
    | ⟨0, _⟩ => rfl
    | ⟨1, _⟩ => show q.val = (e3 (ix2 p q) 1).val; omega)
  have hd : e2 (ix2 p (0 : Fin 1)) = ix2 (e3 (ix2 p q) 0) (0 : Fin 1) := funext fun a => Fin.ext (by
    have a2 := c2 p 0
    match a with
    | ⟨0, _⟩ => show (e2 (ix2 p (0 : Fin 1)) 0).val = (e3 (ix2 p q) 0).val; omega
    | ⟨1, _⟩ =>
      have l : (e2 (ix2 p (0 : Fin 1)) 1).val < 1 := (e2 (ix2 p (0 : Fin 1)) 1).isLt
      show (e2 (ix2 p (0 : Fin 1)) 1).val = 0; omega)
  rw [h2, hd]
  refine congrArg (· * _) (Finset.sum_congr rfl fun k _ => ?_)
  exact congrArg₂ (· * ·) ((h0 _).trans (congrArg X (hx k))) ((h1 _).trans (congrArg W (hw k)))

/-! ## The grid: which rows each point reads and writes -/

/-- The zero offsets of a whole-block access, as the constant function. -/
theorem hz : (![0, 0] : Fin 2 → Nat) = fun _ => 0 := funext fun a => by fin_cases a <;> rfl

/-- The block indices at point `t`, decided over the 20 points: `x`, the column and the output move to row block `t`
    (column block 0), and `w` stays at block `(0, 0)`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- What point `t` writes back is block `t` of `scaled` of the three arrays as the stage finds them: a block's
    coordinate is its block index times the block size plus the coordinate inside the block, so the three input
    blocks and the output block are the arrays' rows `5000·t + p`. -/
theorem flushed_eq (c : Dev nD) (t : Fin cfg0.N) :
    (Gen.dat0 (F := Ideal) V c).flushed 3 t
      = ((cfg0.win 3).blk t).view.read (Elt Ideal) (scaled (V c main_arg0) (V c main_arg3) (V c main_v15)) := by
  show (cfg0.win 3).cut (grid0.coords t) ((Gen.dat0 (F := Ideal) V c).after 3 t) = _
  rw [Gen.after0_3]
  unfold Gen.out0_3
  rw [View.canon_unit_zero hz]
  simp only [View.ld_unit_zero (S := S5000x256) hz, View.ld_unit_zero (S := S256x64) hz,
    View.ld_unit_zero (S := S5000x1) hz]
  obtain ⟨i00, i01, i10, i11, i20, i21, i30, i31⟩ := idx_facts t
  funext j
  refine pay_block (Gen.iblk0 V c 0 t) (Gen.iblk0 V c 1 t) (Gen.iblk0 V c 2 t)
    (V c main_arg0) (V c main_arg3) (V c main_v15)
    ((cfg0.win 0).blk t).view.emb ((cfg0.win 2).blk t).view.emb ((cfg0.win 3).blk t).view.emb
    t.val (fun y => rfl) (fun y => ?_) (fun y => rfl) (fun p k => ⟨?_, ?_⟩) (fun p u => ?_) (fun p q => ⟨?_, ?_⟩) j
  · show V c main_arg3 (((cfg0.win 1).blk t).view.emb y) = V c main_arg3 y
    refine congrArg (V c main_arg3) (funext fun a => Fin.ext ?_)
    match a with
    | ⟨0, _⟩ => show win0_1.index t (0 : Fin 2) * 256 + 1 * (y 0).val = (y 0).val; omega
    | ⟨1, _⟩ => show win0_1.index t (1 : Fin 2) * 64 + 1 * (y 1).val = (y 1).val; omega
  · show win0_0.index t (0 : Fin 2) * 5000 + 1 * p.val = t.val * 5000 + p.val; omega
  · show win0_0.index t (1 : Fin 2) * 256 + 1 * k.val = k.val; omega
  · show win0_2.index t (0 : Fin 2) * 5000 + 1 * p.val = t.val * 5000 + p.val; omega
  · show win0_3.index t (0 : Fin 2) * 5000 + 1 * p.val = t.val * 5000 + p.val; omega
  · show win0_3.index t (1 : Fin 2) * 64 + 1 * q.val = q.val; omega

/-! ## The cover: every row is in the block of one point -/

/-- An index of the output array is in point `t`'s block iff each coordinate is in the block's range on its axis. -/
theorem mem_blk (t : Fin cfg0.N) (i : S100000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v16).slice (win0_3.rect t)).set ↔ _
  rw [View.set_slice_whole, Rect.mem_set_unit]
  exact Iff.rfl

/-- Row `r` lies in the block of the point `r / 5000` (which is below 20 since `r < 100000`), and every point
    writes its block back. -/
theorem cover (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 20 := Gen.N_0
  obtain ⟨t, ht⟩ : ∃ t : Fin cfg0.N, t.val = (i 0).val / 5000 := ⟨⟨(i 0).val / 5000, by rw [hN]; omega⟩, rfl⟩
  obtain ⟨-, -, -, -, -, -, i30, i31⟩ := idx_facts t
  refine ⟨t, Gen.flush0_3 t, ?_⟩
  rw [mem_blk]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 64 ≤ (i 1).val ∧ (i 1).val < win0_3.index t (1 : Fin 2) * 64 + 64
    omega

/-! ## The array after the stage -/

/-- What the stage leaves in its output array, for ANY contents `V` at its entry: `scaled` of the arrays it reads. -/
theorem region0_array (c : Dev nD) :
    (Gen.dat0 (F := Ideal) V c).arrAt 3 cfg0.N = scaled (V c main_arg0) (V c main_arg3) (V c main_v15) :=
  (Gen.dat0 (F := Ideal) V c).arrAt_eq_of_cover 3 (scaled (V c main_arg0) (V c main_arg3) (V c main_v15))
    (fun t _ => flushed_eq V c t) cover

end Cert.KernelIdeal.ScaledRows

end
-- ==== Proof.LibLogistic.lean ====
/-
  The logistic function on the extended reals, in the two ways a program spells it, and its threshold at one half.

  A host program spells the logistic function of `l` as `1 / (1 + exp (-(l / 1)))` (`hostLogistic`): on a real `r` that is
  the real number `1 / (1 + e^(-r))`, at `-∞` it is `0` (the exponential of `+∞` is `+∞`, and `1 / +∞ = 0`), at `+∞` it is
  `1` (the exponential of `-∞` is `0`). A vector unit spells it with one hyperbolic tangent, `1/2 · tanh (l / 2) + 1/2`;
  the two agree at every extended real (`half_tanh`): on a real because
  `tanh (r/2) = (e^(r/2) - e^(-r/2)) / (e^(r/2) + e^(-r/2)) = (1 - e^(-r)) / (1 + e^(-r))`, at the infinities because
  `tanh` has the limits `-1` and `1` there.

  The logistic function is increasing with value `1/2` at `0`, so it exceeds `1/2` exactly where its argument is positive
  (`half_lt_hostLogistic`), the infinities included.
-/
import Idealize.ShloMosaic.PureOps.Ideal
import Idealize.ShloMosaic.PureOps.Ideal.Laws

noncomputable section

namespace Cert.LibLogistic

open Idealize.ShloMosaic

/-- The single-precision word of `0.5` is the real number one half. -/
theorem ofBits_half : Ideal.ofBits .f32 0x3F000000#32 = ((1 / 2 : ℝ) : EReal) := by
  simp [Ideal.ofBits, Ideal.ieee, -EReal.coe_mul]; norm_num

/-- The single-precision word of `1.0` is the real number one. -/
theorem ofBits_one : Ideal.ofBits .f32 0x3F800000#32 = ((1 : ℝ) : EReal) := by
  simp [Ideal.ofBits, Ideal.ieee, -EReal.coe_mul]; norm_num

/-- The logistic function of `l` as a host program spells it: `1 / (1 + exp (-(l / 1)))`. -/
def hostLogistic (l : EReal) : EReal :=
  Ideal.div ((1 : ℝ) : EReal) (((1 : ℝ) : EReal) + Ideal.exp (-(Ideal.div l ((1 : ℝ) : EReal))))

/-- A quotient by one is the dividend. -/
theorem div_one' (x : EReal) : Ideal.div x ((1 : ℝ) : EReal) = x := by
  rw [Ideal.div_coe one_ne_zero]; simp

theorem hostLogistic_coe (r : ℝ) : hostLogistic (r : EReal) = ((1 / (1 + Real.exp (-r)) : ℝ) : EReal) := by
  have hpos : (1 + Real.exp (-r) : ℝ) ≠ 0 := by positivity
  unfold hostLogistic
  rw [div_one', ← EReal.coe_neg]
  show Ideal.div ((1 : ℝ) : EReal) (((1 : ℝ) : EReal) + ((Real.exp (-r) : ℝ) : EReal)) = _
  rw [← EReal.coe_add, Ideal.div_coe hpos, ← EReal.coe_mul, one_mul]

theorem hostLogistic_bot : hostLogistic ⊥ = 0 := by
  unfold hostLogistic
  rw [div_one', EReal.neg_bot]
  show Ideal.div ((1 : ℝ) : EReal) (((1 : ℝ) : EReal) + ⊤) = 0
  rw [EReal.coe_add_top]
  simp [Ideal.div]

theorem hostLogistic_top : hostLogistic ⊤ = 1 := by
  unfold hostLogistic
  rw [div_one', EReal.neg_top]
  show Ideal.div ((1 : ℝ) : EReal) (((1 : ℝ) : EReal) + 0) = 1
  rw [add_zero, div_one']; rfl

/-- On the reals, `1/2 · tanh (r/2) + 1/2 = 1 / (1 + e^(-r))`. -/
theorem real_half_tanh (r : ℝ) : 1 / 2 * Real.tanh (1 / 2 * r) + 1 / 2 = 1 / (1 + Real.exp (-r)) := by
  have hb : Real.exp (-r) = Real.exp (-(1 / 2 * r)) * Real.exp (-(1 / 2 * r)) := by
    rw [← Real.exp_add]; congr 1; ring
  have hinv : Real.exp (-(1 / 2 * r)) = (Real.exp (1 / 2 * r))⁻¹ := Real.exp_neg _
  have hp : 0 < Real.exp (1 / 2 * r) := Real.exp_pos _
  rw [Real.tanh_eq_sinh_div_cosh, Real.sinh_eq, Real.cosh_eq, hb, hinv]
  generalize Real.exp (1 / 2 * r) = a at hp
  have ha : a ≠ 0 := ne_of_gt hp
  have h2 : a * a + 1 ≠ 0 := by positivity
  field_simp
  ring

/-- The vector unit's spelling `1/2 · tanh (1/2 · l) + 1/2` is the host's logistic function, at every extended real. -/
theorem half_tanh (l : EReal) :
    ((1 / 2 : ℝ) : EReal) * Ideal.tanh (((1 / 2 : ℝ) : EReal) * l) + ((1 / 2 : ℝ) : EReal) = hostLogistic l := by
  induction l using EReal.rec with
  | bot =>
    rw [EReal.coe_mul_bot_of_pos (by norm_num), hostLogistic_bot]
    show ((1 / 2 : ℝ) : EReal) * (-1 : EReal) + ((1 / 2 : ℝ) : EReal) = 0
    have : (-1 : EReal) = ((-1 : ℝ) : EReal) := by rw [EReal.coe_neg, EReal.coe_one]
    rw [this, ← EReal.coe_mul, ← EReal.coe_add]; norm_num
  | top =>
    rw [EReal.coe_mul_top_of_pos (by norm_num), hostLogistic_top]
    show ((1 / 2 : ℝ) : EReal) * (1 : EReal) + ((1 / 2 : ℝ) : EReal) = 1
    have : (1 : EReal) = ((1 : ℝ) : EReal) := EReal.coe_one.symm
    rw [this, ← EReal.coe_mul, ← EReal.coe_add]; norm_num
  | coe r =>
    rw [← EReal.coe_mul, hostLogistic_coe]
    show ((1 / 2 : ℝ) : EReal) * ((Real.tanh (1 / 2 * r) : ℝ) : EReal) + ((1 / 2 : ℝ) : EReal) = _
    rw [← EReal.coe_mul, ← EReal.coe_add, real_half_tanh]

/-- The logistic function exceeds one half exactly at the positive extended reals. -/
theorem half_lt_hostLogistic (l : EReal) : ((1 / 2 : ℝ) : EReal) < hostLogistic l ↔ 0 < l := by
  induction l using EReal.rec with
  | bot =>
    rw [hostLogistic_bot]
    constructor
    · intro h; exact absurd h (by norm_cast; norm_num)
    · intro h; exact absurd h (not_lt_bot)
  | top =>
    rw [hostLogistic_top]
    constructor
    · intro _; exact EReal.zero_lt_top
    · intro _; norm_cast; norm_num
  | coe r =>
    rw [hostLogistic_coe, EReal.coe_lt_coe_iff]
    have hz : (0 : EReal) < (r : EReal) ↔ 0 < r := by norm_cast
    rw [hz]
    have hpos : (0 : ℝ) < 1 + Real.exp (-r) := by positivity
    rw [lt_div_iff₀ hpos]
    have he : Real.exp (-r) < 1 ↔ -r < 0 := Real.exp_lt_one_iff
    constructor
    · intro h
      have : Real.exp (-r) < 1 := by linarith
      have := he.mp this
      linarith
    · intro h
      have : Real.exp (-r) < 1 := he.mpr (by linarith)
      linarith

end Cert.LibLogistic

end
-- ==== Proof.HeadRow.lean ====
/-
  The head of a two-layer perceptron with a logistic output, as a function of ONE row.

  A row of the head's operand is two rows of 64 entries laid end to end (`catRow`). The first layer sends it to 16 numbers
  `(∑ k, row k · w1 (k, j)) + b1 j`; each passes through the leaky rectifier (`leaky v` is `v` where `v ≥ 0` and a fixed
  multiple of `v` elsewhere, the factor being the single-precision word `0x3C23D70A`, about one hundredth); the second layer
  sends the 16 results to one number `(∑ j, · w2 (j, 0)) + b2`, and the logistic function `1 / (1 + e^(-x))` of that number
  is the row's value (`headRow`).

  Two facts about sums used on both sides of the comparison: a sum over the 128 positions of the concatenated row of
  a function that is given on the left half and on the right half (`sum_catRow`) is a sum of `catRow` terms whenever
  the summand agrees with `catRow` entry by entry (that is just congruence); and the logistic function spelt with the
  single-precision word of `1.0` for its two ones is the logistic function (`logistic_words`).
-/
import Idealize.ShloMosaic.PureOps.Ideal
import Idealize.ShloMosaic.PureOps.Ideal.Laws
import Idealize.ShloMosaic.Lib.ValueIdx
import proofs.«176623_j10050223473070_2_alg».proof.Proof.LibLogistic

noncomputable section

open scoped BigOperators

namespace Cert.HeadRow

open Idealize.ShloMosaic Idealize.ShloMosaic.ValueIdx

/-- The leaky rectifier on the extended reals, spelt with the comparison and the two words the programs use. -/
def leaky (v : EReal) : EReal :=
  Scalar.select (Ideal.cmp .oge v (Ideal.ofBits .f32 0x00000000#32)) v (Ideal.ofBits .f32 0x3C23D70A#32 * v)

/-- Two rows of 64 entries laid end to end: positions `0 … 63` are the first row, positions `64 … 127` the second. -/
def catRow (ri rj : Fin 64 → EReal) (k : Fin 128) : EReal :=
  if h : k.val < 64 then ri ⟨k.val, h⟩ else rj ⟨k.val - 64, by omega⟩

theorem catRow_left (ri rj : Fin 64 → EReal) (k : Fin 128) (j : Fin 64) (h : k.val = j.val) : catRow ri rj k = ri j := by
  have hk : k.val < 64 := by omega
  unfold catRow
  rw [dif_pos hk]
  exact congrArg ri (Fin.ext h)

theorem catRow_right (ri rj : Fin 64 → EReal) (k : Fin 128) (j : Fin 64) (h : k.val = 64 + j.val) : catRow ri rj k = rj j := by
  have hk : ¬ k.val < 64 := by omega
  unfold catRow
  rw [dif_neg hk]
  exact congrArg rj (Fin.ext (by show k.val - 64 = j.val; omega))

/-- The head on one row: first layer, leaky rectifier, second layer, logistic function. -/
def headRow (ri rj : Fin 64 → EReal) (w1 : (⟨2, ![128, 16]⟩ : Shape).Idx → EReal) (b1 : Fin 16 → EReal)
    (w2 : (⟨2, ![16, 1]⟩ : Shape).Idx → EReal) (b2 : EReal) : EReal :=
  Ideal.logistic ((∑ j : Fin 16, leaky ((∑ k : Fin 128, catRow ri rj k * w1 (ix2 k j)) + b1 j) * w2 (ix2 j (0 : Fin 1))) + b2)

/-- The head on one row from any spelling `c` of the concatenated row and any spelling `a` of the first layer's results
    that agree with the row's own. -/
theorem headRow_of (ri rj : Fin 64 → EReal) (w1 : (⟨2, ![128, 16]⟩ : Shape).Idx → EReal) (b1 : Fin 16 → EReal)
    (w2 : (⟨2, ![16, 1]⟩ : Shape).Idx → EReal) (b2 : EReal) (c : Fin 128 → EReal) (hc : ∀ k, c k = catRow ri rj k) :
    Ideal.logistic ((∑ j : Fin 16, leaky ((∑ k : Fin 128, c k * w1 (ix2 k j)) + b1 j) * w2 (ix2 j (0 : Fin 1))) + b2)
      = headRow ri rj w1 b1 w2 b2 := by
  unfold headRow
  have e : c = catRow ri rj := funext hc
  rw [e]

/-- The logistic function spelt `w / (w + e^(-x))` with `w` the single-precision word of `1.0`. -/
theorem logistic_words (x : EReal) :
    Ideal.div (Ideal.ofBits .f32 0x3F800000#32) (Ideal.ofBits .f32 0x3F800000#32 + Ideal.exp (-x)) = Ideal.logistic x := by
  rw [Cert.LibLogistic.ofBits_one]
  rfl

end Cert.HeadRow

end
-- ==== Proof.LibDenseLayer.lean ====
/-
  A dense layer on the extended reals. For `x : [M, K]`, `w : [K, N]` and a bias `b` per column, the entry `(p, q)`
  of `x · w + b` is `(∑ k, x (p, k) · w (k, q)) + b q`: row `p` of `x` against column `q` of `w`. `denseClamp` is the same
  layer applied to `max x z`, the entries of `x` clamped below at `z` (a rectifier when `z` is zero).

  An entry of the layer depends on ONE row of `x` only. So a block of consecutive rows of the layer's output is the layer
  applied to that block of rows of `x` (`denseAt_rows`): computing the layer block of rows by block of rows, in any
  order, gives the layer.
-/
import Idealize.ShloMosaic.Lib.ValueIdx

noncomputable section

open scoped BigOperators

namespace Cert.DenseLayer

open Idealize.ShloMosaic Idealize.ShloMosaic.ValueIdx

/-- Entry `(p, q)` of `x · w + b`. -/
def denseAt {M K N : ℕ} (x : (⟨2, ![M, K]⟩ : Shape).Idx → EReal) (w : (⟨2, ![K, N]⟩ : Shape).Idx → EReal) (b : Fin N → EReal)
    (p : Fin M) (q : Fin N) : EReal :=
  (∑ k : Fin K, x (ix2 p k) * w (ix2 k q)) + b q

/-- The array `x · w + b`. -/
def dense {M K N : ℕ} (x : (⟨2, ![M, K]⟩ : Shape).Idx → EReal) (w : (⟨2, ![K, N]⟩ : Shape).Idx → EReal) (b : Fin N → EReal) :
    (⟨2, ![M, N]⟩ : Shape).Idx → EReal :=
  fun i => denseAt x w b (i 0) (i 1)

theorem dense_ix2 {M K N : ℕ} (x : (⟨2, ![M, K]⟩ : Shape).Idx → EReal) (w : (⟨2, ![K, N]⟩ : Shape).Idx → EReal) (b : Fin N → EReal)
    (p : Fin M) (q : Fin N) : dense x w b (ix2 p q) = denseAt x w b p q := rfl

/-- The array `max x z · w + b`. -/
def denseClamp {M K N : ℕ} (z : EReal) (x : (⟨2, ![M, K]⟩ : Shape).Idx → EReal) (w : (⟨2, ![K, N]⟩ : Shape).Idx → EReal)
    (b : Fin N → EReal) : (⟨2, ![M, N]⟩ : Shape).Idx → EReal :=
  dense (fun i => max (x i) z) w b

/-- Row `p` of the layer on a block of rows is row `P` of the layer on the whole array, when row `p` of the block is
    row `P` of the array. -/
theorem denseAt_rows {M m K N : ℕ} (x : (⟨2, ![M, K]⟩ : Shape).Idx → EReal) (xb : (⟨2, ![m, K]⟩ : Shape).Idx → EReal)
    (w : (⟨2, ![K, N]⟩ : Shape).Idx → EReal) (b : Fin N → EReal) (p : Fin m) (P : Fin M) (q : Fin N)
    (h : ∀ k : Fin K, xb (ix2 p k) = x (ix2 P k)) : denseAt xb w b p q = denseAt x w b P q := by
  unfold denseAt
  exact congrArg (· + b q) (Finset.sum_congr rfl fun k _ => by rw [h k])

end Cert.DenseLayer

end
-- ==== Proof.LibBiasRow.lean ====
/-
  A dense layer whose bias arrives as a `[1, N]` row.

  A vector unit that is handed the bias already laid out as one row of `N` entries forms `x · w + b` by a matrix
  multiplication into a zero accumulator plus that row — passed through a shape cast that changes nothing — broadcast over
  the `M` rows. Entry `(p, q)` of the result is `(∑ k, x (p, k) · w (k, q)) + b (0, q)`: the array `dense x w (rowBias b)`.
-/
import proofs.«176623_j10050223473070_2_alg».proof.Proof.LibDenseLayer
import proofs.«176623_j10050223473070_2_alg».proof.Proof.LibPlainMatmul
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.LibBiasRow

open Idealize.ShloMosaic Idealize.ShloMosaic.ValueIdx Cert.DenseLayer

/-- A `[1, N]` bias row as a function of the column. -/
def rowBias {N : ℕ} (b : (⟨2, ![1, N]⟩ : Shape).Idx → EReal) : Fin N → EReal := fun q => b (ix2 (0 : Fin 1) q)

/-- The layer as a vector unit spells it when the bias is a `[1, N]` row: the product into a zero accumulator, plus the row
    broadcast over the rows. -/
theorem vec_layer_row {M K N : ℕ} (D : DotDims ⟨2, ![M, K]⟩ ⟨2, ![K, N]⟩ ⟨2, ![M, N]⟩) (hD : D = DotDims.plain M K N)
    (prec : Option ContractPrecision) (x : FVec Ideal ⟨2, ![M, K]⟩ .f32) (w : FVec Ideal ⟨2, ![K, N]⟩ .f32)
    (b : FVec Ideal ⟨2, ![1, N]⟩ .f32) (hc : (⟨2, ![1, N]⟩ : Shape).ShapeCasts ⟨2, ![1, N]⟩)
    (hb : (⟨2, ![1, N]⟩ : Shape).Broadcasts ⟨2, ![M, N]⟩) :
    addf (matmul D prec x w (constant ⟨2, ![M, N]⟩ .f32 0x00000000#32))
        (broadcastTo ⟨2, ![M, N]⟩ (shapeCast ⟨2, ![1, N]⟩ b hc) hb)
      = dense x w (rowBias b) := by
  funext i
  obtain ⟨p, q, rfl⟩ : ∃ (p : Fin M) (q : Fin N), i = ix2 p q := ⟨i 0, i 1, eq_ix2 i⟩
  show FloatOps.matmul D prec x w (constant ⟨2, ![M, N]⟩ .f32 0x00000000#32) (ix2 p q)
      + broadcastTo ⟨2, ![M, N]⟩ (shapeCast ⟨2, ![1, N]⟩ b hc) hb (ix2 p q)
    = (∑ k : Fin K, x (ix2 p k) * w (ix2 k q)) + b (ix2 (0 : Fin 1) q)
  rw [Cert.LibPlainMatmul.matmul_plain_zero_apply D hD, broadcastTo_1b_ab_apply, shapeCast_self]

end Cert.LibBiasRow

end
-- ==== Proof.LibSideBySide.lean ====
/-
  Two arrays laid side by side, read at an index, and a one-column matrix turned into a one-row matrix.

  A program that wants one matrix product to serve two layers keeps the two weight matrices side by side in one array
  (a concatenation along the columns) and the two bias vectors end to end in one vector. Read at an index, the pair is
  its left piece where the coordinate along the joined axis is below the left piece's extent `a`, and its right piece,
  at that coordinate less `a`, from `a` on. Stated for any two `r × a` matrices (columns `j` and `a + j` of the pair)
  and any two vectors of length `a` (positions `j` and `a + j`); the position in the pair is a parameter `J` with its
  value given, so that a caller's own injection into the pair's columns fits by `rfl`.
  A shape cast keeps row-major positions: entry `(q, 0)` of an `a × 1` column and entry `(0, q)` of the `1 × a` row it is
  cast to both sit at position `q`.
-/
import Idealize.ShloMosaic.Lib.Pipeline.Value
import Idealize.ShloMosaic.Lib.ValueIdx
import Idealize.ShloMosaic.Lib.ValueLayout

namespace Cert.LibSideBySide

open Idealize.ShloMosaic Idealize.ShloMosaic.ValueIdx

variable {α : Type}

/-! ## Two pieces side by side -/

/-- Column `j` of the left of two `r × a` matrices laid side by side. -/
theorem pair_cols_left {r a t : ℕ} (x₁ x₂ : (⟨2, ![r, a]⟩ : Shape).Idx → α)
    (h : Shape.Concatenates [(⟨2, ![r, a]⟩ : Shape), ⟨2, ![r, a]⟩] ⟨2, ![r, t]⟩ 1) (k : Fin r) (j : Fin a) (J : Fin t)
    (hJ : J.val = j.val) :
    concatenate ⟨2, ![r, t]⟩ 1 [⟨⟨2, ![r, a]⟩, x₁⟩, ⟨⟨2, ![r, a]⟩, x₂⟩] h (ix2 k J) = x₁ (ix2 k j) :=
  concatenate_pair_apply_left 1 x₁ x₂ h (ix2 k J) rfl (ix2 k j) (fun b => by
    match b with
    | ⟨0, _⟩ => rfl
    | ⟨1, _⟩ => exact hJ.symm)

/-- Column `j` of the right of two `r × a` matrices laid side by side sits at column `a + j` of the pair. -/
theorem pair_cols_right {r a t : ℕ} (x₁ x₂ : (⟨2, ![r, a]⟩ : Shape).Idx → α)
    (h : Shape.Concatenates [(⟨2, ![r, a]⟩ : Shape), ⟨2, ![r, a]⟩] ⟨2, ![r, t]⟩ 1) (k : Fin r) (j : Fin a) (J : Fin t)
    (hJ : J.val = a + j.val) :
    concatenate ⟨2, ![r, t]⟩ 1 [⟨⟨2, ![r, a]⟩, x₁⟩, ⟨⟨2, ![r, a]⟩, x₂⟩] h (ix2 k J) = x₂ (ix2 k j) :=
  concatenate_pair_apply_right 1 x₁ x₂ h (ix2 k J) rfl rfl (ix2 k j) (fun b hb => by
    match b with
    | ⟨0, _⟩ => rfl
    | ⟨1, _⟩ => exact absurd rfl hb) (by
    show j.val + a = J.val
    omega)

/-- Entry `j` of the first of two vectors of length `a` laid end to end. -/
theorem pair_vec_left {a t : ℕ} (x₁ x₂ : (⟨1, ![a]⟩ : Shape).Idx → α)
    (h : Shape.Concatenates [(⟨1, ![a]⟩ : Shape), ⟨1, ![a]⟩] ⟨1, ![t]⟩ 0) (j : Fin a) (J : Fin t) (hJ : J.val = j.val) :
    concatenate ⟨1, ![t]⟩ 0 [⟨⟨1, ![a]⟩, x₁⟩, ⟨⟨1, ![a]⟩, x₂⟩] h (ix1 J) = x₁ (ix1 j) :=
  concatenate_pair_apply_left 0 x₁ x₂ h (ix1 J) rfl (ix1 j) (fun b => by
    match b with
    | ⟨0, _⟩ => exact hJ.symm)

/-- Entry `j` of the second of two vectors of length `a` laid end to end sits at position `a + j`. -/
theorem pair_vec_right {a t : ℕ} (x₁ x₂ : (⟨1, ![a]⟩ : Shape).Idx → α)
    (h : Shape.Concatenates [(⟨1, ![a]⟩ : Shape), ⟨1, ![a]⟩] ⟨1, ![t]⟩ 0) (j : Fin a) (J : Fin t) (hJ : J.val = a + j.val) :
    concatenate ⟨1, ![t]⟩ 0 [⟨⟨1, ![a]⟩, x₁⟩, ⟨⟨1, ![a]⟩, x₂⟩] h (ix1 J) = x₂ (ix1 j) :=
  concatenate_pair_apply_right 0 x₁ x₂ h (ix1 J) rfl rfl (ix1 j) (fun b hb => by
    match b with
    | ⟨0, _⟩ => exact absurd rfl hb) (by
    show j.val + a = J.val
    omega)

/-- A one-column matrix cast to a one-row matrix: entry `(0, q)` of the row is entry `(q, 0)` of the column. -/
theorem shapeCast_a1_1a_apply {a : ℕ} (x : (⟨2, ![a, 1]⟩ : Shape).Idx → α)
    (h : (⟨2, ![a, 1]⟩ : Shape).ShapeCasts ⟨2, ![1, a]⟩) (q : Fin a) :
    shapeCast ⟨2, ![1, a]⟩ x h (ix2 (0 : Fin 1) q) = x (ix2 q (0 : Fin 1)) :=
  shapeCast_apply x h _ _ (by
    rw [Shape.rowMajor_val_two, Shape.rowMajor_val_two]
    show q.val * 1 + 0 = 0 * a + q.val
    omega)

end Cert.LibSideBySide
-- ==== Proof.HeadKernel.lean ====
/-
  The kernel's perceptron head, read off the second region's frame.

  At one grid point the body lays its two `[2048, 64]` blocks side by side, multiplies by the first weight matrix into a
  zero accumulator, adds the bias row, applies the leaky rectifier, multiplies by the second weight matrix into a zero
  accumulator, adds the bias and applies the logistic function. Roundings to a narrower format are the identity on the
  extended reals, so each layer is the dense layer of `Cert.DenseLayer` and entry `(p, 0)` of the payload is
  `Cert.HeadRow.headRow` of row `p` of the two blocks (`pay_apply`).

  The grid has 8 points; point `t` reads rows `2048 t … 2048 t + 2047` of the two operand arrays, the weights and
  biases whole, and writes rows `2048 t … 2048 t + 2047` of the result (the index maps, decided once over the grid:
  `idx_facts`). A block's coordinate in its array is index × size + the coordinate inside the block, so what point `t`
  writes back is block `t` of ONE function of the arrays as the region finds them: the head of row `i` at index `(i, 0)`
  (`flushed_eq`). Row `r` is covered by point `r / 2048` (`cover`), so the result array ends holding that function
  (`region1_array`).
-/
import proofs.«176623_j10050223473070_2_alg».proof.Proof.Gen.KernelIdeal.Frame
import proofs.«176623_j10050223473070_2_alg».proof.Proof.HeadRow
import proofs.«176623_j10050223473070_2_alg».proof.Proof.LibPlainMatmul
import proofs.«176623_j10050223473070_2_alg».proof.Proof.LibBiasRow
import proofs.«176623_j10050223473070_2_alg».proof.Proof.LibSideBySide
import Idealize.ShloMosaic.Lib.Pipeline.Value
import Idealize.ShloMosaic.Lib.ValueIdx
import Idealize.ShloMosaic.Lib.ValueLayout

noncomputable section

open scoped BigOperators

namespace Cert.KernelIdeal.HeadKernel

open Cert.KernelIdeal Cert.KernelIdeal.Gen Idealize.ShloMosaic Idealize.ShloMosaic.TcCoe Idealize.SL.Sem
open Idealize.ShloMosaic.ValueIdx Cert.HeadRow Cert.DenseLayer Cert.LibBiasRow
open Idealize.ShloMosaic.Pipeline (Dat)

/-! ## The payload at an index -/

/-- A layer whose operands are first rounded to a narrower format: on the extended reals the rounding is the identity,
    so it is the dense layer. -/
theorem vec_layer_row_trunc {M K N : ℕ} (D : DotDims ⟨2, ![M, K]⟩ ⟨2, ![K, N]⟩ ⟨2, ![M, N]⟩) (hD : D = DotDims.plain M K N)
    (prec : Option ContractPrecision) (x : FVec Ideal ⟨2, ![M, K]⟩ .f32) (w : FVec Ideal ⟨2, ![K, N]⟩ .f32)
    (b : FVec Ideal ⟨2, ![1, N]⟩ .f32) (ht : FTy.bits .bf16 < FTy.bits .f32)
    (hc : (⟨2, ![1, N]⟩ : Shape).ShapeCasts ⟨2, ![1, N]⟩) (hb : (⟨2, ![1, N]⟩ : Shape).Broadcasts ⟨2, ![M, N]⟩) :
    addf (matmul D prec (truncf .bf16 x ht) (truncf .bf16 w ht) (constant ⟨2, ![M, N]⟩ .f32 0x00000000#32))
        (broadcastTo ⟨2, ![M, N]⟩ (shapeCast ⟨2, ![1, N]⟩ b hc) hb)
      = dense x w (rowBias b) := by
  funext i
  obtain ⟨p, q, rfl⟩ : ∃ (p : Fin M) (q : Fin N), i = ix2 p q := ⟨i 0, i 1, eq_ix2 i⟩
  show FloatOps.matmul D prec (truncf .bf16 x ht) (truncf .bf16 w ht) (constant ⟨2, ![M, N]⟩ .f32 0x00000000#32) (ix2 p q)
      + broadcastTo ⟨2, ![M, N]⟩ (shapeCast ⟨2, ![1, N]⟩ b hc) hb (ix2 p q)
    = (∑ k : Fin K, x (ix2 p k) * w (ix2 k q)) + b (ix2 (0 : Fin 1) q)
  rw [Cert.LibPlainMatmul.matmul_plain_zero_apply D hD, broadcastTo_1b_ab_apply, shapeCast_self]
  rfl

/-- The two blocks side by side, at row `p`, are the two rows laid end to end. -/
theorem cat_row (x0 x1 : FVec Ideal S2048x64 .f32) (p : Fin 2048) (k : Fin 128) :
    concatenate S2048x128 1 [⟨S2048x64, x0⟩, ⟨S2048x64, x1⟩] concatenates_S2048x64_S2048x64_S2048x128_d1 (ix2 p k)
      = catRow (fun k => x0 (ix2 p k)) (fun k => x1 (ix2 p k)) k := by
  by_cases h : k.val < 64
  · rw [catRow_left _ _ k ⟨k.val, h⟩ rfl]
    exact Cert.LibSideBySide.pair_cols_left x0 x1 _ p ⟨k.val, h⟩ k rfl
  · have h' : k.val - 64 < 64 := by have := k.isLt; omega
    rw [catRow_right _ _ k ⟨k.val - 64, h'⟩ (by show k.val = 64 + (k.val - 64); omega)]
    exact Cert.LibSideBySide.pair_cols_right x0 x1 _ p ⟨k.val - 64, h'⟩ k (by show k.val = 64 + (k.val - 64); omega)

/-- The payload at `(p, 0)` is the head of row `p` of the two blocks. -/
theorem pay_apply (x0 x1 : Vec Ideal S2048x64 .f32) (x2 : Vec Ideal S128x16 .f32) (x3 : Vec Ideal S1x16 .f32)
    (x4 : Vec Ideal S16x1 .f32) (x5 : Vec Ideal S1x1 .f32) (p : Fin 2048) :
    Gen.k1_pay1 x0 x1 x2 x3 x4 x5 (ix2 p (0 : Fin 1))
      = headRow (fun k => x0 (ix2 p k)) (fun k => x1 (ix2 p k)) x2 (fun j => x3 (ix2 (0 : Fin 1) j)) x4
          (x5 (ix2 (0 : Fin 1) (0 : Fin 1))) := by
  unfold Gen.k1_pay1
  rw [shapeCast_self x0 _, shapeCast_self x1 _,
    vec_layer_row_trunc dot_S2048x128_S128x16_S2048x16_1_0_0_1_n_n rfl none _ x2 x3,
    vec_layer_row_trunc dot_S2048x16_S16x1_S2048x1_1_0_0_1_n_n rfl none _ x4 x5]
  show Ideal.logistic ((∑ j : Fin 16, leaky ((∑ k : Fin 128,
          concatenate S2048x128 1 [⟨S2048x64, x0⟩, ⟨S2048x64, x1⟩] concatenates_S2048x64_S2048x64_S2048x128_d1 (ix2 p k)
            * x2 (ix2 k j)) + x3 (ix2 (0 : Fin 1) j)) * x4 (ix2 j (0 : Fin 1))) + x5 (ix2 (0 : Fin 1) (0 : Fin 1))) = _
  exact headRow_of _ _ x2 _ x4 _ _ (cat_row x0 x1 p)

/-- The payload at an index `y` of a block, when row `y 0` of the two blocks is row `r` of two arrays. -/
theorem point_eq (x0 x1 : Vec Ideal S2048x64 .f32) (x2 : Vec Ideal S128x16 .f32) (x3 : Vec Ideal S1x16 .f32)
    (x4 : Vec Ideal S16x1 .f32) (x5 : Vec Ideal S1x1 .f32) (y : S2048x1.Idx)
    (A B : S16384x64.Idx → EReal) (r : Fin 16384)
    (h0 : ∀ k : Fin 64, x0 (ix2 (y 0) k) = A (ix2 r k)) (h1 : ∀ k : Fin 64, x1 (ix2 (y 0) k) = B (ix2 r k)) :
    Gen.k1_pay1 x0 x1 x2 x3 x4 x5 y
      = headRow (fun k => A (ix2 r k)) (fun k => B (ix2 r k)) x2 (fun j => x3 (ix2 (0 : Fin 1) j)) x4
          (x5 (ix2 (0 : Fin 1) (0 : Fin 1))) := by
  obtain ⟨p, u, rfl⟩ : ∃ (p : Fin 2048) (u : Fin 1), y = ix2 p u := ⟨y 0, y 1, eq_ix2 y⟩
  obtain rfl : u = 0 := Subsingleton.elim _ _
  have e0 : (fun k => x0 (ix2 p k)) = fun k => A (ix2 r k) := funext h0
  have e1 : (fun k => x1 (ix2 p k)) = fun k => B (ix2 r k) := funext h1
  rw [pay_apply, e0, e1]

/-! ## From blocks to the array -/

theorem hz : (![0, 0] : Fin 2 → Nat) = fun _ => 0 := funext fun a => by fin_cases a <;> rfl

/-- The index maps over the grid: the two row-blocked operands move with the result, at column block 0; the weights and
    biases sit at block `(0, 0)`; the result's row block is the point's number. -/
theorem idx_facts : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

variable (V : (c : Dev nD) → (b : Ref sig .tc) → Buf (Elt Ideal) ((c : Thread nD τ).loc b))

/-- The first weight matrix's block at any point is the whole matrix. -/
theorem blk2 (c : Dev nD) (t : Fin cfg1.N) : (Gen.iblk1 V c 2 t : S128x16.Idx → EReal) = V c main_arg5 := by
  obtain ⟨-, -, -, -, e0, e1, -⟩ := idx_facts t
  unfold Gen.iblk1
  funext x
  rw [View.read_apply]
  show V c main_arg5 (((cfg1.win 2).blk t).view.emb x) = V c main_arg5 x
  refine congrArg _ (funext fun a => Fin.ext ?_)
  match a with
  | ⟨0, _⟩ => show win1_2.index t (0 : Fin 2) * 128 + 1 * (x 0).val = (x 0).val; omega
  | ⟨1, _⟩ => show win1_2.index t (1 : Fin 2) * 16 + 1 * (x 1).val = (x 1).val; omega

/-- The first bias row's block at any point is the whole row. -/
theorem blk3 (c : Dev nD) (t : Fin cfg1.N) : (Gen.iblk1 V c 3 t : S1x16.Idx → EReal) = V c main_v57 := by
  obtain ⟨-, -, -, -, -, -, e0, e1, -⟩ := idx_facts t
  unfold Gen.iblk1
  funext x
  rw [View.read_apply]
  show V c main_v57 (((cfg1.win 3).blk t).view.emb x) = V c main_v57 x
  refine congrArg _ (funext fun a => Fin.ext ?_)
  match a with
  | ⟨0, _⟩ => show win1_3.index t (0 : Fin 2) * 1 + 1 * (x 0).val = (x 0).val; omega
  | ⟨1, _⟩ => show win1_3.index t (1 : Fin 2) * 16 + 1 * (x 1).val = (x 1).val; omega

/-- The second weight matrix's block at any point is the whole matrix. -/
theorem blk4 (c : Dev nD) (t : Fin cfg1.N) : (Gen.iblk1 V c 4 t : S16x1.Idx → EReal) = V c main_arg7 := by
  obtain ⟨-, -, -, -, -, -, -, -, e0, e1, -⟩ := idx_facts t
  unfold Gen.iblk1
  funext x
  rw [View.read_apply]
  show V c main_arg7 (((cfg1.win 4).blk t).view.emb x) = V c main_arg7 x
  refine congrArg _ (funext fun a => Fin.ext ?_)
  match a with
  | ⟨0, _⟩ => show win1_4.index t (0 : Fin 2) * 16 + 1 * (x 0).val = (x 0).val; omega
  | ⟨1, _⟩ => show win1_4.index t (1 : Fin 2) * 1 + 1 * (x 1).val = (x 1).val; omega

/-- The second bias's block at any point is the whole one-entry array. -/
theorem blk5 (c : Dev nD) (t : Fin cfg1.N) : (Gen.iblk1 V c 5 t : S1x1.Idx → EReal) = V c main_v58 := by
  obtain ⟨-, -, -, -, -, -, -, -, -, -, e0, e1, -⟩ := idx_facts t
  unfold Gen.iblk1
  funext x
  rw [View.read_apply]
  show V c main_v58 (((cfg1.win 5).blk t).view.emb x) = V c main_v58 x
  refine congrArg _ (funext fun a => Fin.ext ?_)
  match a with
  | ⟨0, _⟩ => show win1_5.index t (0 : Fin 2) * 1 + 1 * (x 0).val = (x 0).val; omega
  | ⟨1, _⟩ => show win1_5.index t (1 : Fin 2) * 1 + 1 * (x 1).val = (x 1).val; omega

/-- WHAT POINT `t` WRITES BACK is block `t` of the head, row by row, of the arrays as the region finds them. -/
theorem flushed_eq (c : Dev nD) (t : Fin cfg1.N) :
    (Gen.dat1 (F := Ideal) V c).flushed 6 t = ((cfg1.win 6).blk t).view.read (Elt Ideal)
      (fun i : S16384x1.Idx => headRow (fun k => V c main_v49 (ix2 (i 0) k)) (fun k => V c main_v56 (ix2 (i 0) k))
        (V c main_arg5) (fun j => V c main_v57 (ix2 (0 : Fin 1) j)) (V c main_arg7)
        (V c main_v58 (ix2 (0 : Fin 1) (0 : Fin 1)))) := by
  show (cfg1.win 6).cut (grid1.coords t) ((Gen.dat1 (F := Ideal) V c).after 6 t) = _
  rw [Gen.after1_6]
  unfold Gen.out1_6
  rw [View.canon_unit_zero hz]
  simp only [View.ld_unit_zero (S := S2048x64) hz, View.ld_unit_zero (S := S128x16) hz, View.ld_unit_zero (S := S1x16) hz,
    View.ld_unit_zero (S := S16x1) hz, View.ld_unit_zero (S := S1x1) hz]
  obtain ⟨e00, e01, e10, e11, -⟩ := idx_facts t
  funext j
  show Gen.k1_pay1 (Gen.iblk1 V c 0 t) (Gen.iblk1 V c 1 t) (Gen.iblk1 V c 2 t) (Gen.iblk1 V c 3 t) (Gen.iblk1 V c 4 t)
      (Gen.iblk1 V c 5 t) j
    = headRow (fun k => V c main_v49 (ix2 ((((cfg1.win 6).blk t).view.emb j) 0) k))
        (fun k => V c main_v56 (ix2 ((((cfg1.win 6).blk t).view.emb j) 0) k))
        (V c main_arg5) (fun j => V c main_v57 (ix2 (0 : Fin 1) j)) (V c main_arg7)
        (V c main_v58 (ix2 (0 : Fin 1) (0 : Fin 1)))
  rw [blk2 V c t, blk3 V c t, blk4 V c t, blk5 V c t]
  refine point_eq _ _ _ _ _ _ j (V c main_v49) (V c main_v56) ((((cfg1.win 6).blk t).view.emb j) 0) (fun k => ?_) (fun k => ?_)
  · show V c main_v49 (((cfg1.win 0).blk t).view.emb (ix2 (j 0) k))
      = V c main_v49 (ix2 ((((cfg1.win 6).blk t).view.emb j) 0) k)
    refine congrArg _ (funext fun a => Fin.ext ?_)
    match a with
    | ⟨0, _⟩ =>
      show win1_0.index t (0 : Fin 2) * 2048 + 1 * (j 0).val = win1_6.index t (0 : Fin 2) * 2048 + 1 * (j 0).val
      omega
    | ⟨1, _⟩ =>
      show win1_0.index t (1 : Fin 2) * 64 + 1 * k.val = k.val
      omega
  · show V c main_v56 (((cfg1.win 1).blk t).view.emb (ix2 (j 0) k))
      = V c main_v56 (ix2 ((((cfg1.win 6).blk t).view.emb j) 0) k)
    refine congrArg _ (funext fun a => Fin.ext ?_)
    match a with
    | ⟨0, _⟩ =>
      show win1_1.index t (0 : Fin 2) * 2048 + 1 * (j 0).val = win1_6.index t (0 : Fin 2) * 2048 + 1 * (j 0).val
      omega
    | ⟨1, _⟩ =>
      show win1_1.index t (1 : Fin 2) * 64 + 1 * k.val = k.val
      omega

/-- An index of the result array is in point `t`'s block iff each coordinate is in the block's range on its axis. -/
theorem mem_blk (t : Fin cfg1.N) (i : S16384x1.Idx) :
    i ∈ ((cfg1.win 6).blk t).view.set ↔ ∀ a : Fin 2, win1_6.index t a * S2048x1.size a ≤ (i a).val
      ∧ (i a).val < win1_6.index t a * S2048x1.size a + S2048x1.size a := by
  show i ∈ ((View.whole main_v59).slice (win1_6.rect t)).set ↔ _
  rw [View.set_slice_whole, Rect.mem_set_unit]
  exact Iff.rfl

/-- Row `r` of the result is in the block of point `r / 2048`. -/
theorem cover (i : S16384x1.Idx) :
    ∃ t : Fin cfg1.N, (cfg1.win 6).flush t = true ∧ i ∈ ((cfg1.win 6).blk t).view.set := by
  have hi0 : (i 0).val < 16384 := (i 0).isLt
  have hi1 : (i 1).val < 1 := (i 1).isLt
  have hN : grid1.N = 8 := Gen.N_1
  obtain ⟨t, ht⟩ : ∃ t : Fin cfg1.N, t.val = (i 0).val / 2048 :=
    ⟨⟨(i 0).val / 2048, by show (i 0).val / 2048 < grid1.N; rw [hN]; omega⟩, rfl⟩
  obtain ⟨-, -, -, -, -, -, -, -, -, -, -, -, e60, e61⟩ := idx_facts t
  refine ⟨t, Gen.flush1_6 t, ?_⟩
  rw [mem_blk]
  intro a
  match a with
  | ⟨0, _⟩ =>
    show win1_6.index t (0 : Fin 2) * 2048 ≤ (i 0).val ∧ (i 0).val < win1_6.index t (0 : Fin 2) * 2048 + 2048
    omega
  | ⟨1, _⟩ =>
    show win1_6.index t (1 : Fin 2) * 1 ≤ (i 1).val ∧ (i 1).val < win1_6.index t (1 : Fin 2) * 1 + 1
    omega

/-- THE RESULT ARRAY after the region: at `(i, 0)` the head of row `i` of the arrays as the region finds them. -/
theorem region1_array (c : Dev nD) :
    (Gen.dat1 (F := Ideal) V c).arrAt 6 cfg1.N
      = fun i : S16384x1.Idx => headRow (fun k => V c main_v49 (ix2 (i 0) k)) (fun k => V c main_v56 (ix2 (i 0) k))
          (V c main_arg5) (fun j => V c main_v57 (ix2 (0 : Fin 1) j)) (V c main_arg7)
          (V c main_v58 (ix2 (0 : Fin 1) (0 : Fin 1))) :=
  (Gen.dat1 (F := Ideal) V c).arrAt_eq_of_cover 6 _ (fun t _ => flushed_eq V c t) cover

end Cert.KernelIdeal.HeadKernel

end
-- ==== Proof.KernelValue.lean ====
/-
  The idealized kernel program's result as one stage term of the arguments.

  The boundaries of the run are walked in order. At the first region's entry the edge ends, `dinv` and its column are
  the stage terms of the edge list; the first region leaves `x·W` with each row scaled by `dinv`; the host stretch
  between the regions turns it into the rectified node table and picks the two rows each query names; the second region
  applies the head to each picked pair of rows. So the result, row by row, is the head of the picked rows of the
  rectified table built from the rows scaled before they travel.
-/
import proofs.«176623_j10050223473070_2_alg».proof.Proof.Gen.KernelIdeal.Frame
import proofs.«176623_j10050223473070_2_alg».proof.Proof.Stages
import proofs.«176623_j10050223473070_2_alg».proof.Proof.Stretches
import proofs.«176623_j10050223473070_2_alg».proof.Proof.ScaledRows
import proofs.«176623_j10050223473070_2_alg».proof.Proof.HeadKernel

set_option maxRecDepth 16384

noncomputable section

namespace Cert.KernelIdeal.ResultValue

open Cert.KernelIdeal Cert.KernelIdeal.Gen Cert.Stages Cert.KernelIdeal.Stretches
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-- The rectified node table of the program that scales the rows before they travel. -/
def table : FVec Ideal S100000x64 .f32 :=
  rectify (preScaled (Cert.KernelIdeal.ScaledRows.scaled (m ((c : Thread nD τ).loc main_arg0)) (m ((c : Thread nD τ).loc main_arg3)) (dinvCol (m ((c : Thread nD τ).loc main_arg1))))
    (m ((c : Thread nD τ).loc main_arg1)) (m ((c : Thread nD τ).loc main_arg4)))

/-! ## At the first region's entry -/

theorem entry_launch (b : Ref sig .tc) : W0 (F := Ideal) m ρ c (Proc.devRef .tc b) = m ((c : Thread nD τ).loc b) := rfl

theorem entry_arg0 : W3 (F := Ideal) m ρ c (Proc.devRef .tc main_arg0) = (m ((c : Thread nD τ).loc main_arg0)) := by
  show after hostOps0_2 (after hostOps0_1 (after hostOps0 (W0 m ρ c))) (Proc.devRef .tc main_arg0) = _
  rw [third_keep_arg0, second_keep_arg0, first_keep_arg0, entry_launch]

theorem entry_arg3 : W3 (F := Ideal) m ρ c (Proc.devRef .tc main_arg3) = (m ((c : Thread nD τ).loc main_arg3)) := by
  show after hostOps0_2 (after hostOps0_1 (after hostOps0 (W0 m ρ c))) (Proc.devRef .tc main_arg3) = _
  rw [third_keep_arg3, second_keep_arg3, first_keep_arg3, entry_launch]

theorem entry_src : W3 (F := Ideal) m ρ c (Proc.devRef .tc main_v3) = src (m ((c : Thread nD τ).loc main_arg1)) := by
  show after hostOps0_2 (after hostOps0_1 (after hostOps0 (W0 m ρ c))) (Proc.devRef .tc main_v3) = _
  rw [third_keep_v3, second_keep_v3, first_src, entry_launch]

theorem entry_dst : W3 (F := Ideal) m ρ c (Proc.devRef .tc main_v6) = dst (m ((c : Thread nD τ).loc main_arg1)) := by
  show after hostOps0_2 (after hostOps0_1 (after hostOps0 (W0 m ρ c))) (Proc.devRef .tc main_v6) = _
  rw [third_keep_v6, second_keep_v6, first_dst, entry_launch]

theorem entry_dinv : W3 (F := Ideal) m ρ c (Proc.devRef .tc main_v14) = dinv (m ((c : Thread nD τ).loc main_arg1)) := by
  show after hostOps0_2 (after hostOps0_1 (after hostOps0 (W0 m ρ c))) (Proc.devRef .tc main_v14) = _
  rw [third_keep_v14, second_dinv, first_pos, first_root, first_zero, entry_launch]
  rfl

theorem entry_col : W3 (F := Ideal) m ρ c (Proc.devRef .tc main_v15) = dinvCol (m ((c : Thread nD τ).loc main_arg1)) := by
  show after hostOps0_2 (after hostOps0_1 (after hostOps0 (W0 m ρ c))) (Proc.devRef .tc main_v15) = _
  rw [third_col, second_dinv, first_pos, first_root, first_zero, entry_launch]
  rfl

theorem entry_arg2 : W3 (F := Ideal) m ρ c (Proc.devRef .tc main_arg2) = (m ((c : Thread nD τ).loc main_arg2)) := by
  show after hostOps0_2 (after hostOps0_1 (after hostOps0 (W0 m ρ c))) (Proc.devRef .tc main_arg2) = _
  rw [third_keep_arg2, second_keep_arg2, first_keep_arg2, entry_launch]

theorem entry_arg4 : W3 (F := Ideal) m ρ c (Proc.devRef .tc main_arg4) = (m ((c : Thread nD τ).loc main_arg4)) := by
  show after hostOps0_2 (after hostOps0_1 (after hostOps0 (W0 m ρ c))) (Proc.devRef .tc main_arg4) = _
  rw [third_keep_arg4, second_keep_arg4, first_keep_arg4, entry_launch]

theorem entry_arg5 : W3 (F := Ideal) m ρ c (Proc.devRef .tc main_arg5) = (m ((c : Thread nD τ).loc main_arg5)) := by
  show after hostOps0_2 (after hostOps0_1 (after hostOps0 (W0 m ρ c))) (Proc.devRef .tc main_arg5) = _
  rw [third_keep_arg5, second_keep_arg5, first_keep_arg5, entry_launch]

theorem entry_arg6 : W3 (F := Ideal) m ρ c (Proc.devRef .tc main_arg6) = (m ((c : Thread nD τ).loc main_arg6)) := by
  show after hostOps0_2 (after hostOps0_1 (after hostOps0 (W0 m ρ c))) (Proc.devRef .tc main_arg6) = _
  rw [third_keep_arg6, second_keep_arg6, first_keep_arg6, entry_launch]

theorem entry_arg7 : W3 (F := Ideal) m ρ c (Proc.devRef .tc main_arg7) = (m ((c : Thread nD τ).loc main_arg7)) := by
  show after hostOps0_2 (after hostOps0_1 (after hostOps0 (W0 m ρ c))) (Proc.devRef .tc main_arg7) = _
  rw [third_keep_arg7, second_keep_arg7, first_keep_arg7, entry_launch]

theorem entry_arg8 : W3 (F := Ideal) m ρ c (Proc.devRef .tc main_arg8) = (m ((c : Thread nD τ).loc main_arg8)) := by
  show after hostOps0_2 (after hostOps0_1 (after hostOps0 (W0 m ρ c))) (Proc.devRef .tc main_arg8) = _
  rw [third_keep_arg8, second_keep_arg8, first_keep_arg8, entry_launch]

/-! ## At the first region's exit -/

/-- The first region leaves `x·W` with each row scaled by `dinv`. -/
theorem exit_scaled : W4 (F := Ideal) m ρ c (Proc.devRef .tc main_v16)
    = Cert.KernelIdeal.ScaledRows.scaled (m ((c : Thread nD τ).loc main_arg0)) (m ((c : Thread nD τ).loc main_arg3)) (dinvCol (m ((c : Thread nD τ).loc main_arg1))) := by
  refine (W4_arr m ρ c 3).trans ?_
  rw [Cert.KernelIdeal.ScaledRows.region0_array (V3 m ρ) c]
  show Cert.KernelIdeal.ScaledRows.scaled (W3 m ρ c (Proc.devRef .tc main_arg0)) (W3 m ρ c (Proc.devRef .tc main_arg3))
    (W3 m ρ c (Proc.devRef .tc main_v15)) = _
  rw [entry_arg0, entry_arg3, entry_col]

theorem exit_src : W4 (F := Ideal) m ρ c (Proc.devRef .tc main_v3) = src (m ((c : Thread nD τ).loc main_arg1)) :=
  (W4_of_ne m ρ c main_v3 (by decide)).trans (entry_src m ρ c)

theorem exit_dst : W4 (F := Ideal) m ρ c (Proc.devRef .tc main_v6) = dst (m ((c : Thread nD τ).loc main_arg1)) :=
  (W4_of_ne m ρ c main_v6 (by decide)).trans (entry_dst m ρ c)

theorem exit_dinv : W4 (F := Ideal) m ρ c (Proc.devRef .tc main_v14) = dinv (m ((c : Thread nD τ).loc main_arg1)) :=
  (W4_of_ne m ρ c main_v14 (by decide)).trans (entry_dinv m ρ c)

theorem exit_arg2 : W4 (F := Ideal) m ρ c (Proc.devRef .tc main_arg2) = (m ((c : Thread nD τ).loc main_arg2)) :=
  (W4_of_ne m ρ c main_arg2 (by decide)).trans (entry_arg2 m ρ c)

theorem exit_arg4 : W4 (F := Ideal) m ρ c (Proc.devRef .tc main_arg4) = (m ((c : Thread nD τ).loc main_arg4)) :=
  (W4_of_ne m ρ c main_arg4 (by decide)).trans (entry_arg4 m ρ c)

theorem exit_arg5 : W4 (F := Ideal) m ρ c (Proc.devRef .tc main_arg5) = (m ((c : Thread nD τ).loc main_arg5)) :=
  (W4_of_ne m ρ c main_arg5 (by decide)).trans (entry_arg5 m ρ c)

theorem exit_arg6 : W4 (F := Ideal) m ρ c (Proc.devRef .tc main_arg6) = (m ((c : Thread nD τ).loc main_arg6)) :=
  (W4_of_ne m ρ c main_arg6 (by decide)).trans (entry_arg6 m ρ c)

theorem exit_arg7 : W4 (F := Ideal) m ρ c (Proc.devRef .tc main_arg7) = (m ((c : Thread nD τ).loc main_arg7)) :=
  (W4_of_ne m ρ c main_arg7 (by decide)).trans (entry_arg7 m ρ c)

theorem exit_arg8 : W4 (F := Ideal) m ρ c (Proc.devRef .tc main_arg8) = (m ((c : Thread nD τ).loc main_arg8)) :=
  (W4_of_ne m ρ c main_arg8 (by decide)).trans (entry_arg8 m ρ c)

/-! ## At the second region's entry -/

/-- The rectified node table. -/
theorem second_table : W6 (F := Ideal) m ρ c (Proc.devRef .tc main_v38) = table m c := by
  show after hostOps1_1 (after hostOps1 (W4 m ρ c)) (Proc.devRef .tc main_v38) = _
  rw [fifth_table, fourth_nonneg, fourth_pre, fourth_slope, exit_scaled, exit_src, exit_dst, exit_dinv, exit_arg4]
  rfl

theorem second_arg2 : W6 (F := Ideal) m ρ c (Proc.devRef .tc main_arg2) = (m ((c : Thread nD τ).loc main_arg2)) := by
  show after hostOps1_1 (after hostOps1 (W4 m ρ c)) (Proc.devRef .tc main_arg2) = _
  rw [fifth_keep_arg2, fourth_keep_arg2, exit_arg2]

theorem second_arg5 : W6 (F := Ideal) m ρ c (Proc.devRef .tc main_arg5) = (m ((c : Thread nD τ).loc main_arg5)) := by
  show after hostOps1_1 (after hostOps1 (W4 m ρ c)) (Proc.devRef .tc main_arg5) = _
  rw [fifth_keep_arg5, fourth_keep_arg5, exit_arg5]

theorem second_arg6 : W6 (F := Ideal) m ρ c (Proc.devRef .tc main_arg6) = (m ((c : Thread nD τ).loc main_arg6)) := by
  show after hostOps1_1 (after hostOps1 (W4 m ρ c)) (Proc.devRef .tc main_arg6) = _
  rw [fifth_keep_arg6, fourth_keep_arg6, exit_arg6]

theorem second_arg7 : W6 (F := Ideal) m ρ c (Proc.devRef .tc main_arg7) = (m ((c : Thread nD τ).loc main_arg7)) := by
  show after hostOps1_1 (after hostOps1 (W4 m ρ c)) (Proc.devRef .tc main_arg7) = _
  rw [fifth_keep_arg7, fourth_keep_arg7, exit_arg7]

theorem second_arg8 : W6 (F := Ideal) m ρ c (Proc.devRef .tc main_arg8) = (m ((c : Thread nD τ).loc main_arg8)) := by
  show after hostOps1_1 (after hostOps1 (W4 m ρ c)) (Proc.devRef .tc main_arg8) = _
  rw [fifth_keep_arg8, fourth_keep_arg8, exit_arg8]

theorem second_fst : W7 (F := Ideal) m ρ c (Proc.devRef .tc main_v49) = pickFst (table m c) (m ((c : Thread nD τ).loc main_arg2)) := by
  show after hostOps1_2 (W6 m ρ c) (Proc.devRef .tc main_v49) = _
  rw [sixth_fst, second_table, second_arg2]

theorem second_snd : W7 (F := Ideal) m ρ c (Proc.devRef .tc main_v56) = pickSnd (table m c) (m ((c : Thread nD τ).loc main_arg2)) := by
  show after hostOps1_2 (W6 m ρ c) (Proc.devRef .tc main_v56) = _
  rw [sixth_snd, second_table, second_arg2]

theorem second_b1 : W7 (F := Ideal) m ρ c (Proc.devRef .tc main_v57) = shapeCast S1x16 (m ((c : Thread nD τ).loc main_arg6)) Facts₀.shapeCasts_S16_S1x16 := by
  show after hostOps1_2 (W6 m ρ c) (Proc.devRef .tc main_v57) = _
  rw [sixth_b1, second_arg6]

theorem second_b2 : W7 (F := Ideal) m ρ c (Proc.devRef .tc main_v58) = shapeCast S1x1 (m ((c : Thread nD τ).loc main_arg8)) Facts₀.shapeCasts_S1_S1x1 := by
  show after hostOps1_2 (W6 m ρ c) (Proc.devRef .tc main_v58) = _
  rw [sixth_b2, second_arg8]

theorem second_w1 : W7 (F := Ideal) m ρ c (Proc.devRef .tc main_arg5) = (m ((c : Thread nD τ).loc main_arg5)) := by
  show after hostOps1_2 (W6 m ρ c) (Proc.devRef .tc main_arg5) = _
  rw [sixth_keep_arg5, second_arg5]

theorem second_w2 : W7 (F := Ideal) m ρ c (Proc.devRef .tc main_arg7) = (m ((c : Thread nD τ).loc main_arg7)) := by
  show after hostOps1_2 (W6 m ρ c) (Proc.devRef .tc main_arg7) = _
  rw [sixth_keep_arg7, second_arg7]

/-! ## The result -/

/-- The result, row by row: the head of the two picked rows of the rectified node table. -/
theorem result_eq : W8 (F := Ideal) m ρ c (Proc.devRef .tc main_v59)
    = fun i : S16384x1.Idx => Cert.HeadRow.headRow (fun k => pickFst (table m c) (m ((c : Thread nD τ).loc main_arg2)) (ix2 (i 0) k))
        (fun k => pickSnd (table m c) (m ((c : Thread nD τ).loc main_arg2)) (ix2 (i 0) k)) (m ((c : Thread nD τ).loc main_arg5))
        (fun j => shapeCast S1x16 (m ((c : Thread nD τ).loc main_arg6)) Facts₀.shapeCasts_S16_S1x16 (ix2 (0 : Fin 1) j)) (m ((c : Thread nD τ).loc main_arg7))
        (shapeCast S1x1 (m ((c : Thread nD τ).loc main_arg8)) Facts₀.shapeCasts_S1_S1x1 (ix2 (0 : Fin 1) (0 : Fin 1))) := by
  refine (W8_arr m ρ c 6).trans ?_
  rw [Cert.KernelIdeal.HeadKernel.region1_array (V7 m ρ) c]
  show (fun i : S16384x1.Idx => Cert.HeadRow.headRow (fun k => W7 m ρ c (Proc.devRef .tc main_v49) (ix2 (i 0) k))
      (fun k => W7 m ρ c (Proc.devRef .tc main_v56) (ix2 (i 0) k)) (W7 m ρ c (Proc.devRef .tc main_arg5))
      (fun j => W7 m ρ c (Proc.devRef .tc main_v57) (ix2 (0 : Fin 1) j)) (W7 m ρ c (Proc.devRef .tc main_arg7))
      (W7 m ρ c (Proc.devRef .tc main_v58) (ix2 (0 : Fin 1) (0 : Fin 1)))) = _
  rw [second_fst, second_snd, second_b1, second_b2, second_w1, second_w2]

end Cert.KernelIdeal.ResultValue

end
-- ==== Proof.RefRun.lean ====
/-
  The idealized reference program's run, read back piece by piece.

  The reference is one straight line of host operations. Its buffer contents after the line are a fold of the
  operations' functions over the launch memory; the fold is read in six consecutive pieces — `dinv`, the edge weights,
  the summed rows, the rectified node table, the two row gathers, the head — each piece's result a stage term of the
  buffers the piece starts from, from ANY contents `W`. Composed, the result buffer ends at the head of the picked rows
  of the rectified table of the arguments, and the argument buffers end as launched.
-/
import proofs.«176623_j10050223473070_2_alg».proof.Proof.RefOpsPatched
import proofs.«176623_j10050223473070_2_alg».proof.Proof.Stages

set_option maxRecDepth 16384

noncomputable section

namespace Cert.ReferenceIdeal.Staged

open Cert.ReferenceIdeal Cert.ReferenceIdeal.OpsP Cert.Stages
open Idealize.ShloMosaic Idealize.ShloMosaic.TcCoe Idealize.SL.Sem Idealize.ShloMosaic.StableHlo

/-- The first layer of the head before its rectifier: the two picked tables side by side, times the first weights, plus
    the first bias on every row. -/
def hidden (xi xj : FVec Ideal S16384x64 .f32) (a5 : FVec Ideal S128x16 .f32) (a6 : FVec Ideal S16 .f32) : FVec Ideal S16384x16 .f32 :=
  addf (Host.dotGeneral dot_S16384x128_S128x16_S16384x16_1_0_0_1_n_n none
      (concatenate S16384x128 1 [⟨S16384x64, xi⟩, ⟨S16384x64, xj⟩] Cert.ReferenceIdeal.Facts₀.concatenates_S16384x64_S16384x64_S16384x128_d1) a5)
    (broadcastInDim S16384x16 ![0, 1] Cert.ReferenceIdeal.Facts₀.bcast_S1x16_S16384x16_0_1 (broadcastInDim S1x16 ![1] Cert.ReferenceIdeal.Facts₀.bcast_S16_S1x16_1 a6))

/-- The head as the host spells it: rectify the first layer, second layer, then `1 / (1 + exp (-·))`. -/
def headHost (xi xj : FVec Ideal S16384x64 .f32) (a5 : FVec Ideal S128x16 .f32) (a6 : FVec Ideal S16 .f32)
    (a7 : FVec Ideal S16x1 .f32) (a8 : FVec Ideal S1 .f32) : FVec Ideal S16384x1 .f32 :=
  Host.divf (broadcastInDim S16384x1 ![] Cert.ReferenceIdeal.Facts₀.bcast_S_S16384x1 (constant (F := Ideal) S_ .f32 0x3F800000#32))
    (addf (broadcastInDim S16384x1 ![] Cert.ReferenceIdeal.Facts₀.bcast_S_S16384x1 (constant (F := Ideal) S_ .f32 0x3F800000#32))
      (Host.exp (Host.negf (addf
        (Host.dotGeneral dot_S16384x16_S16x1_S16384x1_1_0_0_1_n_n none
          (select (cmpf .oge (hidden xi xj a5 a6) (broadcastInDim S16384x16 ![] Cert.ReferenceIdeal.Facts₀.bcast_S_S16384x16 (constant (F := Ideal) S_ .f32 0x00000000#32)))
            (hidden xi xj a5 a6)
            (mulf (broadcastInDim S16384x16 ![] Cert.ReferenceIdeal.Facts₀.bcast_S_S16384x16 (constant (F := Ideal) S_ .f32 0x3C23D70A#32)) (hidden xi xj a5 a6))) a7)
        (broadcastInDim S16384x1 ![0, 1] Cert.ReferenceIdeal.Facts₀.bcast_S1x1_S16384x1_0_1 (broadcastInDim S1x1 ![1] Cert.ReferenceIdeal.Facts₀.bcast_S1_S1x1_1 a8))))))

/-- The fold over a concatenation is the folds one after the other. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

variable (W : Valuation τ sig (Elt Ideal))

/-! ## Piece 1: the product, the edge ends, the degrees -/

set_option maxHeartbeats 2000000 in
theorem one_prod : after (ops1 (F := Ideal)) W (Proc.devRef .tc main_v0)
    = Host.dotGeneral (F := Ideal) (φ₁ := .f32) (φ₂ := .f32) dot_S100000x256_S256x64_S100000x64_1_0_0_1_n_n none (W (Proc.devRef .tc main_arg0)) (W (Proc.devRef .tc main_arg3)) := by
  dsimp only [ops1]
  after_results

set_option maxHeartbeats 2000000 in
theorem one_src : after (ops1 (F := Ideal)) W (Proc.devRef .tc main_v4)
    = src (W (Proc.devRef .tc main_arg1)) := by
  dsimp only [ops1]
  after_results
  rfl

set_option maxHeartbeats 2000000 in
theorem one_dst : after (ops1 (F := Ideal)) W (Proc.devRef .tc main_v7)
    = dst (W (Proc.devRef .tc main_arg1)) := by
  dsimp only [ops1]
  after_results
  rfl

set_option maxHeartbeats 2000000 in
theorem one_pos : after (ops1 (F := Ideal)) W (Proc.devRef .tc main_v13)
    = cmpf .ogt (deg (W (Proc.devRef .tc main_arg1))) (broadcastInDim S100000 ![] Cert.ReferenceIdeal.Facts₀.bcast_S_S100000 (constant (F := Ideal) S_ .f32 0x00000000#32)) := by
  dsimp only [ops1]
  after_results
  rfl

set_option maxHeartbeats 2000000 in
theorem one_root : after (ops1 (F := Ideal)) W (Proc.devRef .tc main_v14)
    = Host.rsqrt (deg (W (Proc.devRef .tc main_arg1))) := by
  dsimp only [ops1]
  after_results
  rfl

set_option maxHeartbeats 2000000 in
theorem one_zero : after (ops1 (F := Ideal)) W (Proc.devRef .tc main_cst_2)
    = constant (F := Ideal) S_ .f32 0x00000000#32 := by
  dsimp only [ops1]
  after_results

theorem one_keep_arg2 : after (ops1 (F := Ideal)) W (Proc.devRef .tc main_arg2) = W (Proc.devRef .tc main_arg2) := by
  dsimp only [ops1]
  after_results

theorem one_keep_arg4 : after (ops1 (F := Ideal)) W (Proc.devRef .tc main_arg4) = W (Proc.devRef .tc main_arg4) := by
  dsimp only [ops1]
  after_results

theorem one_keep_arg5 : after (ops1 (F := Ideal)) W (Proc.devRef .tc main_arg5) = W (Proc.devRef .tc main_arg5) := by
  dsimp only [ops1]
  after_results

theorem one_keep_arg6 : after (ops1 (F := Ideal)) W (Proc.devRef .tc main_arg6) = W (Proc.devRef .tc main_arg6) := by
  dsimp only [ops1]
  after_results

theorem one_keep_arg7 : after (ops1 (F := Ideal)) W (Proc.devRef .tc main_arg7) = W (Proc.devRef .tc main_arg7) := by
  dsimp only [ops1]
  after_results

theorem one_keep_arg8 : after (ops1 (F := Ideal)) W (Proc.devRef .tc main_arg8) = W (Proc.devRef .tc main_arg8) := by
  dsimp only [ops1]
  after_results

/-! ## Piece 1b: `dinv` -/

set_option maxHeartbeats 2000000 in
theorem oneb_dinv : after (ops1b (F := Ideal)) W (Proc.devRef .tc main_v15)
    = select (W (Proc.devRef .tc main_v13)) (W (Proc.devRef .tc main_v14)) (broadcastInDim S100000 ![] Cert.ReferenceIdeal.Facts₀.bcast_S_S100000 (id (W (Proc.devRef .tc main_cst_2)))) := by
  dsimp only [ops1b]
  after_results
  rfl

theorem oneb_keep_v0 : after (ops1b (F := Ideal)) W (Proc.devRef .tc main_v0) = W (Proc.devRef .tc main_v0) := by
  dsimp only [ops1b]
  after_results

theorem oneb_keep_v4 : after (ops1b (F := Ideal)) W (Proc.devRef .tc main_v4) = W (Proc.devRef .tc main_v4) := by
  dsimp only [ops1b]
  after_results

theorem oneb_keep_v7 : after (ops1b (F := Ideal)) W (Proc.devRef .tc main_v7) = W (Proc.devRef .tc main_v7) := by
  dsimp only [ops1b]
  after_results

theorem oneb_keep_arg2 : after (ops1b (F := Ideal)) W (Proc.devRef .tc main_arg2) = W (Proc.devRef .tc main_arg2) := by
  dsimp only [ops1b]
  after_results

theorem oneb_keep_arg4 : after (ops1b (F := Ideal)) W (Proc.devRef .tc main_arg4) = W (Proc.devRef .tc main_arg4) := by
  dsimp only [ops1b]
  after_results

theorem oneb_keep_arg5 : after (ops1b (F := Ideal)) W (Proc.devRef .tc main_arg5) = W (Proc.devRef .tc main_arg5) := by
  dsimp only [ops1b]
  after_results

theorem oneb_keep_arg6 : after (ops1b (F := Ideal)) W (Proc.devRef .tc main_arg6) = W (Proc.devRef .tc main_arg6) := by
  dsimp only [ops1b]
  after_results

theorem oneb_keep_arg7 : after (ops1b (F := Ideal)) W (Proc.devRef .tc main_arg7) = W (Proc.devRef .tc main_arg7) := by
  dsimp only [ops1b]
  after_results

theorem oneb_keep_arg8 : after (ops1b (F := Ideal)) W (Proc.devRef .tc main_arg8) = W (Proc.devRef .tc main_arg8) := by
  dsimp only [ops1b]
  after_results

/-! ## Piece 2: each edge's weight, `dinv` at its source times `dinv` at its destination -/

set_option maxHeartbeats 2000000 in
theorem two_weights : after (ops2 (F := Ideal)) W (Proc.devRef .tc main_v30)
    = mulf (F := Ideal) (φ := .f32) (Host.gather (α := Ideal .f32) gather_S100000_S1700000x1_S1700000_n_0_n_n_0_1_1 (W (Proc.devRef .tc main_v15) : FVec Ideal S100000 .f32) (col (wrap (W (Proc.devRef .tc main_v4)))))
        (Host.gather (α := Ideal .f32) gather_S100000_S1700000x1_S1700000_n_0_n_n_0_1_1 (W (Proc.devRef .tc main_v15) : FVec Ideal S100000 .f32) (col (wrap (W (Proc.devRef .tc main_v7))))) := by
  dsimp only [ops2]
  after_results
  rfl

theorem two_keep_v0 : after (ops2 (F := Ideal)) W (Proc.devRef .tc main_v0) = W (Proc.devRef .tc main_v0) := by
  dsimp only [ops2]
  after_results

theorem two_keep_v4 : after (ops2 (F := Ideal)) W (Proc.devRef .tc main_v4) = W (Proc.devRef .tc main_v4) := by
  dsimp only [ops2]
  after_results

theorem two_keep_v7 : after (ops2 (F := Ideal)) W (Proc.devRef .tc main_v7) = W (Proc.devRef .tc main_v7) := by
  dsimp only [ops2]
  after_results

theorem two_keep_arg2 : after (ops2 (F := Ideal)) W (Proc.devRef .tc main_arg2) = W (Proc.devRef .tc main_arg2) := by
  dsimp only [ops2]
  after_results

theorem two_keep_arg4 : after (ops2 (F := Ideal)) W (Proc.devRef .tc main_arg4) = W (Proc.devRef .tc main_arg4) := by
  dsimp only [ops2]
  after_results

theorem two_keep_arg5 : after (ops2 (F := Ideal)) W (Proc.devRef .tc main_arg5) = W (Proc.devRef .tc main_arg5) := by
  dsimp only [ops2]
  after_results

theorem two_keep_arg6 : after (ops2 (F := Ideal)) W (Proc.devRef .tc main_arg6) = W (Proc.devRef .tc main_arg6) := by
  dsimp only [ops2]
  after_results

theorem two_keep_arg7 : after (ops2 (F := Ideal)) W (Proc.devRef .tc main_arg7) = W (Proc.devRef .tc main_arg7) := by
  dsimp only [ops2]
  after_results

theorem two_keep_arg8 : after (ops2 (F := Ideal)) W (Proc.devRef .tc main_arg8) = W (Proc.devRef .tc main_arg8) := by
  dsimp only [ops2]
  after_results

/-! ## Piece 3: the weighted rows summed by destination -/

set_option maxHeartbeats 2000000 in
theorem three_sums : after (ops3 (F := Ideal)) W (Proc.devRef .tc main_v43)
    = Host.scatterAdd (F := Ideal) Cert.KernelIdeal.scatter_S100000x64_S1700000x1_S1700000x64_1_0_0_1 zeros (col (W (Proc.devRef .tc main_v7)))
        (mulf (F := Ideal) (φ := .f32) (Host.gather (α := Ideal .f32) Cert.KernelIdeal.gather_S100000x64_S1700000x1_S1700000x64_1_0_n_n_0_1_164 (W (Proc.devRef .tc main_v0) : FVec Ideal S100000x64 .f32) (col (wrap (W (Proc.devRef .tc main_v4)))))
          (broadcastInDim S1700000x64 ![0, 1] Cert.ReferenceIdeal.Facts₀.bcast_S1700000x1_S1700000x64_0_1
            (broadcastInDim Cert.KernelIdeal.S1700000x1 ![0] Cert.ReferenceIdeal.Facts₀.bcast_S1700000_S1700000x1_0 (W (Proc.devRef .tc main_v30) : FVec Ideal S1700000 .f32)))) := by
  dsimp only [ops3]
  after_results
  rfl

theorem three_keep_arg2 : after (ops3 (F := Ideal)) W (Proc.devRef .tc main_arg2) = W (Proc.devRef .tc main_arg2) := by
  dsimp only [ops3]
  after_results

theorem three_keep_arg4 : after (ops3 (F := Ideal)) W (Proc.devRef .tc main_arg4) = W (Proc.devRef .tc main_arg4) := by
  dsimp only [ops3]
  after_results

theorem three_keep_arg5 : after (ops3 (F := Ideal)) W (Proc.devRef .tc main_arg5) = W (Proc.devRef .tc main_arg5) := by
  dsimp only [ops3]
  after_results

theorem three_keep_arg6 : after (ops3 (F := Ideal)) W (Proc.devRef .tc main_arg6) = W (Proc.devRef .tc main_arg6) := by
  dsimp only [ops3]
  after_results

theorem three_keep_arg7 : after (ops3 (F := Ideal)) W (Proc.devRef .tc main_arg7) = W (Proc.devRef .tc main_arg7) := by
  dsimp only [ops3]
  after_results

theorem three_keep_arg8 : after (ops3 (F := Ideal)) W (Proc.devRef .tc main_arg8) = W (Proc.devRef .tc main_arg8) := by
  dsimp only [ops3]
  after_results

/-! ## Piece 4: the bias, the comparison with zero and the slope -/

set_option maxHeartbeats 2000000 in
theorem four_pre : after (ops4 (F := Ideal)) W (Proc.devRef .tc main_v46)
    = addf (F := Ideal) (W (Proc.devRef .tc main_v43) : FVec Ideal S100000x64 .f32) (biasRows (W (Proc.devRef .tc main_arg4))) := by
  dsimp only [ops4]
  after_results
  rfl

set_option maxHeartbeats 2000000 in
theorem four_nonneg : after (ops4 (F := Ideal)) W (Proc.devRef .tc main_v48)
    = cmpf .oge (addf (F := Ideal) (W (Proc.devRef .tc main_v43) : FVec Ideal S100000x64 .f32) (biasRows (W (Proc.devRef .tc main_arg4))))
        (broadcastInDim S100000x64 ![] Cert.ReferenceIdeal.Facts₀.bcast_S_S100000x64 (constant (F := Ideal) S_ .f32 0x00000000#32)) := by
  dsimp only [ops4]
  after_results
  rfl

set_option maxHeartbeats 2000000 in
theorem four_slope : after (ops4 (F := Ideal)) W (Proc.devRef .tc main_v50)
    = mulf (F := Ideal) (broadcastInDim S100000x64 ![] Cert.ReferenceIdeal.Facts₀.bcast_S_S100000x64 (constant (F := Ideal) S_ .f32 0x3C23D70A#32))
        (addf (F := Ideal) (W (Proc.devRef .tc main_v43) : FVec Ideal S100000x64 .f32) (biasRows (W (Proc.devRef .tc main_arg4)))) := by
  dsimp only [ops4]
  after_results
  rfl

theorem four_keep_arg2 : after (ops4 (F := Ideal)) W (Proc.devRef .tc main_arg2) = W (Proc.devRef .tc main_arg2) := by
  dsimp only [ops4]
  after_results

theorem four_keep_arg5 : after (ops4 (F := Ideal)) W (Proc.devRef .tc main_arg5) = W (Proc.devRef .tc main_arg5) := by
  dsimp only [ops4]
  after_results

theorem four_keep_arg6 : after (ops4 (F := Ideal)) W (Proc.devRef .tc main_arg6) = W (Proc.devRef .tc main_arg6) := by
  dsimp only [ops4]
  after_results

theorem four_keep_arg7 : after (ops4 (F := Ideal)) W (Proc.devRef .tc main_arg7) = W (Proc.devRef .tc main_arg7) := by
  dsimp only [ops4]
  after_results

theorem four_keep_arg8 : after (ops4 (F := Ideal)) W (Proc.devRef .tc main_arg8) = W (Proc.devRef .tc main_arg8) := by
  dsimp only [ops4]
  after_results

/-! ## Piece 4b: the rectified node table -/

set_option maxHeartbeats 2000000 in
theorem fourb_table : after (ops4b (F := Ideal)) W (Proc.devRef .tc main_v51)
    = select (W (Proc.devRef .tc main_v48)) (W (Proc.devRef .tc main_v46)) (W (Proc.devRef .tc main_v50)) := by
  dsimp only [ops4b]
  after_results
  rfl

theorem fourb_keep_arg2 : after (ops4b (F := Ideal)) W (Proc.devRef .tc main_arg2) = W (Proc.devRef .tc main_arg2) := by
  dsimp only [ops4b]
  after_results

theorem fourb_keep_arg5 : after (ops4b (F := Ideal)) W (Proc.devRef .tc main_arg5) = W (Proc.devRef .tc main_arg5) := by
  dsimp only [ops4b]
  after_results

theorem fourb_keep_arg6 : after (ops4b (F := Ideal)) W (Proc.devRef .tc main_arg6) = W (Proc.devRef .tc main_arg6) := by
  dsimp only [ops4b]
  after_results

theorem fourb_keep_arg7 : after (ops4b (F := Ideal)) W (Proc.devRef .tc main_arg7) = W (Proc.devRef .tc main_arg7) := by
  dsimp only [ops4b]
  after_results

theorem fourb_keep_arg8 : after (ops4b (F := Ideal)) W (Proc.devRef .tc main_arg8) = W (Proc.devRef .tc main_arg8) := by
  dsimp only [ops4b]
  after_results

/-! ## Piece 5: the rows each query names -/

set_option maxHeartbeats 2000000 in
theorem five_fst : after (ops5 (F := Ideal)) W (Proc.devRef .tc main_v60)
    = pickFst (W (Proc.devRef .tc main_v51)) (W (Proc.devRef .tc main_arg2)) := by
  dsimp only [ops5]
  after_results
  rfl

set_option maxHeartbeats 2000000 in
theorem five_snd : after (ops5 (F := Ideal)) W (Proc.devRef .tc main_v69)
    = pickSnd (W (Proc.devRef .tc main_v51)) (W (Proc.devRef .tc main_arg2)) := by
  dsimp only [ops5]
  after_results
  rfl

theorem five_keep_arg5 : after (ops5 (F := Ideal)) W (Proc.devRef .tc main_arg5) = W (Proc.devRef .tc main_arg5) := by
  dsimp only [ops5]
  after_results

theorem five_keep_arg6 : after (ops5 (F := Ideal)) W (Proc.devRef .tc main_arg6) = W (Proc.devRef .tc main_arg6) := by
  dsimp only [ops5]
  after_results

theorem five_keep_arg7 : after (ops5 (F := Ideal)) W (Proc.devRef .tc main_arg7) = W (Proc.devRef .tc main_arg7) := by
  dsimp only [ops5]
  after_results

theorem five_keep_arg8 : after (ops5 (F := Ideal)) W (Proc.devRef .tc main_arg8) = W (Proc.devRef .tc main_arg8) := by
  dsimp only [ops5]
  after_results

/-! ## Piece 6: the head's first layer, its comparison with zero and its slope -/

set_option maxHeartbeats 2000000 in
theorem six_hidden : after (ops6 (F := Ideal)) W (Proc.devRef .tc main_v74)
    = hidden (W (Proc.devRef .tc main_v60)) (W (Proc.devRef .tc main_v69)) (W (Proc.devRef .tc main_arg5)) (W (Proc.devRef .tc main_arg6)) := by
  dsimp only [ops6]
  after_results
  rfl

set_option maxHeartbeats 2000000 in
theorem six_nonneg : after (ops6 (F := Ideal)) W (Proc.devRef .tc main_v76)
    = cmpf .oge (hidden (W (Proc.devRef .tc main_v60)) (W (Proc.devRef .tc main_v69)) (W (Proc.devRef .tc main_arg5)) (W (Proc.devRef .tc main_arg6)))
        (broadcastInDim S16384x16 ![] Cert.ReferenceIdeal.Facts₀.bcast_S_S16384x16 (constant (F := Ideal) S_ .f32 0x00000000#32)) := by
  dsimp only [ops6]
  after_results
  rfl

set_option maxHeartbeats 2000000 in
theorem six_slope : after (ops6 (F := Ideal)) W (Proc.devRef .tc main_v78)
    = mulf (F := Ideal) (broadcastInDim S16384x16 ![] Cert.ReferenceIdeal.Facts₀.bcast_S_S16384x16 (constant (F := Ideal) S_ .f32 0x3C23D70A#32))
        (hidden (W (Proc.devRef .tc main_v60)) (W (Proc.devRef .tc main_v69)) (W (Proc.devRef .tc main_arg5)) (W (Proc.devRef .tc main_arg6))) := by
  dsimp only [ops6]
  after_results
  rfl

theorem six_keep_arg7 : after (ops6 (F := Ideal)) W (Proc.devRef .tc main_arg7) = W (Proc.devRef .tc main_arg7) := by
  dsimp only [ops6]
  after_results

theorem six_keep_arg8 : after (ops6 (F := Ideal)) W (Proc.devRef .tc main_arg8) = W (Proc.devRef .tc main_arg8) := by
  dsimp only [ops6]
  after_results

/-! ## Piece 6b: the head's rectifier -/

set_option maxHeartbeats 2000000 in
theorem sixb_rect : after (ops6b (F := Ideal)) W (Proc.devRef .tc main_v79)
    = select (W (Proc.devRef .tc main_v76)) (W (Proc.devRef .tc main_v74)) (W (Proc.devRef .tc main_v78)) := by
  dsimp only [ops6b]
  after_results
  rfl

theorem sixb_keep_arg7 : after (ops6b (F := Ideal)) W (Proc.devRef .tc main_arg7) = W (Proc.devRef .tc main_arg7) := by
  dsimp only [ops6b]
  after_results

theorem sixb_keep_arg8 : after (ops6b (F := Ideal)) W (Proc.devRef .tc main_arg8) = W (Proc.devRef .tc main_arg8) := by
  dsimp only [ops6b]
  after_results

/-! ## Piece 6c: the head's second layer and the logistic function -/

set_option maxHeartbeats 2000000 in
theorem sixc_out : after (ops6c (F := Ideal)) W (Proc.devRef .tc main_v89)
    = Host.divf (F := Ideal) (broadcastInDim S16384x1 ![] Cert.ReferenceIdeal.Facts₀.bcast_S_S16384x1 (constant (F := Ideal) S_ .f32 0x3F800000#32))
      (addf (broadcastInDim S16384x1 ![] Cert.ReferenceIdeal.Facts₀.bcast_S_S16384x1 (constant (F := Ideal) S_ .f32 0x3F800000#32))
        (Host.exp (Host.negf (addf (Host.dotGeneral (F := Ideal) (φ₁ := .f32) (φ₂ := .f32) dot_S16384x16_S16x1_S16384x1_1_0_0_1_n_n none (W (Proc.devRef .tc main_v79) : FVec Ideal S16384x16 .f32) (W (Proc.devRef .tc main_arg7) : FVec Ideal S16x1 .f32))
          (broadcastInDim S16384x1 ![0, 1] Cert.ReferenceIdeal.Facts₀.bcast_S1x1_S16384x1_0_1 (broadcastInDim S1x1 ![1] Cert.ReferenceIdeal.Facts₀.bcast_S1_S1x1_1 (W (Proc.devRef .tc main_arg8)))))))) := by
  dsimp only [ops6c]
  after_results

/-! ## The whole line -/

/-- The reference's result as a stage term of its nine arguments. -/
def result (a0 : FVec Ideal S100000x256 .f32) (a1 : IVec S2x1600000 32) (a2 : IVec S16384x2 32) (a3 : FVec Ideal S256x64 .f32)
    (a4 : FVec Ideal S64 .f32) (a5 : FVec Ideal S128x16 .f32) (a6 : FVec Ideal S16 .f32) (a7 : FVec Ideal S16x1 .f32)
    (a8 : FVec Ideal S1 .f32) : FVec Ideal S16384x1 .f32 :=
  headHost (pickFst (rectify (preWeighted a0 a1 a3 a4)) a2) (pickSnd (rectify (preWeighted a0 a1 a3 a4)) a2) a5 a6 a7 a8

set_option maxHeartbeats 2000000 in
/-- After the whole line the result buffer holds the result term of the contents the line starts from. -/
theorem fold_result : after (ops (F := Ideal)) W (Proc.devRef .tc main_v89)
    = result (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) := by
  rw [ops_split, after_append, after_append, after_append, after_append, after_append, after_append, after_append, after_append, after_append]
  rw [sixc_out, sixb_rect, sixb_keep_arg7, sixb_keep_arg8, six_hidden, six_nonneg, six_slope, six_keep_arg7, six_keep_arg8,
    five_fst, five_snd, five_keep_arg5, five_keep_arg6, five_keep_arg7, five_keep_arg8,
    fourb_table, fourb_keep_arg2, fourb_keep_arg5, fourb_keep_arg6, fourb_keep_arg7, fourb_keep_arg8,
    four_pre, four_nonneg, four_slope, four_keep_arg2, four_keep_arg5, four_keep_arg6, four_keep_arg7, four_keep_arg8,
    three_sums, three_keep_arg2, three_keep_arg4, three_keep_arg5, three_keep_arg6, three_keep_arg7, three_keep_arg8,
    two_weights, two_keep_v0, two_keep_v4, two_keep_v7, two_keep_arg2, two_keep_arg4, two_keep_arg5, two_keep_arg6, two_keep_arg7, two_keep_arg8,
    oneb_dinv, oneb_keep_v0, oneb_keep_v4, oneb_keep_v7, oneb_keep_arg2, oneb_keep_arg4, oneb_keep_arg5, oneb_keep_arg6, oneb_keep_arg7, oneb_keep_arg8,
    one_prod, one_src, one_dst, one_pos, one_root, one_zero, one_keep_arg2, one_keep_arg4, one_keep_arg5, one_keep_arg6, one_keep_arg7, one_keep_arg8]
  rfl

variable (m : (ℓ : Loc nD τ sig) → Buf (Elt Ideal) ℓ) (ρ : Dev nD → PrngReg)

set_option maxRecDepth 8192 in
set_option maxHeartbeats 40000000 in
/-- Every weakly fair execution of the reference terminates with the result buffer at the result term of the
    arguments and the arguments unchanged. -/
theorem run : θ_run defs (onTc (τ := τ) (main (F := Ideal))) ⟨m, fun _ => 0, ρ⟩ fun r => ∀ c : Dev nD,
      r.2.mem ((c.tc : Thread nD τ).loc main_v89)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v89).trans ((fold_result _).trans rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl)⟩)
    (run_seq scopedRefs_eq scopedSems_eq defs main (fun _ => ops) main_eq (fun _ => ops_sub) m ρ)

end Cert.ReferenceIdeal.Staged

end
-- ==== Proof.LibScatterAddRows.lean ====
/-
  An accumulating row scatter `x.at[idx].add(u)` of a table `x : [N, C]` on the host, on the extended reals, read at
  an index.

  Summing rows `u : [E, C]` into the rows of `x` that an integer vector `idx` names lowers to a scatter whose body is
  an addition, with one inserted window axis (the table's rows), one update window axis (the columns: a whole row of
  `C` entries per scatter index) and a trailing index-vector axis of extent one on the scatter indices. Update entry
  `(e, c)` lands on table entry `(i, c)` exactly when the scatter index `idx (e, 0)`, read as a signed integer, is
  `i`; an index outside `[0, N)` lands nowhere and its row is dropped. So entry `(i, c)` of the result is

      x (i, c) + ∑ over the edges e with idx (e, 0) = i of u (e, c),

  and the set of such `e` does not depend on the width `C`: the same rows are summed whatever is carried along them.
  The statement takes the dimension numbers as a record built from the literal lists; a printed record with the same
  lists is equal to it by `rfl`.
-/
import Idealize.ShloMosaic.PureOps.Ideal.Laws
import Idealize.ShloMosaic.Lib.ValueIdx

noncomputable section

open scoped BigOperators

namespace Cert.LibScatterAddRows

open Idealize.ShloMosaic Idealize.ShloMosaic.ValueIdx

/-- The dimension numbers of `x.at[idx].add(u)` for a table `[N, C]`, scatter indices `[E, 1]`, updates `[E, C]`. -/
abbrev rowDims (N C E : ℕ) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The rows `e` of the updates whose scatter index, read signed, is `i`. -/
def landing {E w : ℕ} (idx : IVec ⟨2, ![E, 1]⟩ w) (i : ℕ) : Finset (Fin E) :=
  Finset.univ.filter fun e => (idx (ix2 e (0 : Fin 1))).toInt = (i : ℤ)

theorem one_not_mem_zero : (1 : Fin 2) ∉ ([0] : List (Fin 2)) :=
  fun h => absurd (List.mem_singleton.mp h) (by decide)

section Coordinates
variable {N C E w : ℕ} (wf : ScatterDims.WF ⟨2, ![N, C]⟩ ⟨2, ![E, 1]⟩ ⟨2, ![E, C]⟩ [1] [0] [0] 1)
  (idx : IVec ⟨2, ![E, 1]⟩ w) (e : Fin E) (c : Fin C)

/-- On the table's row axis the window starts at the scatter index `idx (e, 0)`, read signed. -/
theorem start_row : (rowDims N C E wf).start (ix2 e c) idx 0 = (idx (ix2 e (0 : Fin 1))).toInt := by
  unfold ScatterDims.start
  rw [dif_pos (show (0 : Fin 2) ∈ (rowDims N C E wf).scatterDimsToOperandDims from List.mem_singleton.mpr rfl)]
  have hsi : (rowDims N C E wf).siIdx (ix2 e c) ⟨List.idxOf (0 : Fin 2) (rowDims N C E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis it starts at zero: the scatter index does not name that axis. -/
theorem start_col : (rowDims N C E wf).start (ix2 e c) idx 1 = 0 := by
  unfold ScatterDims.start
  rw [dif_neg (show (1 : Fin 2) ∉ (rowDims N C E wf).scatterDimsToOperandDims from one_not_mem_zero)]

theorem zero_not_mem_sKept : (0 : Fin 2) ∉ (rowDims N C E wf).sKept := by
  simp [ScatterDims.sKept, Shape.kept]

theorem one_mem_sKept : (1 : Fin 2) ∈ (rowDims N C E wf).sKept := by
  simp [ScatterDims.sKept, Shape.kept]

/-- The row axis is inserted: the window coordinate there is zero. -/
theorem window_row : (rowDims N C E wf).window (ix2 e c) 0 = 0 := by
  unfold ScatterDims.window
  rw [dif_neg (zero_not_mem_sKept wf)]

/-- The column axis is the one window axis: the window coordinate there is the update's column. -/
theorem window_col : (rowDims N C E wf).window (ix2 e c) 1 = c.val := by
  unfold ScatterDims.window
  rw [dif_pos (one_mem_sKept wf)]
  rfl

end Coordinates

section Landing
variable {N C E w : ℕ} (wf : ScatterDims.WF ⟨2, ![N, C]⟩ ⟨2, ![E, 1]⟩ ⟨2, ![E, C]⟩ [1] [0] [0] 1)
  (idx : IVec ⟨2, ![E, 1]⟩ w)

/-- Update entry `(e, c)` lands on table entry `(i, c')` exactly when the scatter index of row `e` is `i` and the
    column is kept. -/
theorem resultIdx?_row (e : Fin E) (c : Fin C) (i : Fin N) (c' : Fin C) :
    (rowDims N C E wf).resultIdx? (ix2 e c) idx = some (ix2 i c')
      ↔ (idx (ix2 e (0 : Fin 1))).toInt = (i.val : ℤ) ∧ c = c' := by
  unfold ScatterDims.resultIdx?
  split
  · rename_i h
    rw [Option.some.injEq]
    have hr := h 0
    rw [start_row, window_row] at hr
    constructor
    · intro hf
      have h0 : ((rowDims N C E wf).start (ix2 e c) idx 0 + ((rowDims N C E wf).window (ix2 e c) 0 : ℕ)).toNat = i.val :=
        congrArg (fun f => (f 0).val) hf
      have h1 : ((rowDims N C E wf).start (ix2 e c) idx 1 + ((rowDims N C E wf).window (ix2 e c) 1 : ℕ)).toNat = c'.val :=
        congrArg (fun f => (f 1).val) hf
      rw [start_row, window_row] at h0
      rw [start_col, window_col] at h1
      refine ⟨by omega, Fin.ext (by omega)⟩
    · rintro ⟨h0, rfl⟩
      funext a
      refine Fin.ext ?_
      match a with
      | ⟨0, _⟩ =>
        show ((rowDims N C E wf).start (ix2 e c) idx 0 + ((rowDims N C E wf).window (ix2 e c) 0 : ℕ)).toNat = i.val
        rw [start_row, window_row]; omega
      | ⟨1, _⟩ =>
        show ((rowDims N C E wf).start (ix2 e c) idx 1 + ((rowDims N C E wf).window (ix2 e c) 1 : ℕ)).toNat = c.val
        rw [start_col, window_col]; omega
  · rename_i h
    constructor
    · intro hf; exact absurd hf (by simp)
    · rintro ⟨h0, rfl⟩
      exfalso
      apply h
      intro a
      match a with
      | ⟨0, _⟩ =>
        show 0 ≤ (rowDims N C E wf).start (ix2 e c) idx 0 + ((rowDims N C E wf).window (ix2 e c) 0 : ℕ)
          ∧ (rowDims N C E wf).start (ix2 e c) idx 0 + ((rowDims N C E wf).window (ix2 e c) 0 : ℕ) < (N : ℤ)
        rw [start_row, window_row, h0]
        have := i.isLt
        constructor <;> omega
      | ⟨1, _⟩ =>
        show 0 ≤ (rowDims N C E wf).start (ix2 e c) idx 1 + ((rowDims N C E wf).window (ix2 e c) 1 : ℕ)
          ∧ (rowDims N C E wf).start (ix2 e c) idx 1 + ((rowDims N C E wf).window (ix2 e c) 1 : ℕ) < (C : ℤ)
        rw [start_col, window_col]
        have := c.isLt
        constructor <;> omega

/-- THE ACCUMULATING SCATTER READ AT `(i, c)`: the table's entry plus the updates' column `c` summed over the rows
    whose scatter index is `i`. -/
theorem hostScatterAdd_rows_apply (x : (⟨2, ![N, C]⟩ : Shape).Idx → EReal) (upd : (⟨2, ![E, C]⟩ : Shape).Idx → EReal)
    (i : Fin N) (c : Fin C) :
    Ideal.hostScatterAdd (rowDims N C E wf) x idx upd (ix2 i c)
      = x (ix2 i c) + ∑ e ∈ landing idx i.val, upd (ix2 e c) := by
  unfold Ideal.hostScatterAdd
  congr 1
  refine Finset.sum_nbij' (fun j => (j 0 : Fin E)) (fun e => ix2 e c) ?_ ?_ ?_ ?_ ?_
  · intro j hj
    obtain ⟨e, c', rfl⟩ : ∃ (e : Fin E) (c' : Fin C), j = ix2 e c' := ⟨j 0, j 1, eq_ix2 j⟩
    have := (resultIdx?_row wf idx e c' i c).mp (Finset.mem_filter.mp hj).2
    exact Finset.mem_filter.mpr ⟨Finset.mem_univ _, this.1⟩
  · intro e he
    exact Finset.mem_filter.mpr ⟨Finset.mem_univ _,
      (resultIdx?_row wf idx e c i c).mpr ⟨(Finset.mem_filter.mp he).2, rfl⟩⟩
  · intro j hj
    obtain ⟨e, c', rfl⟩ : ∃ (e : Fin E) (c' : Fin C), j = ix2 e c' := ⟨j 0, j 1, eq_ix2 j⟩
    have := (resultIdx?_row wf idx e c' i c).mp (Finset.mem_filter.mp hj).2
    rw [this.2]
    rfl
  · intro e _
    rfl
  · intro j hj
    obtain ⟨e, c', rfl⟩ : ∃ (e : Fin E) (c' : Fin C), j = ix2 e c' := ⟨j 0, j 1, eq_ix2 j⟩
    have := (resultIdx?_row wf idx e c' i c).mp (Finset.mem_filter.mp hj).2
    rw [this.2]
    rfl

/-- The same for a printed `stablehlo.scatter` with an `add` body whose dimension numbers are these lists. -/
theorem scatterAdd_rows_apply {φ : FTy} (d : ScatterDims ⟨2, ![N, C]⟩ ⟨2, ![E, 1]⟩ ⟨2, ![E, C]⟩)
    (hd : d = rowDims N C E wf) (x : FVec Ideal ⟨2, ![N, C]⟩ φ) (upd : FVec Ideal ⟨2, ![E, C]⟩ φ)
    (i : Fin N) (c : Fin C) :
    Host.scatterAdd d x idx upd (ix2 i c) = x (ix2 i c) + ∑ e ∈ landing idx i.val, upd (ix2 e c) := by
  subst hd
  exact hostScatterAdd_rows_apply wf idx x upd i c

end Landing

end Cert.LibScatterAddRows

end
-- ==== Proof.LibScatterAddVec.lean ====
/-
  An accumulating scatter `x.at[idx].add(u)` of a vector `x : [N]` on the host, on the extended reals, read at an
  index.

  Summing the entries of `u : [E]` into the entries of `x` that an integer vector `idx` names lowers to a scatter
  whose body is an addition, with one inserted window axis (the vector's only axis), no update window axis (each
  scatter index carries one scalar) and a trailing index-vector axis of extent one on the scatter indices. Update
  entry `e` lands on entry `i` of the vector exactly when the scatter index `idx (e, 0)`, read as a signed integer,
  is `i`; an index outside `[0, N)` lands nowhere and its entry is dropped. So entry `i` of the result is

      x i + ∑ over the e with idx (e, 0) = i of u e,

  the sum running over the same set of positions as for a table of rows scattered by the same indices.
  The statement takes the dimension numbers as a record built from the literal lists; a printed record with the same
  lists is equal to it by `rfl`.
-/
import Idealize.ShloMosaic.PureOps.Ideal.Laws
import Idealize.ShloMosaic.Lib.ValueIdx
import proofs.«176623_j10050223473070_2_alg».proof.Proof.LibScatterAddRows

noncomputable section

open scoped BigOperators

namespace Cert.LibScatterAddVec

open Idealize.ShloMosaic Idealize.ShloMosaic.ValueIdx
open Cert.LibScatterAddRows (landing)

/-- The dimension numbers of `x.at[idx].add(u)` for a vector `[N]`, scatter indices `[E, 1]`, updates `[E]`. -/
abbrev vecDims (N E : ℕ) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Coordinates
variable {N E w : ℕ} (wf : ScatterDims.WF ⟨1, ![N]⟩ ⟨2, ![E, 1]⟩ ⟨1, ![E]⟩ [] [0] [0] 1)
  (idx : IVec ⟨2, ![E, 1]⟩ w) (e : Fin E)

/-- On the vector's axis the window starts at the scatter index `idx (e, 0)`, read signed. -/
theorem start_zero : (vecDims N E wf).start (ix1 e) idx 0 = (idx (ix2 e (0 : Fin 1))).toInt := by
  unfold ScatterDims.start
  rw [dif_pos (show (0 : Fin 1) ∈ (vecDims N E wf).scatterDimsToOperandDims from List.mem_singleton.mpr rfl)]
  have hsi : (vecDims N E wf).siIdx (ix1 e) ⟨List.idxOf (0 : Fin 1) (vecDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem zero_not_mem_sKept : (0 : Fin 1) ∉ (vecDims N E wf).sKept := by
  simp [ScatterDims.sKept, Shape.kept]

/-- The vector's axis is inserted: the window coordinate there is zero. -/
theorem window_zero : (vecDims N E wf).window (ix1 e) 0 = 0 := by
  unfold ScatterDims.window
  rw [dif_neg (zero_not_mem_sKept wf)]

end Coordinates

section Landing
variable {N E w : ℕ} (wf : ScatterDims.WF ⟨1, ![N]⟩ ⟨2, ![E, 1]⟩ ⟨1, ![E]⟩ [] [0] [0] 1)
  (idx : IVec ⟨2, ![E, 1]⟩ w)

/-- Update entry `e` lands on entry `i` of the vector exactly when its scatter index, read signed, is `i`. -/
theorem resultIdx?_vec (e : Fin E) (i : Fin N) :
    (vecDims N E wf).resultIdx? (ix1 e) idx = some (ix1 i) ↔ (idx (ix2 e (0 : Fin 1))).toInt = (i.val : ℤ) := by
  unfold ScatterDims.resultIdx?
  split
  · rename_i h
    rw [Option.some.injEq]
    have hr := h 0
    rw [start_zero, window_zero] at hr
    constructor
    · intro hf
      have h0 : ((vecDims N E wf).start (ix1 e) idx 0 + ((vecDims N E wf).window (ix1 e) 0 : ℕ)).toNat = i.val :=
        congrArg (fun f => (f 0).val) hf
      rw [start_zero, window_zero] at h0
      omega
    · intro h0
      funext a
      refine Fin.ext ?_
      match a with
      | ⟨0, _⟩ =>
        show ((vecDims N E wf).start (ix1 e) idx 0 + ((vecDims N E wf).window (ix1 e) 0 : ℕ)).toNat = i.val
        rw [start_zero, window_zero]; omega
  · rename_i h
    constructor
    · intro hf; exact absurd hf (by simp)
    · intro h0
      exfalso
      apply h
      intro a
      match a with
      | ⟨0, _⟩ =>
        show 0 ≤ (vecDims N E wf).start (ix1 e) idx 0 + ((vecDims N E wf).window (ix1 e) 0 : ℕ)
          ∧ (vecDims N E wf).start (ix1 e) idx 0 + ((vecDims N E wf).window (ix1 e) 0 : ℕ) < (N : ℤ)
        rw [start_zero, window_zero, h0]
        have := i.isLt
        constructor <;> omega

/-- THE ACCUMULATING SCATTER READ AT `i`: the vector's entry plus the updates summed over the positions whose
    scatter index is `i`. -/
theorem hostScatterAdd_vec_apply (x : (⟨1, ![N]⟩ : Shape).Idx → EReal) (upd : (⟨1, ![E]⟩ : Shape).Idx → EReal)
    (i : Fin N) :
    Ideal.hostScatterAdd (vecDims N E wf) x idx upd (ix1 i) = x (ix1 i) + ∑ e ∈ landing idx i.val, upd (ix1 e) := by
  unfold Ideal.hostScatterAdd
  congr 1
  refine Finset.sum_nbij' (fun j => (j 0 : Fin E)) (fun e => ix1 e) ?_ ?_ ?_ ?_ ?_
  · intro j hj
    obtain ⟨e, rfl⟩ : ∃ e : Fin E, j = ix1 e := ⟨j 0, eq_ix1 j⟩
    exact Finset.mem_filter.mpr ⟨Finset.mem_univ _, (resultIdx?_vec wf idx e i).mp (Finset.mem_filter.mp hj).2⟩
  · intro e he
    exact Finset.mem_filter.mpr ⟨Finset.mem_univ _, (resultIdx?_vec wf idx e i).mpr (Finset.mem_filter.mp he).2⟩
  · intro j _
    exact (eq_ix1 j).symm
  · intro e _
    rfl
  · intro j _
    exact congrArg upd (eq_ix1 j)

end Landing

/-- The same for a printed `stablehlo.scatter` with an `add` body whose dimension numbers are these lists. -/
theorem scatterAdd_vec_apply {N E w : ℕ} {φ : FTy}
    (wf : ScatterDims.WF ⟨1, ![N]⟩ ⟨2, ![E, 1]⟩ ⟨1, ![E]⟩ [] [0] [0] 1)
    (d : ScatterDims ⟨1, ![N]⟩ ⟨2, ![E, 1]⟩ ⟨1, ![E]⟩) (hd : d = vecDims N E wf)
    (idx : IVec ⟨2, ![E, 1]⟩ w) (x : FVec Ideal ⟨1, ![N]⟩ φ) (upd : FVec Ideal ⟨1, ![E]⟩ φ) (i : Fin N) :
    Host.scatterAdd d x idx upd (ix1 i) = x (ix1 i) + ∑ e ∈ landing idx i.val, upd (ix1 e) := by
  subst hd
  exact hostScatterAdd_vec_apply wf idx x upd i

end Cert.LibScatterAddVec

end
-- ==== Proof.LibGatherRows.lean ====
/-
  A row gather `x[idx]` of a table `x : [N, D]` on the host, read at an index.

  `x[idx]` for an integer array `idx` lowers to a gather with one collapsed axis (the table's rows), one offset axis (the
  table's columns, a whole row of `D` entries per start index) and a trailing index-vector axis of extent one on the
  start indices. Result entry `(r, d)` — or `(a, b, d)` for a matrix of indices — is the table's entry in column `d` of
  the row the start index names: the start index is read as a signed integer and clamped into `[0, N − 1]`, so every
  integer names a row. Both statements take the dimension numbers as a record built from the literal lists; a printed
  record with the same lists is equal to it by `rfl`.
-/
import Idealize.ShloMosaic.Lib.ValueIdx

noncomputable section

namespace Cert.LibGatherRows

open Idealize.ShloMosaic Idealize.ShloMosaic.ValueIdx

variable {α : Type}

/-- The row a start index names in a table of `N` rows: its signed value clamped into `[0, N − 1]`. -/
def clampRow {w : ℕ} (N : ℕ) (hN : 0 < N) (v : BitVec w) : Fin N := ⟨min v.toInt.toNat (N - 1), by omega⟩

theorem one_not_mem_zero : (1 : Fin 2) ∉ ([0] : List (Fin 2)) :=
  fun h => absurd (List.mem_singleton.mp h) (by decide)

/-! ## A vector of indices: table `[N, D]`, start indices `[R, 1]`, result `[R, D]` -/

/-- The dimension numbers of `x[idx]` for a table `[N, D]` and start indices `[R, 1]`. -/
abbrev rowDims2 (N D R : ℕ)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

section Rows2
variable {N D R w : ℕ}
  (wf : GatherDims.WF ⟨2, ![N, D]⟩ ⟨2, ![R, 1]⟩ ⟨2, ![R, D]⟩ [1] [0] [] [0] [] 1 ![1, D])
  (idx : IVec ⟨2, ![R, 1]⟩ w) (r : Fin R) (d : Fin D)

/-- On the table's row axis the operand coordinate is the clamped start index: no batching, and the axis is collapsed. -/
theorem rows2_axis0 :
    (rowDims2 N D R wf).start (ix2 r d) idx 0 + (rowDims2 N D R wf).batchCoord (ix2 r d) 0
      + (rowDims2 N D R wf).offCoord (ix2 r d) 0 = min (idx (ix2 r (0 : Fin 1))).toInt.toNat (N - 1) := by
  rw [GatherDims.batchCoord_eq_zero _ _ _ List.not_mem_nil, Nat.add_zero,
    GatherDims.offCoord_eq_zero _ _ _
      (fun h => ((GatherDims.mem_sKept _ _).mp h).1 (List.mem_singleton.mpr rfl)), Nat.add_zero]
  unfold GatherDims.start
  rw [dif_pos (show (0 : Fin 2) ∈ (rowDims2 N D R wf).startIndexMap from List.mem_singleton.mpr rfl)]
  have hsi : (rowDims2 N D R wf).siIdx (ix2 r d) ⟨List.idxOf (0 : Fin 2) (rowDims2 N D R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

/-- On the table's column axis it is the result's column: the start index map does not name the axis, and the axis is
    the one offset axis. -/
theorem rows2_axis1 :
    (rowDims2 N D R wf).start (ix2 r d) idx 1 + (rowDims2 N D R wf).batchCoord (ix2 r d) 1
      + (rowDims2 N D R wf).offCoord (ix2 r d) 1 = d.val := by
  rw [GatherDims.batchCoord_eq_zero _ _ _ List.not_mem_nil, Nat.add_zero]
  unfold GatherDims.start
  rw [dif_neg (show (1 : Fin 2) ∉ (rowDims2 N D R wf).startIndexMap from one_not_mem_zero), Nat.zero_add]
  unfold GatherDims.offCoord
  rw [dif_pos ((GatherDims.mem_sKept _ _).mpr ⟨one_not_mem_zero, List.not_mem_nil⟩)]
  rfl

end Rows2

/-- Entry `(r, d)` of the gather is the table's entry `(row, d)`, `row` the clamped start index `idx (r, 0)`. -/
theorem gather_rows2_apply {N D R w : ℕ} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (r : Fin R) (d : Fin D) :
    Host.gather (rowDims2 N D R wf) x idx (ix2 r d) = x (ix2 (clampRow N hN (idx (ix2 r (0 : Fin 1)))) d) := by
  unfold Host.gather
  congr 1
  funext a
  refine Fin.ext ?_
  match a with
  | ⟨0, _⟩ => exact rows2_axis0 wf idx r d
  | ⟨1, _⟩ => exact rows2_axis1 wf idx r d

/-! ## A matrix of indices: table `[N, D]`, start indices `[A, B, 1]`, result `[A, B, D]` -/

/-- The dimension numbers of `x[idx]` for a table `[N, D]` and start indices `[A, B, 1]`. -/
abbrev rowDims3 (N D A B : ℕ)
    (wf : GatherDims.WF ⟨2, ![N, D]⟩ ⟨3, ![A, B, 1]⟩ ⟨3, ![A, B, D]⟩ [2] [0] [] [0] [] 2 ![1, D]) :
    GatherDims ⟨2, ![N, D]⟩ ⟨3, ![A, B, 1]⟩ ⟨3, ![A, B, D]⟩ where
  offsetDims := [2]
  collapsedSliceDims := [0]
  operandBatchingDims := []
  startIndicesBatchingDims := []
  startIndexMap := [0]
  indexVectorDim := 2
  sliceSizes := ![1, D]
  wf := wf

section Rows3
variable {N D A B w : ℕ}
  (wf : GatherDims.WF ⟨2, ![N, D]⟩ ⟨3, ![A, B, 1]⟩ ⟨3, ![A, B, D]⟩ [2] [0] [] [0] [] 2 ![1, D])
  (idx : IVec ⟨3, ![A, B, 1]⟩ w) (a : Fin A) (b : Fin B) (d : Fin D)

/-- On the table's row axis the operand coordinate is the clamped start index. -/
theorem rows3_axis0 :
    (rowDims3 N D A B wf).start (ix3 a b d) idx 0 + (rowDims3 N D A B wf).batchCoord (ix3 a b d) 0
      + (rowDims3 N D A B wf).offCoord (ix3 a b d) 0 = min (idx (ix3 a b (0 : Fin 1))).toInt.toNat (N - 1) := by
  rw [GatherDims.batchCoord_eq_zero _ _ _ List.not_mem_nil, Nat.add_zero,
    GatherDims.offCoord_eq_zero _ _ _
      (fun h => ((GatherDims.mem_sKept _ _).mp h).1 (List.mem_singleton.mpr rfl)), Nat.add_zero]
  unfold GatherDims.start
  rw [dif_pos (show (0 : Fin 2) ∈ (rowDims3 N D A B wf).startIndexMap from List.mem_singleton.mpr rfl)]
  have hsi : (rowDims3 N D A B wf).siIdx (ix3 a b d) ⟨List.idxOf (0 : Fin 2) (rowDims3 N D A B wf).startIndexMap,
      List.idxOf_lt_length_iff.2 (List.mem_singleton.mpr rfl)⟩ = ix3 a b (0 : Fin 1) := by
    funext c; refine Fin.ext ?_
    match c with
    | ⟨0, _⟩ => rfl
    | ⟨1, _⟩ => rfl
    | ⟨2, _⟩ => rfl
  rw [hsi]
  rfl

/-- On the table's column axis it is the result's column. -/
theorem rows3_axis1 :
    (rowDims3 N D A B wf).start (ix3 a b d) idx 1 + (rowDims3 N D A B wf).batchCoord (ix3 a b d) 1
      + (rowDims3 N D A B wf).offCoord (ix3 a b d) 1 = d.val := by
  rw [GatherDims.batchCoord_eq_zero _ _ _ List.not_mem_nil, Nat.add_zero]
  unfold GatherDims.start
  rw [dif_neg (show (1 : Fin 2) ∉ (rowDims3 N D A B wf).startIndexMap from one_not_mem_zero), Nat.zero_add]
  unfold GatherDims.offCoord
  rw [dif_pos ((GatherDims.mem_sKept _ _).mpr ⟨one_not_mem_zero, List.not_mem_nil⟩)]
  rfl

end Rows3

/-- Entry `(a, b, d)` of the gather is the table's entry `(row, d)`, `row` the clamped start index `idx (a, b, 0)`. -/
theorem gather_rows3_apply {N D A B w : ℕ} (hN : 0 < N)
    (wf : GatherDims.WF ⟨2, ![N, D]⟩ ⟨3, ![A, B, 1]⟩ ⟨3, ![A, B, D]⟩ [2] [0] [] [0] [] 2 ![1, D])
    (x : (⟨2, ![N, D]⟩ : Shape).Idx → α) (idx : IVec ⟨3, ![A, B, 1]⟩ w) (a : Fin A) (b : Fin B) (d : Fin D) :
    Host.gather (rowDims3 N D A B wf) x idx (ix3 a b d) = x (ix2 (clampRow N hN (idx (ix3 a b (0 : Fin 1)))) d) := by
  unfold Host.gather
  congr 1
  funext ax
  refine Fin.ext ?_
  match ax with
  | ⟨0, _⟩ => exact rows3_axis0 wf idx a b d
  | ⟨1, _⟩ => exact rows3_axis1 wf idx a b d

end Cert.LibGatherRows

end
-- ==== Proof.LibGatherVec.lean ====
/-
  A gather `x[idx]` of a vector `x : [N]` on the host, read at an index.

  `x[idx]` for a vector `x` and an integer array `idx` lowers to a gather with one collapsed axis (the vector's only
  axis), no offset axis (each start index picks one scalar) and a trailing index-vector axis of extent one on the
  start indices. Result entry `r` is the vector's entry at the position the start index names: the start index is
  read as a signed integer and clamped into `[0, N − 1]`, so every integer names a position. The statement takes the
  dimension numbers as a record built from the literal lists; a printed record with the same lists is equal to it by
  `rfl`.
-/
import Idealize.ShloMosaic.Lib.ValueIdx
import proofs.«176623_j10050223473070_2_alg».proof.Proof.LibGatherRows

noncomputable section

namespace Cert.LibGatherVec

open Idealize.ShloMosaic Idealize.ShloMosaic.ValueIdx
open Cert.LibGatherRows (clampRow)

variable {α : Type}

/-- The dimension numbers of `x[idx]` for a vector `[N]` and start indices `[R, 1]`, result `[R]`. -/
abbrev vecDims (N R : ℕ)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

section Vec
variable {N R w : ℕ}
  (wf : GatherDims.WF ⟨1, ![N]⟩ ⟨2, ![R, 1]⟩ ⟨1, ![R]⟩ [] [0] [] [0] [] 1 ![1])
  (idx : IVec ⟨2, ![R, 1]⟩ w) (r : Fin R)

/-- On the vector's axis the operand coordinate is the clamped start index: no batching, and the axis is collapsed. -/
theorem vec_axis0 :
    (vecDims N R wf).start (ix1 r) idx 0 + (vecDims N R wf).batchCoord (ix1 r) 0
      + (vecDims N R wf).offCoord (ix1 r) 0 = min (idx (ix2 r (0 : Fin 1))).toInt.toNat (N - 1) := by
  rw [GatherDims.batchCoord_eq_zero _ _ _ List.not_mem_nil, Nat.add_zero,
    GatherDims.offCoord_eq_zero _ _ _
      (fun h => ((GatherDims.mem_sKept _ _).mp h).1 (List.mem_singleton.mpr rfl)), Nat.add_zero]
  unfold GatherDims.start
  rw [dif_pos (show (0 : Fin 1) ∈ (vecDims N R wf).startIndexMap from List.mem_singleton.mpr rfl)]
  have hsi : (vecDims N R wf).siIdx (ix1 r) ⟨List.idxOf (0 : Fin 1) (vecDims N R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

end Vec

/-- Entry `r` of the gather is the vector's entry at the clamped start index `idx (r, 0)`. -/
theorem gather_vec_apply {N R w : ℕ} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (vecDims N R wf) x idx (ix1 r) = x (ix1 (clampRow N hN (idx (ix2 r (0 : Fin 1))))) := by
  unfold Host.gather
  congr 1
  funext a
  refine Fin.ext ?_
  match a with
  | ⟨0, _⟩ => exact vec_axis0 wf idx r

end Cert.LibGatherVec

end
-- ==== Proof.LibConcatVec.lean ====
/-
  Two host operations on vectors read at an index: the concatenation of two vectors, and the index vector
  `0, 1, …, N − 1`.

  The concatenation of `a : [A]` and `b : [B]` along their only axis is a vector of `A + B` entries: at a position
  `p < A` it reads `a p`, and at a position `p = A + j` with `j < B` it reads `b j`. The statements take the result's
  extent as a separate number `C` (the side condition of the concatenation says `A + B = C`) and a position `p : Fin C`
  together with the position in the piece and the equation that relates the two, so that at literal extents the
  equation is closed by `rfl` or by linear arithmetic.

  The index vector of `N` entries of 32-bit words holds at position `j` the word of `j`. For `N ≤ 2 ^ 31` that word,
  read as a signed integer, is `j` itself; in particular it is not negative, so a signed comparison "less than zero"
  fails on it, and clamping it into `[0, N − 1]` leaves it where it is.
-/
import Idealize.ShloMosaic.Lib.ValueIdx
import Idealize.ShloMosaic.Lib.Affine
import Idealize.ShloMosaic.Lib.Pipeline.Value
import proofs.«176623_j10050223473070_2_alg».proof.Proof.LibGatherRows

noncomputable section

namespace Cert.LibConcatVec

open Idealize.ShloMosaic Idealize.ShloMosaic.ValueIdx
open Cert.LibGatherRows (clampRow)

/-! ## The concatenation of two vectors -/

section Concat
variable {α : Type} {A B C : ℕ}
  (h : Shape.Concatenates [(⟨1, ![A]⟩ : Shape), (⟨1, ![B]⟩ : Shape)] ⟨1, ![C]⟩ 0)
  (a : (⟨1, ![A]⟩ : Shape).Idx → α) (b : (⟨1, ![B]⟩ : Shape).Idx → α)

include h in
/-- The side condition of the concatenation: the result's extent is the sum of the pieces'. -/
theorem concat_vec_size : A + B = C := by
  have e := h.2.2
  simpa using e

/-- At a position `p` that is a position `k` of the first vector, the concatenation reads the first vector at `k`. -/
theorem concat_vec_left (p : Fin C) (k : Fin A) (hp : p.val = k.val) :
    concatenate ⟨1, ![C]⟩ 0 [⟨⟨1, ![A]⟩, a⟩, ⟨⟨1, ![B]⟩, b⟩] h (ix1 p) = a (ix1 k) := by
  refine concatenate_pair_apply_left 0 a b h (ix1 p) rfl (ix1 k) ?_
  intro c
  match c with
  | ⟨0, _⟩ => exact hp.symm

/-- At a position `p = A + j`, `j` a position of the second vector, the concatenation reads the second vector at
    `j`. -/
theorem concat_vec_right (p : Fin C) (j : Fin B) (hp : p.val = A + j.val) :
    concatenate ⟨1, ![C]⟩ 0 [⟨⟨1, ![A]⟩, a⟩, ⟨⟨1, ![B]⟩, b⟩] h (ix1 p) = b (ix1 j) := by
  refine concatenate_pair_apply_right 0 a b h (ix1 p) rfl rfl (ix1 j) ?_ ?_
  · intro c hc
    match c with
    | ⟨0, _⟩ => exact absurd rfl hc
  · show j.val + A = p.val
    omega

/-- The concatenation at any position: the first vector below `A`, the second vector, shifted by `A`, from `A` on. -/
theorem concat_vec_apply (p : Fin C) :
    concatenate ⟨1, ![C]⟩ 0 [⟨⟨1, ![A]⟩, a⟩, ⟨⟨1, ![B]⟩, b⟩] h (ix1 p)
      = if hlt : p.val < A then a (ix1 ⟨p.val, hlt⟩)
        else b (ix1 ⟨p.val - A, by have := concat_vec_size h; have := p.isLt; omega⟩) := by
  split
  · next hlt => exact concat_vec_left h a b p ⟨p.val, hlt⟩ rfl
  · next hge =>
    exact concat_vec_right h a b p ⟨p.val - A, by have := concat_vec_size h; have := p.isLt; omega⟩
      (by show p.val = A + (p.val - A); omega)

end Concat

/-! ## The index vector `0, 1, …, N − 1` of 32-bit words -/

section Iota
variable {N : ℕ}

/-- Entry `j` of the index vector is the 32-bit word of `j`. -/
theorem iota_vec_apply (j : Fin N) : iotaInDim ⟨1, ![N]⟩ 32 0 (ix1 j) = BitVec.ofNat 32 j.val := rfl

/-- For at most `2 ^ 31` entries the word of `j`, read signed, is `j`. -/
theorem ofNat_toInt (hN : N ≤ 2 ^ 31) (j : Fin N) : (BitVec.ofNat 32 j.val).toInt = (j.val : ℤ) := by
  have hj : j.val < 2 ^ 31 := lt_of_lt_of_le j.isLt hN
  have hmod : j.val % 2 ^ 32 = j.val := Nat.mod_eq_of_lt (by omega)
  rw [BitVec.toInt_eq_toNat_of_lt (by rw [BitVec.toNat_ofNat, hmod]; omega), BitVec.toNat_ofNat, hmod]

/-- For at most `2 ^ 31` entries, entry `j` of the index vector read signed is `j`. -/
theorem iota_vec_toInt (hN : N ≤ 2 ^ 31) (j : Fin N) :
    (iotaInDim ⟨1, ![N]⟩ 32 0 (ix1 j)).toInt = (j.val : ℤ) := by
  rw [iota_vec_apply, ofNat_toInt hN j]

/-- A word whose signed value is a natural number is not signed-less-than zero: the comparison's word is not one. -/
theorem not_slt_zero_of_toInt {v : BitVec 32} {n : ℕ} (hv : v.toInt = (n : ℤ)) : IntOp.cmpi .slt v 0#32 ≠ 1#1 := by
  rw [Ne, IntOp.cmpi_slt, hv, show (0#32 : BitVec 32).toInt = 0 from rfl]
  omega

/-- The same as the comparison's word being zero. -/
theorem slt_zero_of_toInt {v : BitVec 32} {n : ℕ} (hv : v.toInt = (n : ℤ)) : IntOp.cmpi .slt v 0#32 = 0#1 := by
  have hne := not_slt_zero_of_toInt hv
  generalize IntOp.cmpi .slt v 0#32 = c at hne ⊢
  revert c; decide

/-- Entry `j` of the index vector is not signed-less-than zero. -/
theorem iota_vec_not_slt_zero (hN : N ≤ 2 ^ 31) (j : Fin N) :
    IntOp.cmpi .slt (iotaInDim ⟨1, ![N]⟩ 32 0 (ix1 j)) 0#32 ≠ 1#1 :=
  not_slt_zero_of_toInt (iota_vec_toInt hN j)

/-- The same as the comparison's word being zero. -/
theorem iota_vec_slt_zero (hN : N ≤ 2 ^ 31) (j : Fin N) :
    IntOp.cmpi .slt (iotaInDim ⟨1, ![N]⟩ 32 0 (ix1 j)) 0#32 = 0#1 :=
  slt_zero_of_toInt (iota_vec_toInt hN j)

/-- A word whose signed value is a position `j < N` is clamped into `[0, N − 1]` to `j` itself. -/
theorem clampRow_of_toInt {w : ℕ} (hN : 0 < N) (v : BitVec w) (j : Fin N) (hv : v.toInt = (j.val : ℤ)) :
    clampRow N hN v = j := by
  refine Fin.ext ?_
  show min v.toInt.toNat (N - 1) = j.val
  have := j.isLt
  rw [hv]
  omega

end Iota

end Cert.LibConcatVec

end
-- ==== Proof.LibLayerForms.lean ====
/-
  One layer of a multilayer perceptron on the extended reals, as a vector unit spells it and as a host program spells it,
  and the rectifier between two layers.

  A layer takes a matrix `x : [M, K]`, a weight matrix `w : [K, N]` and a bias vector `b : [N]` to the matrix
  `x · w + b`, the bias added to every row: entry `(p, q)` is `(∑ k, x (p, k) · w (k, q)) + b q`. A vector unit forms the
  product by a matrix multiplication into a zero accumulator, lifts the bias to a `[1, N]` row by a shape cast and broadcasts
  that row over the `M` rows (`vec_layer`). A host program forms the product by a general dot product, lifts the bias
  to a `[1, N]` row by a broadcast along a new leading axis and broadcasts that row over the rows (`host_layer`). Both are
  the same array `dense x w b`. The rectifier `max v 0` is spelt with a scalar zero broadcast to the shape on the vector unit
  (`vec_relu`) and with a rank-0 zero constant broadcast to the shape on the host (`host_relu`).

  A layer's row `p` depends on row `p` of its operand only, and so does the rectifier's. `RowsAgree xb x off` says that
  `xb` is the block of rows `off, off + 1, …` of `x`; a layer and the rectifier send agreeing operands to agreeing results
  (`dense_rows`, `relu_rows`), so a perceptron evaluated on a block of rows is that block of rows of the perceptron
  evaluated on all rows.
-/
import proofs.«176623_j10050223473070_2_alg».proof.Proof.LibDenseLayer
import proofs.«176623_j10050223473070_2_alg».proof.Proof.LibPlainMatmul
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.LayerForms

open Idealize.ShloMosaic Idealize.ShloMosaic.ValueIdx Cert.DenseLayer

/-- A bias vector as a function of the column. -/
def colBias {N : ℕ} (b : (⟨1, ![N]⟩ : Shape).Idx → EReal) : Fin N → EReal := fun q => b (ix1 q)

/-- The rectifier: every entry clamped below at zero. -/
def relu {S : Shape} (v : S.Idx → EReal) : S.Idx → EReal := fun i => max (v i) 0

/-- A plain `[M, K] · [K, N]` general dot product of a host program, at `(p, q)`, is `∑ k, l (p, k) · r (k, q)`. -/
theorem dotGeneral_plain_apply {M K N : ℕ} {φ₁ φ₂ : FTy}
    (D : DotDims ⟨2, ![M, K]⟩ ⟨2, ![K, N]⟩ ⟨2, ![M, N]⟩) (hD : D = DotDims.plain M K N)
    (prec : Option ContractPrecision) (sched : HostSchedule) (l : FVec Ideal ⟨2, ![M, K]⟩ φ₁) (r : FVec Ideal ⟨2, ![K, N]⟩ φ₂)
    (p : Fin M) (q : Fin N) :
    FloatOps.dotGeneral D prec sched l r (ix2 p q) = ∑ k : Fin K, l (ix2 p k) * r (ix2 k q) := by
  subst hD
  rw [Ideal.dotGeneral_apply, ← Equiv.sum_comp (contrEquiv1 (DotDims.plain M K N) K rfl rfl).symm]
  refine Finset.sum_congr rfl fun k _ => ?_
  rw [Cert.LibPlainMatmul.plain_lhsIdx, Cert.LibPlainMatmul.plain_rhsIdx]

/-- The layer as a vector unit spells it: the product into a zero accumulator, plus the bias cast to a row and
    broadcast over the rows. -/
theorem vec_layer {M K N : ℕ} (D : DotDims ⟨2, ![M, K]⟩ ⟨2, ![K, N]⟩ ⟨2, ![M, N]⟩) (hD : D = DotDims.plain M K N)
    (prec : Option ContractPrecision) (x : FVec Ideal ⟨2, ![M, K]⟩ .f32) (w : FVec Ideal ⟨2, ![K, N]⟩ .f32)
    (b : FVec Ideal ⟨1, ![N]⟩ .f32) (hc : (⟨1, ![N]⟩ : Shape).ShapeCasts ⟨2, ![1, N]⟩)
    (hb : (⟨2, ![1, N]⟩ : Shape).Broadcasts ⟨2, ![M, N]⟩) :
    addf (matmul D prec x w (constant ⟨2, ![M, N]⟩ .f32 0x00000000#32))
        (broadcastTo ⟨2, ![M, N]⟩ (shapeCast ⟨2, ![1, N]⟩ b hc) hb)
      = dense x w (colBias b) := by
  funext i
  obtain ⟨p, q, rfl⟩ : ∃ (p : Fin M) (q : Fin N), i = ix2 p q := ⟨i 0, i 1, eq_ix2 i⟩
  show FloatOps.matmul D prec x w (constant ⟨2, ![M, N]⟩ .f32 0x00000000#32) (ix2 p q)
      + broadcastTo ⟨2, ![M, N]⟩ (shapeCast ⟨2, ![1, N]⟩ b hc) hb (ix2 p q)
    = (∑ k : Fin K, x (ix2 p k) * w (ix2 k q)) + b (ix1 q)
  rw [Cert.LibPlainMatmul.matmul_plain_zero_apply D hD, broadcastTo_1b_ab_apply, shapeCast_a_1a_apply]

/-- The layer as a host program spells it: the general dot product, plus the bias broadcast to a row along a new leading
    axis and that row broadcast over the rows. -/
theorem host_layer {M K N : ℕ} (D : DotDims ⟨2, ![M, K]⟩ ⟨2, ![K, N]⟩ ⟨2, ![M, N]⟩) (hD : D = DotDims.plain M K N)
    (prec : Option ContractPrecision) (x : FVec Ideal ⟨2, ![M, K]⟩ .f32) (w : FVec Ideal ⟨2, ![K, N]⟩ .f32)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral D prec x w)
        (broadcastInDim ⟨2, ![M, N]⟩ ![0, 1] h2 (broadcastInDim ⟨2, ![1, N]⟩ ![1] h1 b))
      = dense x w (colBias b) := by
  funext i
  obtain ⟨p, q, rfl⟩ : ∃ (p : Fin M) (q : Fin N), i = ix2 p q := ⟨i 0, i 1, eq_ix2 i⟩
  show FloatOps.dotGeneral D prec .single x w (ix2 p q)
      + broadcastInDim ⟨2, ![M, N]⟩ ![0, 1] h2 (broadcastInDim ⟨2, ![1, N]⟩ ![1] h1 b) (ix2 p q)
    = (∑ k : Fin K, x (ix2 p k) * w (ix2 k q)) + b (ix1 q)
  have e2 : broadcastInDim ⟨2, ![M, N]⟩ ![0, 1] h2 (broadcastInDim ⟨2, ![1, N]⟩ ![1] h1 b) (ix2 p q)
      = broadcastInDim ⟨2, ![1, N]⟩ ![1] h1 b (ix2 (0 : Fin 1) q) := by
    refine broadcastInDim_apply ![0, 1] h2 _ (ix2 p q) (ix2 (0 : Fin 1) q) fun a => ?_
    match a with
    | ⟨0, _⟩ => rfl
    | ⟨1, _⟩ =>
      show q.val = if N = 1 then 0 else q.val
      split
      · have := q.isLt; omega
      · rfl
  have e1 : broadcastInDim ⟨2, ![1, N]⟩ ![1] h1 b (ix2 (0 : Fin 1) q) = b (ix1 q) := by
    refine broadcastInDim_apply ![1] h1 b (ix2 (0 : Fin 1) q) (ix1 q) fun a => ?_
    match a with
    | ⟨0, _⟩ =>
      show q.val = if N = 1 then 0 else q.val
      split
      · have := q.isLt; omega
      · rfl
  rw [dotGeneral_plain_apply D hD, e2, e1]

/-- The rectifier as a vector unit spells it: the maximum with a scalar zero broadcast to the shape. -/
theorem vec_relu {S : Shape} (v : FVec Ideal S .f32) :
    maximumf v (broadcast S (Scalar.ofBits (F := Ideal) .f32 0x00000000#32)) = relu v := by
  funext i
  show max (v i) (Ideal.ofBits .f32 0x00000000#32) = max (v i) 0
  rw [Ideal.ofBits_zero_f32]

/-- The rectifier as a host program spells it: the maximum with a rank-0 zero constant broadcast to the shape. -/
theorem host_relu {S : Shape} (v : FVec Ideal S .f32) (h : (⟨0, ![]⟩ : Shape).BroadcastsInDim S ![]) :
    maximumf v (broadcastInDim S ![] h (constant (F := Ideal) ⟨0, ![]⟩ .f32 0x00000000#32)) = relu v := by
  funext i
  show max (v i) (Ideal.ofBits .f32 0x00000000#32) = max (v i) 0
  rw [Ideal.ofBits_zero_f32]

/-! ## Blocks of rows -/

/-- `xb` is the block of rows `off, off + 1, …` of `x`. -/
def RowsAgree {m M K : ℕ} (xb : (⟨2, ![m, K]⟩ : Shape).Idx → EReal) (x : (⟨2, ![M, K]⟩ : Shape).Idx → EReal) (off : ℕ) : Prop :=
  ∀ (p : Fin m) (P : Fin M), P.val = off + p.val → ∀ k : Fin K, xb (ix2 p k) = x (ix2 P k)

/-- A layer on a block of rows is that block of rows of the layer. -/
theorem dense_rows {m M K N : ℕ} {xb : (⟨2, ![m, K]⟩ : Shape).Idx → EReal} {x : (⟨2, ![M, K]⟩ : Shape).Idx → EReal} {off : ℕ}
    (h : RowsAgree xb x off) (w : (⟨2, ![K, N]⟩ : Shape).Idx → EReal) (b : Fin N → EReal) :
    RowsAgree (dense xb w b) (dense x w b) off :=
  fun p P hP q => by
    rw [dense_ix2, dense_ix2]
    exact denseAt_rows x xb w b p P q (h p P hP)

/-- The rectifier on a block of rows is that block of rows of the rectifier. -/
theorem relu_rows {m M K : ℕ} {xb : (⟨2, ![m, K]⟩ : Shape).Idx → EReal} {x : (⟨2, ![M, K]⟩ : Shape).Idx → EReal} {off : ℕ}
    (h : RowsAgree xb x off) : RowsAgree (relu xb) (relu x) off :=
  fun p P hP k => by
    show max (xb (ix2 p k)) 0 = max (x (ix2 P k)) 0
    rw [h p P hP k]

end Cert.LayerForms

end
-- ==== Proof.LibSumSwap.lean ====
/-
  Two sums of products of REAL numbers, read on the extended reals, regrouped.

  For finite index types `ι`, `κ` and real families `a : ι → ℝ`, `x : ι → κ → ℝ`, `w : κ → ℝ`,

    ∑ d, (∑ k, a k · x k d) · w d  =  ∑ k, a k · (∑ d, x k d · w d)

  as extended reals: every term is the image of a real, the image of a finite real sum is the sum of the images, and on
  the reals the identity is distributivity and an exchange of the two sums. (On the extended reals themselves the
  identity fails at infinities: the hypothesis that every factor is real is what makes it true.)
-/
import Mathlib.Data.EReal.Basic
import Mathlib.Data.EReal.Operations
import Mathlib.Algebra.BigOperators.Ring.Finset
import Mathlib.Algebra.BigOperators.Group.Finset.Sigma

open scoped BigOperators

namespace SumSwap

/-- The image of a finite sum of reals is the sum of the images. -/
theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A product of two matrix-like sums of reals regrouped, on the extended reals. -/
theorem sum_mul_sum_swap {ι κ : Type*} [Fintype ι] [Fintype κ] (a : ι → ℝ) (x : ι → κ → ℝ) (w : κ → ℝ) :
    (∑ d, (∑ k, (a k : EReal) * (x k d : EReal)) * (w d : EReal))
      = ∑ k, (a k : EReal) * ∑ d, (x k d : EReal) * (w d : EReal) := by
  have hl : ∀ d, (∑ k, (a k : EReal) * (x k d : EReal)) * (w d : EReal) = (((∑ k, a k * x k d) * w d : ℝ) : EReal) := fun d => by
    rw [EReal.coe_mul, coe_sum]; simp only [EReal.coe_mul]
  have hr : ∀ k, (a k : EReal) * ∑ d, (x k d : EReal) * (w d : EReal) = ((a k * ∑ d, x k d * w d : ℝ) : EReal) := fun k => by
    rw [EReal.coe_mul, coe_sum]; simp only [EReal.coe_mul]
  simp only [hl, hr]
  rw [← coe_sum, ← coe_sum]
  congr 1
  simp only [Finset.sum_mul, Finset.mul_sum]
  rw [Finset.sum_comm]
  exact Finset.sum_congr rfl fun k _ => Finset.sum_congr rfl fun d _ => mul_assoc _ _ _

end SumSwap
-- ==== Proof.LibMeanProj.lean ====
/-
  Mean aggregation commutes with a linear projection, for real data read on the extended reals.

  Let `L` be a finite set of neighbours, `g e k` the `k`-th real feature of neighbour `e`, `w k` a real weight and
  `d ≠ 0` a real count. Projecting every neighbour first and averaging the projections,

      (0 + ∑ e ∈ L, ∑ k, g e k · w k) / d,

  gives what averaging every feature first and projecting the averages gives,

      ∑ k, ((0 + ∑ e ∈ L, g e k) / d) · w k.

  On the reals this is distributivity and an exchange of the two sums. On the extended reals it needs every factor to be
  real (at an infinity distributivity fails), which is why the statement is about images of reals. The division is the
  extended reals' own, `Ideal.div`, which by a nonzero real is the product with its reciprocal.

  Also here: the closure of "is the image of a real" under the operations a dense layer uses.
-/
import Idealize.ShloMosaic.PureOps.Ideal
import proofs.«176623_j10050223473070_2_alg».proof.Proof.LibSumSwap

noncomputable section

open scoped BigOperators

namespace Cert.LibMeanProj

open Idealize.ShloMosaic

/-- A real divided by a nonzero real, on the extended reals, is the image of the real quotient. -/
theorem div_coe_coe (a d : ℝ) (hd : d ≠ 0) : Ideal.div (a : EReal) (d : EReal) = ((a / d : ℝ) : EReal) := by
  rw [Ideal.div_coe hd, ← EReal.coe_mul, mul_one_div]

/-- Projecting then averaging is averaging then projecting. -/
theorem mean_proj {ι κ : Type*} [Fintype κ] (L : Finset ι) (g : ι → κ → ℝ) (w : κ → ℝ) (d : ℝ) (hd : d ≠ 0) :
    Ideal.div (0 + ∑ e ∈ L, ∑ k, (g e k : EReal) * (w k : EReal)) (d : EReal)
      = ∑ k, Ideal.div (0 + ∑ e ∈ L, (g e k : EReal)) (d : EReal) * (w k : EReal) := by
  have hl : (∑ e ∈ L, ∑ k, (g e k : EReal) * (w k : EReal)) = ((∑ e ∈ L, ∑ k, g e k * w k : ℝ) : EReal) := by
    rw [SumSwap.coe_sum]
    refine Finset.sum_congr rfl fun e _ => ?_
    rw [SumSwap.coe_sum]
    exact Finset.sum_congr rfl fun k _ => (EReal.coe_mul _ _).symm
  have hk : ∀ k, Ideal.div (0 + ∑ e ∈ L, (g e k : EReal)) (d : EReal) * (w k : EReal)
      = (((∑ e ∈ L, g e k) / d * w k : ℝ) : EReal) := fun k => by
    rw [zero_add, ← SumSwap.coe_sum, div_coe_coe _ _ hd, ← EReal.coe_mul]
  rw [zero_add, hl, div_coe_coe _ _ hd]
  simp only [hk]
  rw [← SumSwap.coe_sum]
  congr 1
  rw [Finset.sum_comm, Finset.sum_div]
  refine Finset.sum_congr rfl fun k _ => ?_
  rw [← Finset.sum_mul, mul_div_right_comm]

/-! ## Images of reals -/

/-- An extended real that is the image of a real number. -/
def IsReal (v : EReal) : Prop := ∃ r : ℝ, v = (r : EReal)

theorem isReal_coe (r : ℝ) : IsReal (r : EReal) := ⟨r, rfl⟩
theorem isReal_zero : IsReal 0 := ⟨0, rfl⟩

theorem IsReal.add {a b : EReal} (ha : IsReal a) (hb : IsReal b) : IsReal (a + b) := by
  obtain ⟨x, rfl⟩ := ha; obtain ⟨y, rfl⟩ := hb; exact ⟨x + y, (EReal.coe_add x y).symm⟩

theorem IsReal.mul {a b : EReal} (ha : IsReal a) (hb : IsReal b) : IsReal (a * b) := by
  obtain ⟨x, rfl⟩ := ha; obtain ⟨y, rfl⟩ := hb; exact ⟨x * y, (EReal.coe_mul x y).symm⟩

theorem IsReal.max {a b : EReal} (ha : IsReal a) (hb : IsReal b) : IsReal (max a b) := by
  obtain ⟨x, rfl⟩ := ha; obtain ⟨y, rfl⟩ := hb
  rcases le_total x y with h | h
  · exact ⟨y, max_eq_right (EReal.coe_le_coe_iff.mpr h)⟩
  · exact ⟨x, max_eq_left (EReal.coe_le_coe_iff.mpr h)⟩

theorem IsReal.sum {ι : Type*} (s : Finset ι) (f : ι → EReal) (hf : ∀ i ∈ s, IsReal (f i)) : IsReal (∑ i ∈ s, f i) := by
  classical
  induction s using Finset.induction_on with
  | empty => exact ⟨0, by simp⟩
  | insert i s hi ih =>
    rw [Finset.sum_insert hi]
    exact (hf i (Finset.mem_insert_self i s)).add (ih fun j hj => hf j (Finset.mem_insert_of_mem hj))

theorem IsReal.div {a : EReal} (ha : IsReal a) (d : ℝ) (hd : d ≠ 0) : IsReal (Ideal.div a (d : EReal)) := by
  obtain ⟨x, rfl⟩ := ha; exact ⟨x / d, div_coe_coe x d hd⟩

end Cert.LibMeanProj

end
-- ==== Proof.LibGatheredSums.lean ====
/-
  Three small tools for sums of gathered rows on the extended reals.

  * A host gather of rows of a table `[N, D]`, or of entries of a vector `[N]`, by a one-column table of start indices,
    read at an index through ANY record of dimension numbers that equals the row-gather (vector-gather) record: entry
    `(r, q)` is the table's entry `(row, q)`, `row` the start index read signed and clamped into `[0, N − 1]`.
  * A vector made a column by one `broadcast_in_dim` and the column spread over `b` columns by a second one reads, at
    `(p, q)`, the vector at `p`.
  * A real factor moves across a finite sum of products of reals: `(0 + ∑ h·z)·y = 0 + ∑ h·(z·y)`. On the extended reals
    this needs every term real — `⊤·0` and `⊤ + ⊥` are where the law fails — and then it is the law of the real numbers.
-/
import proofs.«176623_j10050223473070_2_alg».proof.Proof.LibGatherRows
import proofs.«176623_j10050223473070_2_alg».proof.Proof.LibGatherVec
import proofs.«176623_j10050223473070_2_alg».proof.Proof.LibMeanProj
import Idealize.ShloMosaic.Lib.Pipeline.Value
import Idealize.ShloMosaic.Lib.ValueIdx

noncomputable section

open scoped BigOperators

namespace Cert.LibGatheredSums

open Idealize.ShloMosaic Idealize.ShloMosaic.ValueIdx
open Cert.LibGatherRows (clampRow)
open Cert.LibMeanProj (IsReal)

/-- A row gather through any record with the row-gather dimension numbers, at `(r, q)`. -/
theorem gather_rows_at {α : Type} {N D R w : ℕ} (g : GatherDims ⟨2, ![N, D]⟩ ⟨2, ![R, 1]⟩ ⟨2, ![R, D]⟩)
    {wf : GatherDims.WF ⟨2, ![N, D]⟩ ⟨2, ![R, 1]⟩ ⟨2, ![R, D]⟩ [1] [0] [] [0] [] 1 ![1, D]}
    (hg : g = Cert.LibGatherRows.rowDims2 N D R wf) (hN : 0 < N) (x : (⟨2, ![N, D]⟩ : Shape).Idx → α) (idx : IVec ⟨2, ![R, 1]⟩ w)
    (r : Fin R) (q : Fin D) : Host.gather g x idx (ix2 r q) = x (ix2 (clampRow N hN (idx (ix2 r (0 : Fin 1)))) q) := by
  subst hg
  exact Cert.LibGatherRows.gather_rows2_apply hN wf x idx r q

/-- A vector gather through any record with the vector-gather dimension numbers, at `r`. -/
theorem gather_vec_at {α : Type} {N R w : ℕ} (g : GatherDims ⟨1, ![N]⟩ ⟨2, ![R, 1]⟩ ⟨1, ![R]⟩)
    {wf : GatherDims.WF ⟨1, ![N]⟩ ⟨2, ![R, 1]⟩ ⟨1, ![R]⟩ [] [0] [] [0] [] 1 ![1]}
    (hg : g = Cert.LibGatherVec.vecDims N R wf) (hN : 0 < N) (x : (⟨1, ![N]⟩ : Shape).Idx → α) (idx : IVec ⟨2, ![R, 1]⟩ w)
    (r : Fin R) : Host.gather g x idx (ix1 r) = x (ix1 (clampRow N hN (idx (ix2 r (0 : Fin 1))))) := by
  subst hg
  exact Cert.LibGatherVec.gather_vec_apply hN wf x idx r

/-- A vector made a column and the column spread over `b` columns reads, at `(p, q)`, the vector at `p`. -/
theorem spread_apply {α : Type} {a b : ℕ} (v : (⟨1, ![a]⟩ : Shape).Idx → α)
    (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (q : Fin b) :
    broadcastInDim ⟨2, ![a, b]⟩ ![0, 1] h2 (broadcastInDim ⟨2, ![a, 1]⟩ ![0] h1 v) (ix2 p q) = v (ix1 p) := by
  have e2 : broadcastInDim ⟨2, ![a, b]⟩ ![0, 1] h2 (broadcastInDim ⟨2, ![a, 1]⟩ ![0] h1 v) (ix2 p q)
      = broadcastInDim ⟨2, ![a, 1]⟩ ![0] h1 v (ix2 p (0 : Fin 1)) := by
    refine broadcastInDim_apply ![0, 1] h2 _ (ix2 p q) (ix2 p (0 : Fin 1)) fun ax => ?_
    match ax with
    | ⟨0, _⟩ =>
      show p.val = if a = 1 then 0 else p.val
      split
      · have := p.isLt; omega
      · rfl
    | ⟨1, _⟩ => rfl
  have e1 : broadcastInDim ⟨2, ![a, 1]⟩ ![0] h1 v (ix2 p (0 : Fin 1)) = v (ix1 p) := by
    refine broadcastInDim_apply ![0] h1 v (ix2 p (0 : Fin 1)) (ix1 p) fun ax => ?_
    match ax with
    | ⟨0, _⟩ =>
      show p.val = if a = 1 then 0 else p.val
      split
      · have := p.isLt; omega
      · rfl
  rw [e2, e1]

/-- A real factor moves across a finite sum of products of reals. -/
theorem factor_out {ι : Type*} (L : Finset ι) (h z : ι → EReal) (y : EReal)
    (hh : ∀ e ∈ L, IsReal (h e)) (hz : ∀ e ∈ L, IsReal (z e)) (hy : IsReal y) :
    ((0 : EReal) + ∑ e ∈ L, h e * z e) * y = (0 : EReal) + ∑ e ∈ L, h e * (z e * y) := by
  classical
  obtain ⟨yr, rfl⟩ := hy
  rw [zero_add, zero_add]
  have hsum : ∀ (M : Finset ι), M ⊆ L → (∑ e ∈ M, h e * z e) * (yr : EReal) = ∑ e ∈ M, h e * (z e * (yr : EReal)) := by
    intro M
    induction M using Finset.induction_on with
    | empty => intro _; simp
    | insert a M ha ih =>
      intro hsub
      have haL : a ∈ L := hsub (Finset.mem_insert_self a M)
      obtain ⟨hr, hhr⟩ := hh a haL
      obtain ⟨zr, hzr⟩ := hz a haL
      have hM : IsReal (∑ e ∈ M, h e * z e) :=
        IsReal.sum _ _ fun e he => IsReal.mul (hh e (hsub (Finset.mem_insert_of_mem he))) (hz e (hsub (Finset.mem_insert_of_mem he)))
      obtain ⟨sr, hsr⟩ := hM
      rw [Finset.sum_insert ha, Finset.sum_insert ha, ← ih (fun e he => hsub (Finset.mem_insert_of_mem he)), hsr, hhr, hzr]
      simp only [← EReal.coe_mul, ← EReal.coe_add]
      congr 1; ring
  exact hsum L (Finset.Subset.refl L)

end Cert.LibGatheredSums

end
-- ==== Proof.Conv.lean ====
/-
  The one stage where the two programs differ, index by index on the extended reals.

  Write `H = x·W` (rows `H s`), `d = dinv`, and for a node `n` let `L n` be the set of edge ends (self loops included)
  whose destination is `n`; an end `e` has source `s e`. One program computes

      (∑ e ∈ L n, H (s e) c · d (s e)) · d n + b c,

  scaling the rows by `d` before they travel along the edges and the sum once more afterwards; the other computes

      (∑ e ∈ L n, H (s e) c · (d (s e) · d n')) + b c,

  where `n'` is the destination of `e` read again as a row number — which for `e ∈ L n` is `n` itself, the destination
  being a node number in range and hence neither negative nor clamped. The two agree because a finite real factor may
  be moved across a finite sum of reals: `H` is real when `x` and `W` are, and `d` is always real — a degree is a finite
  count, its reciprocal root is real where the degree is positive, and `d` is zero elsewhere.
-/
import proofs.«176623_j10050223473070_2_alg».proof.Proof.Stages
import proofs.«176623_j10050223473070_2_alg».proof.Proof.ScaledRows
import proofs.«176623_j10050223473070_2_alg».proof.Proof.LibScatterAddRows
import proofs.«176623_j10050223473070_2_alg».proof.Proof.LibScatterAddVec
import proofs.«176623_j10050223473070_2_alg».proof.Proof.LibGatherRows
import proofs.«176623_j10050223473070_2_alg».proof.Proof.LibGatherVec
import proofs.«176623_j10050223473070_2_alg».proof.Proof.LibConcatVec
import proofs.«176623_j10050223473070_2_alg».proof.Proof.LibColumn
import proofs.«176623_j10050223473070_2_alg».proof.Proof.LibLayerForms
import proofs.«176623_j10050223473070_2_alg».proof.Proof.LibLogistic
import proofs.«176623_j10050223473070_2_alg».proof.Proof.LibMeanProj
import proofs.«176623_j10050223473070_2_alg».proof.Proof.LibSumSwap
import proofs.«176623_j10050223473070_2_alg».proof.Proof.LibGatheredSums
import Idealize.ShloMosaic.Lib.Pipeline.Value
import Idealize.ShloMosaic.Lib.ValueIdx
import Idealize.ShloMosaic.PureOps.Ideal.Laws

set_option maxRecDepth 16384

noncomputable section

open scoped BigOperators

namespace Cert.Conv

open Idealize.ShloMosaic Idealize.ShloMosaic.ValueIdx Cert.KernelIdeal Cert.Stages
open Cert.LibScatterAddRows (landing)
open Cert.LibGatherRows (clampRow)
open Cert.LibMeanProj (IsReal)
open Cert.LibGatheredSums (spread_apply gather_rows_at gather_vec_at factor_out)

/-! ## Layout: a vector as a one-column index table, and a vector spread over the columns of a table -/

/-- The one-column index table at `(e, 0)` is the vector at `e`. -/
theorem col_apply (v : IVec S1700000 32) (e : Fin 1700000) : col v (ix2 e (0 : Fin 1)) = v (ix1 e) := by
  unfold col
  refine broadcastInDim_apply ![0] _ v (ix2 e (0 : Fin 1)) (ix1 e) fun a => ?_
  match a with
  | ⟨0, _⟩ => rfl

/-! ## Ends that land on a node -/

/-- An end lands on node `n` exactly when its destination, read signed, is `n`. -/
theorem mem_landing (d : IVec S1700000 32) (n : ℕ) (e : Fin 1700000) :
    e ∈ landing (col d) n ↔ (d (ix1 e)).toInt = (n : ℤ) := by
  unfold landing
  rw [Finset.mem_filter, col_apply]
  exact ⟨fun h => h.2, fun h => ⟨Finset.mem_univ _, h⟩⟩

/-- A node number that is not negative is left as it is by the wrap-around of negative numbers. -/
theorem wrap_of_toInt (d : IVec S1700000 32) (e : Fin 1700000) (n : ℕ) (h : (d (ix1 e)).toInt = (n : ℤ)) :
    wrap d (ix1 e) = d (ix1 e) := by
  unfold wrap
  rw [select_apply]
  show Scalar.select (IntOp.cmpi .slt (d (ix1 e)) 0#32) _ _ = _
  rw [Cert.LibConcatVec.slt_zero_of_toInt h, select_zero]

/-! ## Realness -/

/-- A degree is a real number: zero plus a finite sum of ones. -/
theorem deg_real (a1 : IVec S2x1600000 32) (j : Fin 100000) : IsReal (deg a1 (ix1 j)) := by
  unfold deg
  rw [Cert.LibScatterAddVec.scatterAdd_vec_apply scatter_S100000_S1700000x1_S1700000_n_0_0_1.wf scatter_S100000_S1700000x1_S1700000_n_0_0_1 rfl]
  refine IsReal.add ?_ (IsReal.sum _ _ fun e _ => ?_)
  · show IsReal (Ideal.ofBits .f32 0x00000000#32)
    rw [Ideal.ofBits_zero_f32]; exact Cert.LibMeanProj.isReal_zero
  · show IsReal (Ideal.ofBits .f32 0x3F800000#32)
    rw [Cert.LibLogistic.ofBits_one]; exact Cert.LibMeanProj.isReal_coe 1

/-- The reciprocal root where the entry is positive and zero elsewhere, at an index, for ANY vector. -/
theorem root_or_zero_apply (dg : FVec Ideal S100000 .f32) (j : Fin 100000) :
    select (cmpf .ogt dg (broadcastInDim S100000 ![] Facts₀.bcast_S_S100000 (constant S_ .f32 0x00000000#32)))
        (Host.rsqrt dg) (broadcastInDim S100000 ![] Facts₀.bcast_S_S100000 (id (constant S_ .f32 0x00000000#32))) (ix1 j)
      = Scalar.select (Ideal.cmp .ogt (dg (ix1 j)) (Ideal.ofBits .f32 0x00000000#32)) (Ideal.rsqrt (dg (ix1 j)))
          (Ideal.ofBits .f32 0x00000000#32) := rfl

/-- `dinv` is a real number at every node. -/
theorem dinv_real (a1 : IVec S2x1600000 32) (j : Fin 100000) : IsReal (dinv a1 (ix1 j)) := by
  obtain ⟨r, hr⟩ := deg_real a1 j
  unfold dinv
  rw [root_or_zero_apply (deg a1) j, hr, Ideal.ofBits_zero_f32]
  by_cases hpos : (0 : EReal) < (r : EReal)
  · have hc : Ideal.cmp .ogt (r : EReal) 0 = 1#1 := by
      unfold Ideal.cmp; simp [hpos]
    rw [hc, select_one, Ideal.rsqrt_coe]
    have hr0 : 0 < r := by exact_mod_cast hpos
    rw [if_neg (not_lt.mpr hr0.le), if_neg hr0.ne']
    exact Cert.LibMeanProj.isReal_coe _
  · have hc : Ideal.cmp .ogt (r : EReal) 0 = 0#1 := by
      unfold Ideal.cmp; simp [hpos]
    rw [hc, select_zero]
    exact Cert.LibMeanProj.isReal_zero

/-- An entry of `x·W` is real when the entries of `x` and `W` are. -/
theorem prod_real (a0 : FVec Ideal S100000x256 .f32) (a3 : FVec Ideal S256x64 .f32)
    (h0 : ∀ i, ∃ r : ℝ, a0 i = (r : EReal)) (h3 : ∀ i, ∃ r : ℝ, a3 i = (r : EReal)) (s : Fin 100000) (c : Fin 64) :
    IsReal (∑ k : Fin 256, a0 (ix2 s k) * a3 (ix2 k c)) :=
  IsReal.sum _ _ fun k _ => IsReal.mul (h0 _) (h3 _)

/-! ## The two sums, end by end -/

/-- The row of `x·W` an end's source names: the source wrapped and clamped into the table. -/
def srcRow (a1 : IVec S2x1600000 32) (e : Fin 1700000) : Fin 100000 := clampRow 100000 (by decide) (wrap (src a1) (ix1 e))

/-- Entry `(s, c)` of `x·W`. -/
def prodAt (a0 : FVec Ideal S100000x256 .f32) (a3 : FVec Ideal S256x64 .f32) (s : Fin 100000) (c : Fin 64) : EReal :=
  ∑ k : Fin 256, a0 (ix2 s k) * a3 (ix2 k c)

theorem gatherRows_eq : gather_S100000x64_S1700000x1_S1700000x64_1_0_n_n_0_1_164
    = Cert.LibGatherRows.rowDims2 100000 64 1700000 gather_S100000x64_S1700000x1_S1700000x64_1_0_n_n_0_1_164.wf := rfl

theorem gatherVec_eq : Cert.ReferenceIdeal.gather_S100000_S1700000x1_S1700000_n_0_n_n_0_1_1
    = Cert.LibGatherVec.vecDims 100000 1700000 Cert.ReferenceIdeal.gather_S100000_S1700000x1_S1700000_n_0_n_n_0_1_1.wf := rfl

/-- What travels along end `e` in the program that scales first: the source's row of `x·W`, scaled by `dinv` at the source. -/
theorem scaled_summand (a0 : FVec Ideal S100000x256 .f32) (a1 : IVec S2x1600000 32) (a3 : FVec Ideal S256x64 .f32)
    (e : Fin 1700000) (c : Fin 64) :
    extf (F := Ideal) .f32 (Host.gather gather_S100000x64_S1700000x1_S1700000x64_1_0_n_n_0_1_164
        (Cert.KernelIdeal.ScaledRows.scaled a0 a3 (dinvCol a1) : FVec Ideal S100000x64 .bf16) (col (wrap (src a1)))) Facts₀.bitsLt_bf16_f32 (ix2 e c)
      = prodAt a0 a3 (srcRow a1 e) c * dinv a1 (ix1 (srcRow a1 e)) := by
  unfold srcRow
  rw [extf_apply, gather_rows_at _ gatherRows_eq (by decide), col_apply]
  have hs : ∀ s : Fin 100000, Cert.KernelIdeal.ScaledRows.scaled a0 a3 (dinvCol a1) (ix2 s c)
      = prodAt a0 a3 s c * dinv a1 (ix1 s) := fun s => by
    show Cert.KernelIdeal.ScaledRows.scaledAt a0 a3 (dinvCol a1) s c = _
    unfold Cert.KernelIdeal.ScaledRows.scaledAt prodAt dinvCol
    rw [Cert.LibColumn.shapeCast_a_a1_apply]
  rw [hs]

/-- What travels along end `e` in the program that weighs the edges: the source's row of `x·W`, times `dinv` at the
    source, times `dinv` at the destination read as a row number. -/
theorem weighted_summand (a0 : FVec Ideal S100000x256 .f32) (a1 : IVec S2x1600000 32) (a3 : FVec Ideal S256x64 .f32)
    (e : Fin 1700000) (c : Fin 64) :
    mulf (Host.gather gather_S100000x64_S1700000x1_S1700000x64_1_0_n_n_0_1_164
          (Host.dotGeneral Cert.ReferenceIdeal.dot_S100000x256_S256x64_S100000x64_1_0_0_1_n_n none a0 a3) (col (wrap (src a1))))
        (broadcastInDim Cert.ReferenceIdeal.S1700000x64 ![0, 1] Cert.ReferenceIdeal.Facts₀.bcast_S1700000x1_S1700000x64_0_1
          (broadcastInDim S1700000x1 ![0] Cert.ReferenceIdeal.Facts₀.bcast_S1700000_S1700000x1_0
            (mulf (Host.gather Cert.ReferenceIdeal.gather_S100000_S1700000x1_S1700000_n_0_n_n_0_1_1 (dinv a1) (col (wrap (src a1))))
              (Host.gather Cert.ReferenceIdeal.gather_S100000_S1700000x1_S1700000_n_0_n_n_0_1_1 (dinv a1) (col (wrap (dst a1))))))) (ix2 e c)
      = prodAt a0 a3 (srcRow a1 e) c
          * (dinv a1 (ix1 (srcRow a1 e)) * dinv a1 (ix1 (clampRow 100000 (by decide) (wrap (dst a1) (ix1 e))))) := by
  unfold srcRow
  have hd : ∀ s : Fin 100000, Host.dotGeneral Cert.ReferenceIdeal.dot_S100000x256_S256x64_S100000x64_1_0_0_1_n_n none a0 a3 (ix2 s c)
      = prodAt a0 a3 s c := fun s => Cert.LayerForms.dotGeneral_plain_apply _ rfl none .single a0 a3 s c
  rw [mulf_apply, gather_rows_at _ gatherRows_eq (by decide), col_apply, spread_apply, mulf_apply,
    gather_vec_at _ gatherVec_eq (by decide), gather_vec_at _ gatherVec_eq (by decide), col_apply, col_apply, hd]

/-! ## The stage where the programs differ -/

theorem scatterRows_eq : scatter_S100000x64_S1700000x1_S1700000x64_1_0_0_1
    = Cert.LibScatterAddRows.rowDims 100000 64 1700000 scatter_S100000x64_S1700000x1_S1700000x64_1_0_0_1.wf := rfl

/-- Scaling the rows before they travel and the sums afterwards is weighing each edge by `dinv` at both its ends, when
    `x` and `W` are real. -/
theorem pre_eq (a0 : FVec Ideal S100000x256 .f32) (a1 : IVec S2x1600000 32) (a3 : FVec Ideal S256x64 .f32) (a4 : FVec Ideal S64 .f32)
    (h0 : ∀ i, ∃ r : ℝ, a0 i = (r : EReal)) (h3 : ∀ i, ∃ r : ℝ, a3 i = (r : EReal)) :
    preScaled (Cert.KernelIdeal.ScaledRows.scaled a0 a3 (dinvCol a1)) a1 a4 = preWeighted a0 a1 a3 a4 := by
  funext i
  obtain ⟨n, c, rfl⟩ : ∃ (n : Fin 100000) (c : Fin 64), i = ix2 n c := ⟨i 0, i 1, eq_ix2 i⟩
  unfold preScaled preScaledOf preWeighted
  rw [addf_apply, addf_apply, mulf_apply]
  refine congrArg (· + biasRows a4 (ix2 n c)) ?_
  rw [Cert.LibScatterAddRows.scatterAdd_rows_apply _ (col (dst a1)) _ scatterRows_eq,
    Cert.LibScatterAddRows.scatterAdd_rows_apply _ (col (dst a1)) _ scatterRows_eq, spread_apply]
  have hz : zeros (ix2 n c) = 0 := (rfl : zeros (ix2 n c) = Ideal.ofBits .f32 0x00000000#32).trans Ideal.ofBits_zero_f32
  rw [hz, Finset.sum_congr rfl fun e _ => scaled_summand a0 a1 a3 e c]
  have hfix : ∀ e ∈ landing (col (dst a1)) n.val,
      prodAt a0 a3 (srcRow a1 e) c
          * (dinv a1 (ix1 (srcRow a1 e)) * dinv a1 (ix1 (clampRow 100000 (by decide) (wrap (dst a1) (ix1 e)))))
        = prodAt a0 a3 (srcRow a1 e) c * (dinv a1 (ix1 (srcRow a1 e)) * dinv a1 (ix1 n)) :=
    fun e he => by
      have hd := (mem_landing (dst a1) n.val e).mp he
      rw [wrap_of_toInt (dst a1) e n.val hd, Cert.LibConcatVec.clampRow_of_toInt (by decide) (dst a1 (ix1 e)) n hd]
  rw [Finset.sum_congr rfl fun e he => (weighted_summand a0 a1 a3 e c).trans (hfix e he)]
  exact factor_out _ _ _ _ (fun e _ => prod_real a0 a3 h0 h3 _ c) (fun e _ => dinv_real a1 _) (dinv_real a1 n)

end Cert.Conv

end
-- ==== Proof.HeadHost.lean ====
/-
  The reference's host spelling of the perceptron head is the head row by row.

  The host program lays the two operand arrays side by side, forms the first layer as a general dot product plus the bias
  broadcast to a row and over the rows, applies the leaky rectifier as a selection between the layer's value and a fixed
  multiple of it (by a comparison with a zero constant broadcast to the shape), forms the second layer the same way, and
  spells the logistic function as `1 / (1 + exp (-x))` with the ones rank-0 constants broadcast to the shape. Each layer
  is the dense layer of `Cert.DenseLayer` (`Cert.LayerForms.host_layer`); an entry of a dense layer depends on one row of
  its operand only, so entry `(p, 0)` of the result is `Cert.HeadRow.headRow` of row `p` of the two operand arrays.
-/
import proofs.«176623_j10050223473070_2_alg».proof.ReferenceIdeal
import proofs.«176623_j10050223473070_2_alg».proof.Proof.HeadRow
import proofs.«176623_j10050223473070_2_alg».proof.Proof.LibLayerForms
import proofs.«176623_j10050223473070_2_alg».proof.Proof.LibSideBySide

noncomputable section

open scoped BigOperators

namespace Cert.ReferenceIdeal.HeadHost

open Cert.ReferenceIdeal Idealize.ShloMosaic Idealize.ShloMosaic.ValueIdx Cert.HeadRow Cert.DenseLayer Cert.LayerForms

variable [Facts₀]
open Facts₀

/-- The two operand arrays side by side, at row `p`, are the two rows laid end to end. -/
theorem cat_row (xi xj : FVec Ideal S16384x64 .f32) (p : Fin 16384) (k : Fin 128) :
    concatenate S16384x128 1 [⟨S16384x64, xi⟩, ⟨S16384x64, xj⟩] concatenates_S16384x64_S16384x64_S16384x128_d1 (ix2 p k)
      = catRow (fun k => xi (ix2 p k)) (fun k => xj (ix2 p k)) k := by
  by_cases h : k.val < 64
  · rw [catRow_left _ _ k ⟨k.val, h⟩ rfl]
    exact Cert.LibSideBySide.pair_cols_left xi xj _ p ⟨k.val, h⟩ k rfl
  · have h' : k.val - 64 < 64 := by have := k.isLt; omega
    rw [catRow_right _ _ k ⟨k.val - 64, h'⟩ (by show k.val = 64 + (k.val - 64); omega)]
    exact Cert.LibSideBySide.pair_cols_right xi xj _ p ⟨k.val - 64, h'⟩ k (by show k.val = 64 + (k.val - 64); omega)

/-- The host's head: entry `(p, 0)` is the head of row `p`. -/
theorem host_head (xi xj : FVec Ideal S16384x64 .f32) (a5 : FVec Ideal S128x16 .f32) (a6 : FVec Ideal S16 .f32)
    (a7 : FVec Ideal S16x1 .f32) (a8 : FVec Ideal S1 .f32) :
    Host.divf (broadcastInDim S16384x1 ![] bcast_S_S16384x1 (constant (F := Ideal) S_ .f32 0x3F800000#32)) (addf (broadcastInDim S16384x1 ![] bcast_S_S16384x1 (constant (F := Ideal) S_ .f32 0x3F800000#32)) (Host.exp (Host.negf (addf (Host.dotGeneral dot_S16384x16_S16x1_S16384x1_1_0_0_1_n_n none (select (cmpf .oge (addf (Host.dotGeneral dot_S16384x128_S128x16_S16384x16_1_0_0_1_n_n none (concatenate S16384x128 1 [⟨S16384x64, xi⟩, ⟨S16384x64, xj⟩] concatenates_S16384x64_S16384x64_S16384x128_d1) a5) (broadcastInDim S16384x16 ![0, 1] bcast_S1x16_S16384x16_0_1 (broadcastInDim S1x16 ![1] bcast_S16_S1x16_1 a6))) (broadcastInDim S16384x16 ![] bcast_S_S16384x16 (constant (F := Ideal) S_ .f32 0x00000000#32))) (addf (Host.dotGeneral dot_S16384x128_S128x16_S16384x16_1_0_0_1_n_n none (concatenate S16384x128 1 [⟨S16384x64, xi⟩, ⟨S16384x64, xj⟩] concatenates_S16384x64_S16384x64_S16384x128_d1) a5) (broadcastInDim S16384x16 ![0, 1] bcast_S1x16_S16384x16_0_1 (broadcastInDim S1x16 ![1] bcast_S16_S1x16_1 a6))) (mulf (broadcastInDim S16384x16 ![] bcast_S_S16384x16 (constant (F := Ideal) S_ .f32 0x3C23D70A#32)) (addf (Host.dotGeneral dot_S16384x128_S128x16_S16384x16_1_0_0_1_n_n none (concatenate S16384x128 1 [⟨S16384x64, xi⟩, ⟨S16384x64, xj⟩] concatenates_S16384x64_S16384x64_S16384x128_d1) a5) (broadcastInDim S16384x16 ![0, 1] bcast_S1x16_S16384x16_0_1 (broadcastInDim S1x16 ![1] bcast_S16_S1x16_1 a6))))) a7) (broadcastInDim S16384x1 ![0, 1] bcast_S1x1_S16384x1_0_1 (broadcastInDim S1x1 ![1] bcast_S1_S1x1_1 a8))))))
      = fun i : S16384x1.Idx => headRow (fun k => xi (ix2 (i 0) k)) (fun k => xj (ix2 (i 0) k)) a5 (fun j => a6 (ix1 j)) a7 (a8 (ix1 (0 : Fin 1))) := by
  rw [host_layer dot_S16384x128_S128x16_S16384x16_1_0_0_1_n_n rfl none _ a5 a6 bcast_S16_S1x16_1 bcast_S1x16_S16384x16_0_1,
    host_layer dot_S16384x16_S16x1_S16384x1_1_0_0_1_n_n rfl none _ a7 a8 bcast_S1_S1x1_1 bcast_S1x1_S16384x1_0_1]
  funext i
  obtain ⟨p, u, rfl⟩ : ∃ (p : Fin 16384) (u : Fin 1), i = ix2 p u := ⟨i 0, i 1, eq_ix2 i⟩
  obtain rfl : u = 0 := Subsingleton.elim _ _
  show Ideal.div (Ideal.ofBits .f32 0x3F800000#32) (Ideal.ofBits .f32 0x3F800000#32
      + Ideal.exp (-((∑ j : Fin 16, leaky ((∑ k : Fin 128,
          concatenate S16384x128 1 [⟨S16384x64, xi⟩, ⟨S16384x64, xj⟩] concatenates_S16384x64_S16384x64_S16384x128_d1 (ix2 p k)
            * a5 (ix2 k j)) + a6 (ix1 j)) * a7 (ix2 j (0 : Fin 1))) + a8 (ix1 (0 : Fin 1))))) = _
  rw [logistic_words]
  exact headRow_of _ _ a5 _ a7 _ _ (cat_row xi xj p)

end Cert.ReferenceIdeal.HeadHost

end
-- ==== Proof.Bridge.lean ====
/-
  The two programs' results are one function of the arguments.

  Both results are, row by row, the head of the two rows of the rectified node table that a query pair names. The
  tables agree because scaling the rows of `x·W` by `dinv` before they travel along the edges and the sums afterwards
  is weighing each edge by `dinv` at both its ends (real `x` and `W`); the head's biases are read the same whether they
  reach it as vectors or as one-row tables.
-/
import proofs.«176623_j10050223473070_2_alg».proof.Proof.RefRun
import proofs.«176623_j10050223473070_2_alg».proof.Proof.Conv
import proofs.«176623_j10050223473070_2_alg».proof.Proof.HeadHost
import Idealize.ShloMosaic.Lib.ValueLayout

set_option maxRecDepth 16384

noncomputable section

namespace Cert.Bridge

open Idealize.ShloMosaic Idealize.ShloMosaic.ValueIdx Cert.KernelIdeal Cert.Stages

/-- The reference's result term is, row by row, the head of the picked rows of the table built from rows scaled
    before they travel, with the biases read off one-row tables. -/
theorem results_agree (a0 : FVec Ideal S100000x256 .f32) (a1 : IVec S2x1600000 32) (a2 : IVec S16384x2 32) (a3 : FVec Ideal S256x64 .f32)
    (a4 : FVec Ideal S64 .f32) (a5 : FVec Ideal S128x16 .f32) (a6 : FVec Ideal S16 .f32) (a7 : FVec Ideal S16x1 .f32)
    (a8 : FVec Ideal S1 .f32) (h0 : ∀ i, ∃ r : ℝ, a0 i = (r : EReal)) (h3 : ∀ i, ∃ r : ℝ, a3 i = (r : EReal)) :
    Cert.ReferenceIdeal.Staged.result a0 a1 a2 a3 a4 a5 a6 a7 a8
      = fun i : S16384x1.Idx => Cert.HeadRow.headRow
          (fun k => pickFst (rectify (preScaled (Cert.KernelIdeal.ScaledRows.scaled a0 a3 (dinvCol a1)) a1 a4)) a2 (ix2 (i 0) k))
          (fun k => pickSnd (rectify (preScaled (Cert.KernelIdeal.ScaledRows.scaled a0 a3 (dinvCol a1)) a1 a4)) a2 (ix2 (i 0) k)) a5
          (fun j => shapeCast S1x16 a6 Facts₀.shapeCasts_S16_S1x16 (ix2 (0 : Fin 1) j)) a7
          (shapeCast S1x1 a8 Facts₀.shapeCasts_S1_S1x1 (ix2 (0 : Fin 1) (0 : Fin 1))) := by
  unfold Cert.ReferenceIdeal.Staged.result
  rw [Cert.Conv.pre_eq a0 a1 a3 a4 h0 h3]
  refine (Cert.ReferenceIdeal.HeadHost.host_head _ _ a5 a6 a7 a8).trans ?_
  funext i
  simp only [shapeCast_a_1a_apply]

end Cert.Bridge

end
-- ==== Proof.FiniteInputs.lean ====
/-
  Finiteness of two inputs, read out of the precondition.

  The precondition is the conjunction (by `and` on one-bit words) of seven tests, one per float input,
  each of the form "every entry `x` of the array satisfies `|x| < +∞`": the array of one-bit results of the
  comparison `max x (-x) < +∞` reduced by `and` over all axes from the initial word 1. If the whole
  conjunction is 1 then each conjunct is 1, a reduction by `and` that is 1 met only 1s, and an extended real
  whose absolute value is strictly below `⊤` is neither `⊤` nor `⊥`: it is (the image of) a real number.
  Only the first input ([100000, 256]) and the fourth ([256, 64]) are read out here.
-/
import proofs.«176623_j10050223473070_2_alg».proof.Defs
import proofs.«176623_j10050223473070_2_alg».proof.Proof.Gen.Pre_finite_inputs
import Idealize.ShloMosaic.Lib.ReduceAll
import Idealize.ShloMosaic.Lib.ValueIdx

noncomputable section

namespace Cert.FiniteInputs

open Idealize.ShloMosaic Idealize.SL.Sem Idealize.ShloMosaic.ValueIdx

/-- The shape of rank 0 has exactly one index (the empty tuple). -/
instance subsingleton_scalar_idx : Subsingleton Cert.Pre_finite_inputs.S_.Idx :=
  ⟨fun a b => funext fun d => d.elim0⟩

/-- The f32 word `0x7F800000` (sign 0, exponent all ones, fraction 0) denotes `+∞`. -/
theorem ofBits_inf : Ideal.ofBits .f32 0x7F800000#32 = ⊤ := by
  simp [Ideal.ofBits, Ideal.ieee]

/-- An extended real `x` with `|x| = max x (-x)` strictly below `+∞` is a real number: at `x = ⊤` the
    maximum is `⊤`, at `x = ⊥` it is `-⊥ = ⊤`, and `⊤ < ⊤` is false. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- One conjunct of the precondition, at any shape: if the `and` over all entries of the test
    `|x i| < +∞` is 1, every entry of `x` is a real number. -/
theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x)
            (broadcastInDim s ![] hb (constant (F := Ideal) Cert.Pre_finite_inputs.S_ .f32 0x7F800000#32)))
          (constantI Cert.Pre_finite_inputs.S_ 1 1#1) hr hu ix0 = 1#1)
    (i : s.Idx) : ∃ r : ℝ, x i = (r : EReal) :=
  real_of_abs_lt_inf (x i) (Host.reduce_andi_all _ _ hr hu ix0 e i)

/-- If the precondition's function is all ones on nine argument arrays, every entry of the first
    ([100000, 256]) and of the fourth ([256, 64]) is a real number. The function is a left-nested
    conjunction `((((((t0 ∧ t3) ∧ t4) ∧ t5) ∧ t6) ∧ t7) ∧ t8)`: peel the five outer conjuncts, then split. -/
theorem real_inputs [hP : Cert.Pre_finite_inputs.Facts]
    (x0 : FVec Ideal Cert.KernelIdeal.S100000x256 .f32) (x1 : IVec Cert.KernelIdeal.S2x1600000 32)
    (x2 : IVec Cert.KernelIdeal.S16384x2 32) (x3 : FVec Ideal Cert.KernelIdeal.S256x64 .f32)
    (x4 : FVec Ideal Cert.KernelIdeal.S64 .f32) (x5 : FVec Ideal Cert.KernelIdeal.S128x16 .f32)
    (x6 : FVec Ideal Cert.KernelIdeal.S16 .f32) (x7 : FVec Ideal Cert.KernelIdeal.S16x1 .f32)
    (x8 : FVec Ideal Cert.KernelIdeal.S1 .f32)
    (h : Cert.Pre_finite_inputs.fn (F := Ideal) x0 x1 x2 x3 x4 x5 x6 x7 x8 = (fun _ => 1#1)) :
    (∀ i, ∃ r : ℝ, x0 i = (r : EReal)) ∧ (∀ i, ∃ r : ℝ, x3 i = (r : EReal)) := by
  have h0 := congrFun h ix0
  dsimp only [Cert.Pre_finite_inputs.fn, Cert.Pre_finite_inputs.fn_part1] at h0
  obtain ⟨h1, -⟩ := IntOp.andi_eq_one.1 h0
  obtain ⟨h2, -⟩ := IntOp.andi_eq_one.1 h1
  obtain ⟨h3, -⟩ := IntOp.andi_eq_one.1 h2
  obtain ⟨h4, -⟩ := IntOp.andi_eq_one.1 h3
  obtain ⟨h5, -⟩ := IntOp.andi_eq_one.1 h4
  obtain ⟨ha, hb⟩ := IntOp.andi_eq_one.1 h5
  exact ⟨fun i => all_real x0 _ _ _ ha i, fun i => all_real x3 _ _ _ hb i⟩

/-- Under the program's precondition, on every device, every entry of the first and of the fourth
    argument array is a real number. -/
theorem real_of_pre [hP : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
      ∧ (∀ i, ∃ r : ℝ, m ((c.tc : Thread Cert.KernelIdeal.nD Cert.KernelIdeal.τ).loc Cert.KernelIdeal.main_arg3) i = (r : EReal)) :=
  real_inputs _ _ _ _ _ _ _ _ _ (hpre c)

end Cert.FiniteInputs

end
-- ==== Proof.lean ====
/-
  The certificate of the graph-convolution link predictor: a kernel program of two kernel regions (the dense product
  `x·W` with its rows scaled by `1/√degree`; the two-layer head on the picked pairs of rows) among host gathers and
  scatters, against a plain host reference, on the extended reals.

  The three frames: the two kernel programs' are the generated frames; the reference's is its run with the result
  dropped. The idealization rewrote no operation, so `preserves` is `True`. For the value claim both programs end, row
  by row of the result, at the head of the two rows of the rectified node table a query pair names: the kernel program
  by walking its run boundary by boundary, the reference by reading its one line of operations piece by piece; the two
  node tables agree because a real factor moves across a finite sum of reals — the inputs `x` and `W` are real by the
  precondition, and `1/√degree` is always real.
-/
import proofs.«176623_j10050223473070_2_alg».proof.Defs
import proofs.«176623_j10050223473070_2_alg».proof.Proof.Gen.Kernel
import proofs.«176623_j10050223473070_2_alg».proof.Proof.Gen.Kernel.Skeleton
import proofs.«176623_j10050223473070_2_alg».proof.Proof.Gen.Kernel.Launch
import proofs.«176623_j10050223473070_2_alg».proof.Proof.Gen.Kernel.Points
import proofs.«176623_j10050223473070_2_alg».proof.Proof.Gen.Kernel.Frame
import proofs.«176623_j10050223473070_2_alg».proof.Proof.Gen.KernelIdeal
import proofs.«176623_j10050223473070_2_alg».proof.Proof.Gen.KernelIdeal.Skeleton
import proofs.«176623_j10050223473070_2_alg».proof.Proof.Gen.KernelIdeal.Launch
import proofs.«176623_j10050223473070_2_alg».proof.Proof.Gen.KernelIdeal.Points
import proofs.«176623_j10050223473070_2_alg».proof.Proof.Gen.KernelIdeal.Frame
import proofs.«176623_j10050223473070_2_alg».proof.Proof.Gen.ReferenceIdeal
import proofs.«176623_j10050223473070_2_alg».proof.Proof.Gen.Pre_finite_inputs
import proofs.«176623_j10050223473070_2_alg».proof.Proof.KernelRun
import proofs.«176623_j10050223473070_2_alg».proof.Proof.KernelValue
import proofs.«176623_j10050223473070_2_alg».proof.Proof.RefRun
import proofs.«176623_j10050223473070_2_alg».proof.Proof.Bridge
import proofs.«176623_j10050223473070_2_alg».proof.Proof.FiniteInputs
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.Staged.run m ρ)

theorem preserves : Cert.preserves_Kernel_KernelIdeal := trivial

/-- From memories agreeing on the arguments both programs end with the same result: the kernel program's last
    boundary contents at its result buffer, which is the reference's result term of the same arguments. -/
theorem algebraic : Cert.algebraic_KernelIdeal_ReferenceIdeal := by
  intro m ρ m' ρ' hpre hagree
  refine ⟨fun c => Cert.KernelIdeal.Gen.W8 m ρ c (Proc.devRef .tc Cert.KernelIdeal.main_v59), Cert.KernelIdeal.Named.run_named m ρ, ?_⟩
  refine (θ_run Cert.ReferenceIdeal.defs _ _).mono (fun _ h c => ⟨(h c).1.trans ?_, (h c).2⟩)
    (Cert.ReferenceIdeal.Staged.run m' ρ')
  obtain ⟨h0, h3⟩ := Cert.FiniteInputs.real_of_pre m hpre c
  rw [(hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2]
  refine (Cert.Bridge.results_agree _ _ _ _ _ _ _ _ _ h0 h3).trans ?_
  exact (Cert.KernelIdeal.ResultValue.result_eq m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
